-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v99) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1280000 : Shape := ⟨2, ![2, 1280000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1280000 32) (main_arg2 : FVec F S64x128 .f32) (main_arg3 : FVec F S128 .f32) (main_arg4 : FVec F S128x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x64 : Shape := ⟨2, ![100000, 64]⟩
abbrev S2x1280000 : Shape := ⟨2, ![2, 1280000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1280000 : Shape := ⟨2, ![1, 1280000]⟩
abbrev S1280000 : Shape := ⟨1, ![1280000]⟩
abbrev S1380000 : Shape := ⟨1, ![1380000]⟩
abbrev S100000x128 : Shape := ⟨2, ![100000, 128]⟩
abbrev S10000x64 : Shape := ⟨2, ![10000, 64]⟩
abbrev S10000x128 : Shape := ⟨2, ![10000, 128]⟩
abbrev S_ : Shape := ⟨0, ![]⟩
abbrev S1380000x1 : Shape := ⟨2, ![1380000, 1]⟩
abbrev S1380000x128 : Shape := ⟨2, ![1380000, 128]⟩
abbrev S10000x1 : Shape := ⟨2, ![10000, 1]⟩
abbrev S1x128 : Shape := ⟨2, ![1, 128]⟩
abbrev S1380000x64 : Shape := ⟨2, ![1380000, 64]⟩
abbrev S1x64 : Shape := ⟨2, ![1, 64]⟩
abbrev S1280000x1 : Shape := ⟨2, ![1280000, 1]⟩
abbrev S1280000x64 : Shape := ⟨2, ![1280000, 64]⟩
abbrev S10240x64 : Shape := ⟨2, ![10240, 64]⟩
abbrev S10240 : Shape := ⟨1, ![10240]⟩

abbrev nBuf : Space → Nat
  | .hbm => 136
  | .vmem => 38
  | .smem => 0
  | _ => 0

abbrev hbmTy0_0 (i : Nat) : BufTy := match i % 128 with
  | 0 => ⟨S100000x64, .f32⟩
  | 1 => ⟨S2x1280000, .i32⟩
  | 2 => ⟨S64x128, .f32⟩
  | 3 => ⟨S128, .f32⟩
  | 4 => ⟨S128x64, .f32⟩
  | 5 => ⟨S64, .f32⟩
  | 6 => ⟨S100000, .i32⟩
  | 7 => ⟨S1x1280000, .i32⟩
  | 8 => ⟨S1280000, .i32⟩
  | 9 => ⟨S1380000, .i32⟩
  | 10 => ⟨S1x1280000, .i32⟩
  | 11 => ⟨S1280000, .i32⟩
  | 12 => ⟨S1380000, .i32⟩
  | 13 => ⟨S100000x128, .f32⟩
  | 14 => ⟨S_, .f32⟩
  | 15 => ⟨S1380000, .f32⟩
  | 16 => ⟨S_, .f32⟩
  | 17 => ⟨S100000, .f32⟩
  | 18 => ⟨S1380000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1380000, .i32⟩
  | 30 => ⟨S1380000, .i1⟩
  | 31 => ⟨S_, .i32⟩
  | 32 => ⟨S1380000, .i32⟩
  | 33 => ⟨S1380000, .i32⟩
  | 34 => ⟨S1380000, .i32⟩
  | 35 => ⟨S1380000x1, .i32⟩
  | 36 => ⟨S1380000, .f32⟩
  | 37 => ⟨S_, .i32⟩
  | 38 => ⟨S1380000, .i32⟩
  | 39 => ⟨S1380000, .i1⟩
  | 40 => ⟨S_, .i32⟩
  | 41 => ⟨S1380000, .i32⟩
  | 42 => ⟨S1380000, .i32⟩
  | 43 => ⟨S1380000, .i32⟩
  | 44 => ⟨S1380000x1, .i32⟩
  | 45 => ⟨S1380000, .f32⟩
  | 46 => ⟨S1380000, .f32⟩
  | 47 => ⟨S_, .i32⟩
  | 48 => ⟨S1380000, .i32⟩
  | 49 => ⟨S1380000, .i1⟩
  | 50 => ⟨S_, .i32⟩
  | 51 => ⟨S1380000, .i32⟩
  | 52 => ⟨S1380000, .i32⟩
  | 53 => ⟨S1380000, .i32⟩
  | 54 => ⟨S1380000x1, .i32⟩
  | 55 => ⟨S1380000x128, .f32⟩
  | 56 => ⟨S1380000x1, .f32⟩
  | 57 => ⟨S1380000x128, .f32⟩
  | 58 => ⟨S_, .f32⟩
  | 59 => ⟨S100000x128, .f32⟩
  | 60 => ⟨S1380000x1, .i32⟩
  | 61 => ⟨S100000x128, .f32⟩
  | 62 => ⟨S100000x128, .f32⟩
  | 63 => ⟨S100000x64, .f32⟩
  | 64 => ⟨S_, .f32⟩
  | 65 => ⟨S1380000, .f32⟩
  | 66 => ⟨S_, .f32⟩
  | 67 => ⟨S100000, .f32⟩
  | 68 => ⟨S1380000x1, .i32⟩
  | 69 => ⟨S100000, .f32⟩
  | 70 => ⟨S_, .f32⟩
  | 71 => ⟨S100000, .f32⟩
  | 72 => ⟨S100000, .i1⟩
  | 73 => ⟨S100000, .f32⟩
  | 74 => ⟨S_, .f32⟩
  | 75 => ⟨S_, .f32⟩
  | 76 => ⟨S100000, .f32⟩
  | 77 => ⟨S100000, .f32⟩
  | 78 => ⟨S_, .i32⟩
  | 79 => ⟨S1380000, .i32⟩
  | 80 => ⟨S1380000, .i1⟩
  | 81 => ⟨S_, .i32⟩
  | 82 => ⟨S1380000, .i32⟩
  | 83 => ⟨S1380000, .i32⟩
  | 84 => ⟨S1380000, .i32⟩
  | 85 => ⟨S1380000x1, .i32⟩
  | 86 => ⟨S1380000, .f32⟩
  | 87 => ⟨S_, .i32⟩
  | 88 => ⟨S1380000, .i32⟩
  | 89 => ⟨S1380000, .i1⟩
  | 90 => ⟨S_, .i32⟩
  | 91 => ⟨S1380000, .i32⟩
  | 92 => ⟨S1380000, .i32⟩
  | 93 => ⟨S1380000, .i32⟩
  | 94 => ⟨S1380000x1, .i32⟩
  | 95 => ⟨S1380000, .f32⟩
  | 96 => ⟨S1380000, .f32⟩
  | 97 => ⟨S_, .i32⟩
  | 98 => ⟨S1380000, .i32⟩
  | 99 => ⟨S1380000, .i1⟩
  | 100 => ⟨S_, .i32⟩
  | 101 => ⟨S1380000, .i32⟩
  | 102 => ⟨S1380000, .i32⟩
  | 103 => ⟨S1380000, .i32⟩
  | 104 => ⟨S1380000x1, .i32⟩
  | 105 => ⟨S1380000x64, .f32⟩
  | 106 => ⟨S1380000x1, .f32⟩
  | 107 => ⟨S1380000x64, .f32⟩
  | 108 => ⟨S_, .f32⟩
  | 109 => ⟨S100000x64, .f32⟩
  | 110 => ⟨S1380000x1, .i32⟩
  | 111 => ⟨S100000x64, .f32⟩
  | 112 => ⟨S100000x64, .f32⟩
  | 113 => ⟨S1x1280000, .i32⟩
  | 114 => ⟨S1280000, .i32⟩
  | 115 => ⟨S1x1280000, .i32⟩
  | 116 => ⟨S1280000, .i32⟩
  | 117 => ⟨S_, .i32⟩
  | 118 => ⟨S1280000, .i32⟩
  | 119 => ⟨S1280000, .i1⟩
  | 120 => ⟨S_, .i32⟩
  | 121 => ⟨S1280000, .i32⟩
  | 122 => ⟨S1280000, .i32⟩
  | 123 => ⟨S1280000, .i32⟩
  | 124 => ⟨S1280000x1, .i32⟩
  | 125 => ⟨S1280000x64, .f32⟩
  | 126 => ⟨S_, .i32⟩
  | 127 => ⟨S1280000, .i32⟩
  | _ => ⟨S100000x64, .f32⟩

abbrev hbmTy0_1 (i : Nat) : BufTy := match i % 128 with
  | 0 => ⟨S1280000, .i1⟩
  | 1 => ⟨S_, .i32⟩
  | 2 => ⟨S1280000, .i32⟩
  | 3 => ⟨S1280000, .i32⟩
  | 4 => ⟨S1280000, .i32⟩
  | 5 => ⟨S1280000x1, .i32⟩
  | 6 => ⟨S1280000x64, .f32⟩
  | 7 => ⟨S1280000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S128x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S64, .f32⟩
  | .local _ .vmem, ⟨30, _⟩ => ⟨S10000x64, .f32⟩
  | .local _ .vmem, ⟨31, _⟩ => ⟨S10000x64, .f32⟩
  | .local _ .vmem, ⟨32, _⟩ => ⟨S10240x64, .f32⟩
  | .local _ .vmem, ⟨33, _⟩ => ⟨S10240x64, .f32⟩
  | .local _ .vmem, ⟨34, _⟩ => ⟨S10240x64, .f32⟩
  | .local _ .vmem, ⟨35, _⟩ => ⟨S10240x64, .f32⟩
  | .local _ .vmem, ⟨36, _⟩ => ⟨S10240, .f32⟩
  | .local _ .vmem, ⟨37, _⟩ => ⟨S10240, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_call1_v0 : Ref sig .tc := ⟨.hbm, 75, rfl⟩
abbrev main_call1_v1 : Ref sig .tc := ⟨.hbm, 76, rfl⟩
abbrev main_v52 : Ref sig .tc := ⟨.hbm, 77, rfl⟩
abbrev main_c_13 : Ref sig .tc := ⟨.hbm, 78, rfl⟩
abbrev main_v53 : Ref sig .tc := ⟨.hbm, 79, rfl⟩
abbrev main_v54 : Ref sig .tc := ⟨.hbm, 80, rfl⟩
abbrev main_c_14 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_15 : Ref sig .tc := ⟨.hbm, 87, rfl⟩
abbrev main_v60 : Ref sig .tc := ⟨.hbm, 88, rfl⟩
abbrev main_v61 : Ref sig .tc := ⟨.hbm, 89, rfl⟩
abbrev main_c_16 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_17 : Ref sig .tc := ⟨.hbm, 97, rfl⟩
abbrev main_v68 : Ref sig .tc := ⟨.hbm, 98, rfl⟩
abbrev main_v69 : Ref sig .tc := ⟨.hbm, 99, rfl⟩
abbrev main_c_18 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_19 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_c_20 : Ref sig .tc := ⟨.hbm, 117, rfl⟩
abbrev main_v85 : Ref sig .tc := ⟨.hbm, 118, rfl⟩
abbrev main_v86 : Ref sig .tc := ⟨.hbm, 119, rfl⟩
abbrev main_c_21 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_22 : Ref sig .tc := ⟨.hbm, 126, rfl⟩
abbrev main_v92 : Ref sig .tc := ⟨.hbm, 127, rfl⟩
abbrev main_v93 : Ref sig .tc := ⟨.hbm, 128, rfl⟩
abbrev main_c_23 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg0_1 : Ref sig .tc := ⟨.vmem, 33, rfl⟩
abbrev cc6_stg1_0 : Ref sig .tc := ⟨.vmem, 34, rfl⟩
abbrev cc6_stg1_1 : Ref sig .tc := ⟨.vmem, 35, rfl⟩
abbrev cc6_stg2_0 : Ref sig .tc := ⟨.vmem, 36, rfl⟩
abbrev cc6_stg2_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31
abbrev cc6_sem0_0 : DmaSem sig := 32
abbrev cc6_sem0_1 : DmaSem sig := 33
abbrev cc6_sem1_0 : DmaSem sig := 34
abbrev cc6_sem1_1 : DmaSem sig := 35
abbrev cc6_sem2_0 : DmaSem sig := 36
abbrev cc6_sem2_1 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![138], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![138], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![125], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 1 → Nat :=
  let arg0 : BitVec 32 := BitVec.ofNat 32 (i 0).val
  let c0_i32 : BitVec 32 := 0#32
  ![arg0.toNat]

abbrev stage6_0 : Fin 2 → Memref sig .tc .vmem S10240x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10240x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10240 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x1280000_S1x1280000_0_0 : S2x1280000.Slices ![0, 0] S1x1280000
  shapeCasts_S1x1280000_S1280000 : S1x1280000.ShapeCasts S1280000
  concatenates_S1280000_S100000_S1380000_d0 : Shape.Concatenates [S1280000, S100000] S1380000 0
  slices_S2x1280000_S1x1280000_1_0 : S2x1280000.Slices ![1, 0] S1x1280000
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S10000x128_S10000x128_0_0 : ∀ a, (![0, 0] : Fin 2 → Nat) a + S10000x128.size a ≤ S10000x128.size a
  h_S10000x128 : 0 < S10000x128.numel
  bcast_S_S1380000 : S_.BroadcastsInDim S1380000 (![] : Fin 0 → Fin S1380000.rank)
  bcast_S_S100000 : S_.BroadcastsInDim S100000 (![] : Fin 0 → Fin S100000.rank)
  bcast_S1380000_S1380000x1_0 : S1380000.BroadcastsInDim S1380000x1 (![0] : Fin 1 → Fin S1380000x1.rank)
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  shapeCasts_S10000x64_S10000x64 : S10000x64.ShapeCasts S10000x64
  broadcasts_S10000x1_S10000x64 : S10000x1.Broadcasts S10000x64
  bcast_S_S100000x64 : S_.BroadcastsInDim S100000x64 (![] : Fin 0 → Fin S100000x64.rank)
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  bcast_S_S1280000 : S_.BroadcastsInDim S1280000 (![] : Fin 0 → Fin S1280000.rank)
  bcast_S1280000_S1280000x1_0 : S1280000.BroadcastsInDim S1280000x1 (![0] : Fin 1 → Fin S1280000x1.rank)
  inb_S10240x64_S10240x64_0_0 : ∀ a, (![0, 0] : Fin 2 → Nat) a + S10240x64.size a ≤ S10240x64.size a
  h_S10240x64 : 0 < S10240x64.numel
  shapeCasts_S10240x64_S10240x64 : S10240x64.ShapeCasts S10240x64
  reduces_S10240x64_S10240 : S10240x64.Reduces [1] S10240
  inb_S10240_S10240_0 : ∀ a, (![0] : Fin 1 → Nat) a + S10240.size a ≤ S10240.size a
  h_S10240 : 0 < S10240.numel
  dot_S10000x64_S64x128_S10000x128_1_0_0_1_n_n_wf : DotDims.WF S10000x64 S64x128 S10000x128 [1] [0] [0] [1] [] []
  scatter_S100000_S1380000x1_S1380000_n_0_0_1_wf : ScatterDims.WF S100000 S1380000x1 S1380000 [] [0] [0] 1
  gather_S100000_S1380000x1_S1380000_n_0_n_n_0_1_1_wf : GatherDims.WF S100000 S1380000x1 S1380000 [] [0] [] [0] [] 1 ![1]
  gather_S100000x128_S1380000x1_S1380000x128_1_0_n_n_0_1_1128_wf : GatherDims.WF S100000x128 S1380000x1 S1380000x128 [1] [0] [] [0] [] 1 ![1, 128]
  scatter_S100000x128_S1380000x1_S1380000x128_1_0_0_1_wf : ScatterDims.WF S100000x128 S1380000x1 S1380000x128 [1] [0] [0] 1
  dot_S10000x128_S128x64_S10000x64_1_0_0_1_n_n_wf : DotDims.WF S10000x128 S128x64 S10000x64 [1] [0] [0] [1] [] []
  gather_S100000x64_S1380000x1_S1380000x64_1_0_n_n_0_1_164_wf : GatherDims.WF S100000x64 S1380000x1 S1380000x64 [1] [0] [] [0] [] 1 ![1, 64]
  scatter_S100000x64_S1380000x1_S1380000x64_1_0_0_1_wf : ScatterDims.WF S100000x64 S1380000x1 S1380000x64 [1] [0] [0] 1
  gather_S100000x64_S1280000x1_S1280000x64_1_0_n_n_0_1_164_wf : GatherDims.WF S100000x64 S1280000x1 S1280000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1380000x128.size a
  hwx1_0 : ∀ i : grid1.Coords, EltTy.bits .f32 = 32 ∨ (Rect.block (s := S1380000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1380000x1.size a
  hwx1_1 : ∀ i : grid1.Coords, EltTy.bits .f32 = 32 ∨ (Rect.block (s := S1380000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S1380000x128.size a
  hwx1_2 : ∀ i : grid1.Coords, EltTy.bits .f32 = 32 ∨ (Rect.block (s := S1380000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128.size a ≤ S128.size a
  hwx2_1 : ∀ i : grid2.Coords, EltTy.bits .f32 = 32 ∨ (Rect.block (s := S128) S128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S1380000x64.size a
  hwx4_0 : ∀ i : grid4.Coords, EltTy.bits .f32 = 32 ∨ (Rect.block (s := S1380000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1380000x1.size a
  hwx4_1 : ∀ i : grid4.Coords, EltTy.bits .f32 = 32 ∨ (Rect.block (s := S1380000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S1380000x64.size a
  hwx4_2 : ∀ i : grid4.Coords, EltTy.bits .f32 = 32 ∨ (Rect.block (s := S1380000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64.size a ≤ S64.size a
  hwx5_1 : ∀ i : grid5.Coords, EltTy.bits .f32 = 32 ∨ (Rect.block (s := S64) S64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10240x64.size a ≤ S1280000x64.size a
  hwx6_0 : ∀ i : grid6.Coords, EltTy.bits .f32 = 32 ∨ (Rect.block (s := S1280000x64) S10240x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10240x64.size a ≤ S1280000x64.size a
  hwx6_1 : ∀ i : grid6.Coords, EltTy.bits .f32 = 32 ∨ (Rect.block (s := S1280000x64) S10240x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10240.size a ≤ S1280000.size a
  hwx6_2 : ∀ i : grid6.Coords, EltTy.bits .f32 = 32 ∨ (Rect.block (s := S1280000) S10240.size (cc6_transform_2 i) (hinb6_2 i)).WholeWords (EltTy.packing .f32)

variable [Facts₀]

def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def scatter_S100000_S1380000x1_S1380000_n_0_0_1 : ScatterDims S100000 S1380000x1 S1380000 where
  updateWindowDims := []
  insertedWindowDims := [0]
  scatterDimsToOperandDims := [0]
  indexVectorDim := 1
  wf := scatter_S100000_S1380000x1_S1380000_n_0_0_1_wf
def gather_S100000_S1380000x1_S1380000_n_0_n_n_0_1_1 : GatherDims S100000 S1380000x1 S1380000 where
  offsetDims := []
  collapsedSliceDims := [0]
  operandBatchingDims := []
  startIndicesBatchingDims := []
  startIndexMap := [0]
  indexVectorDim := 1
  sliceSizes := ![1]
  wf := gather_S100000_S1380000x1_S1380000_n_0_n_n_0_1_1_wf
def gather_S100000x128_S1380000x1_S1380000x128_1_0_n_n_0_1_1128 : GatherDims S100000x128 S1380000x1 S1380000x128 where
  offsetDims := [1]
  collapsedSliceDims := [0]
  operandBatchingDims := []
  startIndicesBatchingDims := []
  startIndexMap := [0]
  indexVectorDim := 1
  sliceSizes := ![1, 128]
  wf := gather_S100000x128_S1380000x1_S1380000x128_1_0_n_n_0_1_1128_wf
def scatter_S100000x128_S1380000x1_S1380000x128_1_0_0_1 : ScatterDims S100000x128 S1380000x1 S1380000x128 where
  updateWindowDims := [1]
  insertedWindowDims := [0]
  scatterDimsToOperandDims := [0]
  indexVectorDim := 1
  wf := scatter_S100000x128_S1380000x1_S1380000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1380000x1_S1380000x64_1_0_n_n_0_1_164 : GatherDims S100000x64 S1380000x1 S1380000x64 where
  offsetDims := [1]
  collapsedSliceDims := [0]
  operandBatchingDims := []
  startIndicesBatchingDims := []
  startIndexMap := [0]
  indexVectorDim := 1
  sliceSizes := ![1, 64]
  wf := gather_S100000x64_S1380000x1_S1380000x64_1_0_n_n_0_1_164_wf
def scatter_S100000x64_S1380000x1_S1380000x64_1_0_0_1 : ScatterDims S100000x64 S1380000x1 S1380000x64 where
  updateWindowDims := [1]
  insertedWindowDims := [0]
  scatterDimsToOperandDims := [0]
  indexVectorDim := 1
  wf := scatter_S100000x64_S1380000x1_S1380000x64_1_0_0_1_wf
def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v43) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v44) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v74) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v76) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v79) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v91) S10240x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v98) S10240x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v99) S10240.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x1280000 : Shape := ⟨2, ![2, 1280000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S100000x128 : Shape := ⟨2, ![100000, 128]⟩
abbrev S100000 : Shape := ⟨1, ![100000]⟩
abbrev S1x1280000 : Shape := ⟨2, ![1, 1280000]⟩
abbrev S1280000 : Shape := ⟨1, ![1280000]⟩
abbrev S1380000 : Shape := ⟨1, ![1380000]⟩
abbrev S_ : Shape := ⟨0, ![]⟩
abbrev S1380000x1 : Shape := ⟨2, ![1380000, 1]⟩
abbrev S1380000x128 : Shape := ⟨2, ![1380000, 128]⟩
abbrev S1x128 : Shape := ⟨2, ![1, 128]⟩
abbrev S1380000x64 : Shape := ⟨2, ![1380000, 64]⟩
abbrev S1x64 : Shape := ⟨2, ![1, 64]⟩
abbrev S1280000x1 : Shape := ⟨2, ![1280000, 1]⟩
abbrev S1280000x64 : Shape := ⟨2, ![1280000, 64]⟩

abbrev nBuf : Space → Nat
  | .hbm => 154
  | .vmem => 0
  | .smem => 0
  | _ => 0

abbrev hbmTy0_0 (i : Nat) : BufTy := match i % 128 with
  | 0 => ⟨S100000x64, .f32⟩
  | 1 => ⟨S2x1280000, .i32⟩
  | 2 => ⟨S64x128, .f32⟩
  | 3 => ⟨S128, .f32⟩
  | 4 => ⟨S128x64, .f32⟩
  | 5 => ⟨S64, .f32⟩
  | 6 => ⟨S100000x128, .f32⟩
  | 7 => ⟨S100000, .i32⟩
  | 8 => ⟨S1x1280000, .i32⟩
  | 9 => ⟨S1280000, .i32⟩
  | 10 => ⟨S1380000, .i32⟩
  | 11 => ⟨S1x1280000, .i32⟩
  | 12 => ⟨S1280000, .i32⟩
  | 13 => ⟨S1380000, .i32⟩
  | 14 => ⟨S_, .f32⟩
  | 15 => ⟨S1380000, .f32⟩
  | 16 => ⟨S_, .f32⟩
  | 17 => ⟨S100000, .f32⟩
  | 18 => ⟨S1380000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1380000, .i32⟩
  | 30 => ⟨S1380000, .i1⟩
  | 31 => ⟨S_, .i32⟩
  | 32 => ⟨S1380000, .i32⟩
  | 33 => ⟨S1380000, .i32⟩
  | 34 => ⟨S1380000, .i32⟩
  | 35 => ⟨S1380000x1, .i32⟩
  | 36 => ⟨S1380000, .f32⟩
  | 37 => ⟨S_, .i32⟩
  | 38 => ⟨S1380000, .i32⟩
  | 39 => ⟨S1380000, .i1⟩
  | 40 => ⟨S_, .i32⟩
  | 41 => ⟨S1380000, .i32⟩
  | 42 => ⟨S1380000, .i32⟩
  | 43 => ⟨S1380000, .i32⟩
  | 44 => ⟨S1380000x1, .i32⟩
  | 45 => ⟨S1380000, .f32⟩
  | 46 => ⟨S1380000, .f32⟩
  | 47 => ⟨S1380000x1, .f32⟩
  | 48 => ⟨S_, .i32⟩
  | 49 => ⟨S1380000, .i32⟩
  | 50 => ⟨S1380000, .i1⟩
  | 51 => ⟨S_, .i32⟩
  | 52 => ⟨S1380000, .i32⟩
  | 53 => ⟨S1380000, .i32⟩
  | 54 => ⟨S1380000, .i32⟩
  | 55 => ⟨S1380000x1, .i32⟩
  | 56 => ⟨S1380000x128, .f32⟩
  | 57 => ⟨S1380000x128, .f32⟩
  | 58 => ⟨S1380000x128, .f32⟩
  | 59 => ⟨S_, .f32⟩
  | 60 => ⟨S100000x128, .f32⟩
  | 61 => ⟨S1380000x1, .i32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S100000x64, .f32⟩
  | 70 => ⟨S100000, .i32⟩
  | 71 => ⟨S1x1280000, .i32⟩
  | 72 => ⟨S1280000, .i32⟩
  | 73 => ⟨S1380000, .i32⟩
  | 74 => ⟨S1x1280000, .i32⟩
  | 75 => ⟨S1280000, .i32⟩
  | 76 => ⟨S1380000, .i32⟩
  | 77 => ⟨S_, .f32⟩
  | 78 => ⟨S1380000, .f32⟩
  | 79 => ⟨S_, .f32⟩
  | 80 => ⟨S100000, .f32⟩
  | 81 => ⟨S1380000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1380000, .i32⟩
  | 93 => ⟨S1380000, .i1⟩
  | 94 => ⟨S_, .i32⟩
  | 95 => ⟨S1380000, .i32⟩
  | 96 => ⟨S1380000, .i32⟩
  | 97 => ⟨S1380000, .i32⟩
  | 98 => ⟨S1380000x1, .i32⟩
  | 99 => ⟨S1380000, .f32⟩
  | 100 => ⟨S_, .i32⟩
  | 101 => ⟨S1380000, .i32⟩
  | 102 => ⟨S1380000, .i1⟩
  | 103 => ⟨S_, .i32⟩
  | 104 => ⟨S1380000, .i32⟩
  | 105 => ⟨S1380000, .i32⟩
  | 106 => ⟨S1380000, .i32⟩
  | 107 => ⟨S1380000x1, .i32⟩
  | 108 => ⟨S1380000, .f32⟩
  | 109 => ⟨S1380000, .f32⟩
  | 110 => ⟨S1380000x1, .f32⟩
  | 111 => ⟨S_, .i32⟩
  | 112 => ⟨S1380000, .i32⟩
  | 113 => ⟨S1380000, .i1⟩
  | 114 => ⟨S_, .i32⟩
  | 115 => ⟨S1380000, .i32⟩
  | 116 => ⟨S1380000, .i32⟩
  | 117 => ⟨S1380000, .i32⟩
  | 118 => ⟨S1380000x1, .i32⟩
  | 119 => ⟨S1380000x64, .f32⟩
  | 120 => ⟨S1380000x64, .f32⟩
  | 121 => ⟨S1380000x64, .f32⟩
  | 122 => ⟨S_, .f32⟩
  | 123 => ⟨S100000x64, .f32⟩
  | 124 => ⟨S1380000x1, .i32⟩
  | 125 => ⟨S100000x64, .f32⟩
  | 126 => ⟨S1x64, .f32⟩
  | 127 => ⟨S100000x64, .f32⟩
  | _ => ⟨S100000x64, .f32⟩

abbrev hbmTy0_1 (i : Nat) : BufTy := match i % 128 with
  | 0 => ⟨S100000x64, .f32⟩
  | 1 => ⟨S1x1280000, .i32⟩
  | 2 => ⟨S1280000, .i32⟩
  | 3 => ⟨S1x1280000, .i32⟩
  | 4 => ⟨S1280000, .i32⟩
  | 5 => ⟨S_, .i32⟩
  | 6 => ⟨S1280000, .i32⟩
  | 7 => ⟨S1280000, .i1⟩
  | 8 => ⟨S_, .i32⟩
  | 9 => ⟨S1280000, .i32⟩
  | 10 => ⟨S1280000, .i32⟩
  | 11 => ⟨S1280000, .i32⟩
  | 12 => ⟨S1280000x1, .i32⟩
  | 13 => ⟨S1280000x64, .f32⟩
  | 14 => ⟨S_, .i32⟩
  | 15 => ⟨S1280000, .i32⟩
  | 16 => ⟨S1280000, .i1⟩
  | 17 => ⟨S_, .i32⟩
  | 18 => ⟨S1280000, .i32⟩
  | 19 => ⟨S1280000, .i32⟩
  | 20 => ⟨S1280000, .i32⟩
  | 21 => ⟨S1280000x1, .i32⟩
  | 22 => ⟨S1280000x64, .f32⟩
  | 23 => ⟨S1280000x64, .f32⟩
  | 24 => ⟨S_, .f32⟩
  | 25 => ⟨S1280000, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_17 : Ref sig .tc := ⟨.hbm, 111, rfl⟩
abbrev main_v80 : Ref sig .tc := ⟨.hbm, 112, rfl⟩
abbrev main_v81 : Ref sig .tc := ⟨.hbm, 113, rfl⟩
abbrev main_c_18 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_c_20 : Ref sig .tc := ⟨.hbm, 133, rfl⟩
abbrev main_v99 : Ref sig .tc := ⟨.hbm, 134, rfl⟩
abbrev main_v100 : Ref sig .tc := ⟨.hbm, 135, rfl⟩
abbrev main_c_21 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_c_22 : Ref sig .tc := ⟨.hbm, 142, rfl⟩
abbrev main_v106 : Ref sig .tc := ⟨.hbm, 143, rfl⟩
abbrev main_v107 : Ref sig .tc := ⟨.hbm, 144, rfl⟩
abbrev main_c_23 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_24 : Ref sig .tc := ⟨.hbm, 152, rfl⟩
abbrev main_v114 : Ref sig .tc := ⟨.hbm, 153, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  concatenates_S1280000_S100000_S1380000_d0 : Shape.Concatenates [S1280000, S100000] S1380000 0
  slices_S2x1280000_S1x1280000_1_0 : S2x1280000.Slices ![1, 0] S1x1280000
  bcast_S_S1380000 : S_.BroadcastsInDim S1380000 (![] : Fin 0 → Fin S1380000.rank)
  bcast_S_S100000 : S_.BroadcastsInDim S100000 (![] : Fin 0 → Fin S100000.rank)
  bcast_S1380000_S1380000x1_0 : S1380000.BroadcastsInDim S1380000x1 (![0] : Fin 1 → Fin S1380000x1.rank)
  bcast_S1380000x1_S1380000x128_0_1 : S1380000x1.BroadcastsInDim S1380000x128 (![0, 1] : Fin 2 → Fin S1380000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1380000x1_S1380000x64_0_1 : S1380000x1.BroadcastsInDim S1380000x64 (![0, 1] : Fin 2 → Fin S1380000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1280000 : S_.BroadcastsInDim S1280000 (![] : Fin 0 → Fin S1280000.rank)
  bcast_S1280000_S1280000x1_0 : S1280000.BroadcastsInDim S1280000x1 (![0] : Fin 1 → Fin S1280000x1.rank)
  reducesTo_S1280000x64_S1280000_d1 : S1280000x64.ReducesTo [1] S1280000
  h_S_ : 0 < S_.numel
  dot_S100000x64_S64x128_S100000x128_1_0_0_1_n_n_wf : DotDims.WF S100000x64 S64x128 S100000x128 [1] [0] [0] [1] [] []
  scatter_S100000_S1380000x1_S1380000_n_0_0_1_wf : ScatterDims.WF S100000 S1380000x1 S1380000 [] [0] [0] 1
  gather_S100000_S1380000x1_S1380000_n_0_n_n_0_1_1_wf : GatherDims.WF S100000 S1380000x1 S1380000 [] [0] [] [0] [] 1 ![1]
  gather_S100000x128_S1380000x1_S1380000x128_1_0_n_n_0_1_1128_wf : GatherDims.WF S100000x128 S1380000x1 S1380000x128 [1] [0] [] [0] [] 1 ![1, 128]
  scatter_S100000x128_S1380000x1_S1380000x128_1_0_0_1_wf : ScatterDims.WF S100000x128 S1380000x1 S1380000x128 [1] [0] [0] 1
  dot_S100000x128_S128x64_S100000x64_1_0_0_1_n_n_wf : DotDims.WF S100000x128 S128x64 S100000x64 [1] [0] [0] [1] [] []
  gather_S100000x64_S1380000x1_S1380000x64_1_0_n_n_0_1_164_wf : GatherDims.WF S100000x64 S1380000x1 S1380000x64 [1] [0] [] [0] [] 1 ![1, 64]
  scatter_S100000x64_S1380000x1_S1380000x64_1_0_0_1_wf : ScatterDims.WF S100000x64 S1380000x1 S1380000x64 [1] [0] [0] 1
  gather_S100000x64_S1280000x1_S1280000x64_1_0_n_n_0_1_164_wf : GatherDims.WF S100000x64 S1280000x1 S1280000x64 [1] [0] [] [0] [] 1 ![1, 64]

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100000_S1380000x1_S1380000_n_0_0_1 : ScatterDims S100000 S1380000x1 S1380000 where
  updateWindowDims := []
  insertedWindowDims := [0]
  scatterDimsToOperandDims := [0]
  indexVectorDim := 1
  wf := scatter_S100000_S1380000x1_S1380000_n_0_0_1_wf
def gather_S100000_S1380000x1_S1380000_n_0_n_n_0_1_1 : GatherDims S100000 S1380000x1 S1380000 where
  offsetDims := []
  collapsedSliceDims := [0]
  operandBatchingDims := []
  startIndicesBatchingDims := []
  startIndexMap := [0]
  indexVectorDim := 1
  sliceSizes := ![1]
  wf := gather_S100000_S1380000x1_S1380000_n_0_n_n_0_1_1_wf
def gather_S100000x128_S1380000x1_S1380000x128_1_0_n_n_0_1_1128 : GatherDims S100000x128 S1380000x1 S1380000x128 where
  offsetDims := [1]
  collapsedSliceDims := [0]
  operandBatchingDims := []
  startIndicesBatchingDims := []
  startIndexMap := [0]
  indexVectorDim := 1
  sliceSizes := ![1, 128]
  wf := gather_S100000x128_S1380000x1_S1380000x128_1_0_n_n_0_1_1128_wf
def scatter_S100000x128_S1380000x1_S1380000x128_1_0_0_1 : ScatterDims S100000x128 S1380000x1 S1380000x128 where
  updateWindowDims := [1]
  insertedWindowDims := [0]
  scatterDimsToOperandDims := [0]
  indexVectorDim := 1
  wf := scatter_S100000x128_S1380000x1_S1380000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1380000x1_S1380000x64_1_0_n_n_0_1_164 : GatherDims S100000x64 S1380000x1 S1380000x64 where
  offsetDims := [1]
  collapsedSliceDims := [0]
  operandBatchingDims := []
  startIndicesBatchingDims := []
  startIndexMap := [0]
  indexVectorDim := 1
  sliceSizes := ![1, 64]
  wf := gather_S100000x64_S1380000x1_S1380000x64_1_0_n_n_0_1_164_wf
def scatter_S100000x64_S1380000x1_S1380000x64_1_0_0_1 : ScatterDims S100000x64 S1380000x1 S1380000x64 where
  updateWindowDims := [1]
  insertedWindowDims := [0]
  scatterDimsToOperandDims := [0]
  indexVectorDim := 1
  wf := scatter_S100000x64_S1380000x1_S1380000x64_1_0_0_1_wf
def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf

class Facts : Prop extends Facts₀ where

variable [Facts]
-- ==== Proof.KernelRun.lean ====
/-
  The idealized kernel program's run with its result named: every weakly fair execution of @main terminates,
  nothing faulting, the six argument arrays end as launched, and the result array ends at what the last of the
  seventeen segment boundaries holds at it — the buffer contents folded from the launch memory through the ten
  stretches of host operations and the seven blocked stages.  The later modules read that fold back stage by stage.
-/
import proofs.«150293_j49065706389779_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of the seventeen segments from any launch memory: the result array at the last boundary's contents, the
    arguments as launched. -/
theorem run_value : θ_run defs (onTc (τ := τ) (main (F := F))) ⟨m, fun _ => 0, ρ⟩ (fun r => ∀ c : Dev nD,
      r.2.mem ((c.tc : Thread nD τ).loc main_v99) = W17 m ρ c (Proc.devRef .tc main_v99)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v99 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c)⟩)

end Cert.KernelIdeal.RunValue

end
-- ==== Proof.RefFrame.lean ====
/-
  The reference program never writes its arguments: each of its 148 operations writes one fresh result buffer, so what
  the whole line leaves in an argument's buffer is what was there at launch.
-/
import proofs.«150293_j49065706389779_1_alg».proof.Proof.RefRunP

noncomputable section

namespace Cert.ReferenceIdeal.RefFrame

open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

set_option maxRecDepth 8192 in
set_option maxHeartbeats 4000000 in
/-- Argument 0 ends as launched. -/
theorem arg0_kept :
    after (Cert.ReferenceIdeal.RunP.ops (F := F)) (launchContents m c) (Proc.devRef .tc main_arg0) = m ((c.tc : Thread nD τ).loc main_arg0) := by
  after_results_simp <;> rfl

set_option maxRecDepth 8192 in
set_option maxHeartbeats 4000000 in
/-- Argument 1 ends as launched. -/
theorem arg1_kept :
    after (Cert.ReferenceIdeal.RunP.ops (F := F)) (launchContents m c) (Proc.devRef .tc main_arg1) = m ((c.tc : Thread nD τ).loc main_arg1) := by
  after_results_simp <;> rfl

set_option maxRecDepth 8192 in
set_option maxHeartbeats 4000000 in
/-- Argument 2 ends as launched. -/
theorem arg2_kept :
    after (Cert.ReferenceIdeal.RunP.ops (F := F)) (launchContents m c) (Proc.devRef .tc main_arg2) = m ((c.tc : Thread nD τ).loc main_arg2) := by
  after_results_simp <;> rfl

set_option maxRecDepth 8192 in
set_option maxHeartbeats 4000000 in
/-- Argument 3 ends as launched. -/
theorem arg3_kept :
    after (Cert.ReferenceIdeal.RunP.ops (F := F)) (launchContents m c) (Proc.devRef .tc main_arg3) = m ((c.tc : Thread nD τ).loc main_arg3) := by
  after_results_simp <;> rfl

set_option maxRecDepth 8192 in
set_option maxHeartbeats 4000000 in
/-- Argument 4 ends as launched. -/
theorem arg4_kept :
    after (Cert.ReferenceIdeal.RunP.ops (F := F)) (launchContents m c) (Proc.devRef .tc main_arg4) = m ((c.tc : Thread nD τ).loc main_arg4) := by
  after_results_simp <;> rfl

set_option maxRecDepth 8192 in
set_option maxHeartbeats 4000000 in
/-- Argument 5 ends as launched. -/
theorem arg5_kept :
    after (Cert.ReferenceIdeal.RunP.ops (F := F)) (launchContents m c) (Proc.devRef .tc main_arg5) = m ((c.tc : Thread nD τ).loc main_arg5) := by
  after_results_simp <;> rfl

end Cert.ReferenceIdeal.RefFrame

end
-- ==== Proof.KernelKeep.lean ====
/-
  Each blocked stage of the kernel program changes one array only: its output.  Every other buffer holds after the
  stage what it held before it, whether the stage never touches it or reads it as one of its two input arrays.  These
  seven facts let the index vectors, the argument arrays and earlier results be read unchanged across the stages.
-/
import proofs.«150293_j49065706389779_1_alg».proof.Proof.Gen.KernelIdeal.Frame

noncomputable section

namespace Cert.KernelIdeal.Keep

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- Stage 0 leaves every buffer but its output array as it found it: a buffer that is none of its three arrays is
    bypassed, and an input array is only read. -/
theorem keep0 (c : Dev nD) (b : Ref sig .tc) (hb : b ≠ main_v7) :
    W2 m ρ c (Proc.devRef .tc b) = W1 m ρ c (Proc.devRef .tc b) := by
  by_cases h : ∀ w, Pipeline.arrRef spec0 w ≠ b
  · exact W2_of_ne m ρ c b h
  · push Not at h
    obtain ⟨w, rfl⟩ := h
    match w with
    | ⟨0, _⟩ => exact (W2_arr m ρ c 0).trans (((dat0 (V1 m ρ) c).arrAt_in 0 rfl _).trans (A_eq0 (V1 m ρ) c 0))
    | ⟨1, _⟩ => exact (W2_arr m ρ c 1).trans (((dat0 (V1 m ρ) c).arrAt_in 1 rfl _).trans (A_eq0 (V1 m ρ) c 1))
    | ⟨2, _⟩ => exact absurd rfl hb
    | ⟨_ + 3, h3⟩ => exact absurd h3 (Nat.not_lt.2 (Nat.le_add_left _ _))

/-- Stage 1 leaves every buffer but its output array as it found it: a buffer that is none of its three arrays is
    bypassed, and an input array is only read. -/
theorem keep1 (c : Dev nD) (b : Ref sig .tc) (hb : b ≠ main_v39) :
    W6 m ρ c (Proc.devRef .tc b) = W5 m ρ c (Proc.devRef .tc b) := by
  by_cases h : ∀ w, Pipeline.arrRef spec1 w ≠ b
  · exact W6_of_ne m ρ c b h
  · push Not at h
    obtain ⟨w, rfl⟩ := h
    match w with
    | ⟨0, _⟩ => exact (W6_arr m ρ c 0).trans (((dat1 (V5 m ρ) c).arrAt_in 0 rfl _).trans (A_eq1 (V5 m ρ) c 0))
    | ⟨1, _⟩ => exact (W6_arr m ρ c 1).trans (((dat1 (V5 m ρ) c).arrAt_in 1 rfl _).trans (A_eq1 (V5 m ρ) c 1))
    | ⟨2, _⟩ => exact absurd rfl hb
    | ⟨_ + 3, h3⟩ => exact absurd h3 (Nat.not_lt.2 (Nat.le_add_left _ _))

/-- Stage 2 leaves every buffer but its output array as it found it: a buffer that is none of its three arrays is
    bypassed, and an input array is only read. -/
theorem keep2 (c : Dev nD) (b : Ref sig .tc) (hb : b ≠ main_v43) :
    W8 m ρ c (Proc.devRef .tc b) = W7 m ρ c (Proc.devRef .tc b) := by
  by_cases h : ∀ w, Pipeline.arrRef spec2 w ≠ b
  · exact W8_of_ne m ρ c b h
  · push Not at h
    obtain ⟨w, rfl⟩ := h
    match w with
    | ⟨0, _⟩ => exact (W8_arr m ρ c 0).trans (((dat2 (V7 m ρ) c).arrAt_in 0 rfl _).trans (A_eq2 (V7 m ρ) c 0))
    | ⟨1, _⟩ => exact (W8_arr m ρ c 1).trans (((dat2 (V7 m ρ) c).arrAt_in 1 rfl _).trans (A_eq2 (V7 m ρ) c 1))
    | ⟨2, _⟩ => exact absurd rfl hb
    | ⟨_ + 3, h3⟩ => exact absurd h3 (Nat.not_lt.2 (Nat.le_add_left _ _))

/-- Stage 3 leaves every buffer but its output array as it found it: a buffer that is none of its three arrays is
    bypassed, and an input array is only read. -/
theorem keep3 (c : Dev nD) (b : Ref sig .tc) (hb : b ≠ main_v44) :
    W9 m ρ c (Proc.devRef .tc b) = W8 m ρ c (Proc.devRef .tc b) := by
  by_cases h : ∀ w, Pipeline.arrRef spec3 w ≠ b
  · exact W9_of_ne m ρ c b h
  · push Not at h
    obtain ⟨w, rfl⟩ := h
    match w with
    | ⟨0, _⟩ => exact (W9_arr m ρ c 0).trans (((dat3 (V8 m ρ) c).arrAt_in 0 rfl _).trans (A_eq3 (V8 m ρ) c 0))
    | ⟨1, _⟩ => exact (W9_arr m ρ c 1).trans (((dat3 (V8 m ρ) c).arrAt_in 1 rfl _).trans (A_eq3 (V8 m ρ) c 1))
    | ⟨2, _⟩ => exact absurd rfl hb
    | ⟨_ + 3, h3⟩ => exact absurd h3 (Nat.not_lt.2 (Nat.le_add_left _ _))

/-- Stage 4 leaves every buffer but its output array as it found it: a buffer that is none of its three arrays is
    bypassed, and an input array is only read. -/
theorem keep4 (c : Dev nD) (b : Ref sig .tc) (hb : b ≠ main_v76) :
    W13 m ρ c (Proc.devRef .tc b) = W12 m ρ c (Proc.devRef .tc b) := by
  by_cases h : ∀ w, Pipeline.arrRef spec4 w ≠ b
  · exact W13_of_ne m ρ c b h
  · push Not at h
    obtain ⟨w, rfl⟩ := h
    match w with
    | ⟨0, _⟩ => exact (W13_arr m ρ c 0).trans (((dat4 (V12 m ρ) c).arrAt_in 0 rfl _).trans (A_eq4 (V12 m ρ) c 0))
    | ⟨1, _⟩ => exact (W13_arr m ρ c 1).trans (((dat4 (V12 m ρ) c).arrAt_in 1 rfl _).trans (A_eq4 (V12 m ρ) c 1))
    | ⟨2, _⟩ => exact absurd rfl hb
    | ⟨_ + 3, h3⟩ => exact absurd h3 (Nat.not_lt.2 (Nat.le_add_left _ _))

/-- Stage 5 leaves every buffer but its output array as it found it: a buffer that is none of its three arrays is
    bypassed, and an input array is only read. -/
theorem keep5 (c : Dev nD) (b : Ref sig .tc) (hb : b ≠ main_v80) :
    W15 m ρ c (Proc.devRef .tc b) = W14 m ρ c (Proc.devRef .tc b) := by
  by_cases h : ∀ w, Pipeline.arrRef spec5 w ≠ b
  · exact W15_of_ne m ρ c b h
  · push Not at h
    obtain ⟨w, rfl⟩ := h
    match w with
    | ⟨0, _⟩ => exact (W15_arr m ρ c 0).trans (((dat5 (V14 m ρ) c).arrAt_in 0 rfl _).trans (A_eq5 (V14 m ρ) c 0))
    | ⟨1, _⟩ => exact (W15_arr m ρ c 1).trans (((dat5 (V14 m ρ) c).arrAt_in 1 rfl _).trans (A_eq5 (V14 m ρ) c 1))
    | ⟨2, _⟩ => exact absurd rfl hb
    | ⟨_ + 3, h3⟩ => exact absurd h3 (Nat.not_lt.2 (Nat.le_add_left _ _))

/-- Stage 6 leaves every buffer but its output array as it found it: a buffer that is none of its three arrays is
    bypassed, and an input array is only read. -/
theorem keep6 (c : Dev nD) (b : Ref sig .tc) (hb : b ≠ main_v99) :
    W17 m ρ c (Proc.devRef .tc b) = W16 m ρ c (Proc.devRef .tc b) := by
  by_cases h : ∀ w, Pipeline.arrRef spec6 w ≠ b
  · exact W17_of_ne m ρ c b h
  · push Not at h
    obtain ⟨w, rfl⟩ := h
    match w with
    | ⟨0, _⟩ => exact (W17_arr m ρ c 0).trans (((dat6 (V16 m ρ) c).arrAt_in 0 rfl _).trans (A_eq6 (V16 m ρ) c 0))
    | ⟨1, _⟩ => exact (W17_arr m ρ c 1).trans (((dat6 (V16 m ρ) c).arrAt_in 1 rfl _).trans (A_eq6 (V16 m ρ) c 1))
    | ⟨2, _⟩ => exact absurd rfl hb
    | ⟨_ + 3, h3⟩ => exact absurd h3 (Nat.not_lt.2 (Nat.le_add_left _ _))

end Cert.KernelIdeal.Keep

end
-- ==== Proof.Spec.lean ====
/-
  The array functions that the blocked stages of the graph network compute, index by index, on the extended reals.

  Each is stated once, for any extents: the product of an [n, k] matrix with a [k, d] matrix; the rows of an [n, d]
  matrix scaled by the entries of an [n, 1] column; a [d] vector added to every row of an [n, d] matrix, with and
  without the clamp at zero from below; and the inner product of the matching rows of two [n, d] matrices.  The
  blocked stages and the whole-array host operations are both shown equal to these, so neither is ever compared with
  the other directly.
-/
import Idealize.ShloMosaic.PureOps.Ideal
import Idealize.ShloMosaic.Lib.ValueIdx

noncomputable section

namespace Cert.Spec

open Idealize.ShloMosaic Idealize.ShloMosaic.ValueIdx

/-- Entry (p, o) of the product: the sum over j of x(p, j) · w(j, o). -/
def matProd {n k d : ℕ} (x : (⟨2, ![n, k]⟩ : Shape).Idx → EReal) (w : (⟨2, ![k, d]⟩ : Shape).Idx → EReal) :
    (⟨2, ![n, d]⟩ : Shape).Idx → EReal :=
  fun i => ∑ j : Fin k, x (ix2 (i 0 : Fin n) j) * w (ix2 j (i 1 : Fin d))

/-- Entry (p, o) of the scaled matrix: g(p, o) · col(p, 0). -/
def scaleRows {n d : ℕ} (g : (⟨2, ![n, d]⟩ : Shape).Idx → EReal) (col : (⟨2, ![n, 1]⟩ : Shape).Idx → EReal) :
    (⟨2, ![n, d]⟩ : Shape).Idx → EReal :=
  fun i => g i * col (ix2 (i 0 : Fin n) (0 : Fin 1))

/-- Entry (p, o) of the shifted matrix: a(p, o) + b(o). -/
def addRow {n d : ℕ} (a : (⟨2, ![n, d]⟩ : Shape).Idx → EReal) (b : (⟨1, ![d]⟩ : Shape).Idx → EReal) :
    (⟨2, ![n, d]⟩ : Shape).Idx → EReal :=
  fun i => a i + b (ix1 (i 1 : Fin d))

/-- Entry (p, o) of the shifted and clamped matrix: the larger of a(p, o) + b(o) and zero (the float zero word,
    kept as a word: both programs write the same one). -/
def addRowClamp {n d : ℕ} (a : (⟨2, ![n, d]⟩ : Shape).Idx → EReal) (b : (⟨1, ![d]⟩ : Shape).Idx → EReal) :
    (⟨2, ![n, d]⟩ : Shape).Idx → EReal :=
  fun i => max (a i + b (ix1 (i 1 : Fin d))) (Ideal.ofBits .f32 0x00000000#32)

/-- Entry p of the row-wise inner product: the sum over o of a(p, o) · b(p, o). -/
def rowDot {n d : ℕ} (a b : (⟨2, ![n, d]⟩ : Shape).Idx → EReal) : (⟨1, ![n]⟩ : Shape).Idx → EReal :=
  fun i => ∑ o : Fin d, a (ix2 (i 0 : Fin n) o) * b (ix2 (i 0 : Fin n) o)

end Cert.Spec

end
-- ==== Proof.LibPlainDot.lean ====
/-
  A plain matrix product, read at one entry.

  A contraction with the dimension numbers of "rows of an [n, k] matrix against columns of a [k, d] matrix" (contract
  axis 1 of the left with axis 0 of the right, no batch axis) sums, at entry (p, o), the products of row p of the left
  operand with column o of the right: the sum over j of lhs(p, j) · rhs(j, o).  This holds for any record of those
  dimension numbers, whatever its extents and formats, and gives the same reading of a matrix unit's product into the
  zero accumulator and of the host's dot_general, on the extended reals.
-/
import Idealize.ShloMosaic.PureOps.Ideal.Laws
import Idealize.ShloMosaic.Lib.ValueIdx

noncomputable section

namespace Cert.LibPlainDot

open Idealize.ShloMosaic Idealize.ShloMosaic.ValueIdx

/-- The sum over the contraction index is the sum over the one contracted coordinate j, the left operand read at
    (p, j) and the right at (j, o). -/
theorem sum_contr_plain {n k d : ℕ} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = [])
    (lhs : (⟨2, ![n, k]⟩ : Shape).Idx → EReal) (rhs : (⟨2, ![k, d]⟩ : Shape).Idx → EReal) (p : Fin n) (o : Fin d) :
    ∑ q : D.contr.Idx, lhs (D.lhsIdx (ix2 p o) q) * rhs (D.rhsIdx (ix2 p o) q) = ∑ j : Fin k, lhs (ix2 p j) * rhs (ix2 j o) := by
  obtain ⟨lc, rc, ln, rn, lb, rb, wf⟩ := D
  simp only at hlc hrc hln hrn hlb hrb
  subst hlc hrc hln hrn hlb hrb
  rw [← Equiv.sum_comp (contrEquiv1 (DotDims.mk [1] [0] [0] [1] [] [] wf) k rfl rfl).symm]
  refine Finset.sum_congr rfl fun j _ => ?_
  have hk := contrEquiv1_symm_val (DotDims.mk [1] [0] [0] [1] [] [] wf) k rfl rfl j
  have el : (DotDims.mk [1] [0] [0] [1] [] [] wf).lhsIdx (ix2 p o) ((contrEquiv1 (DotDims.mk [1] [0] [0] [1] [] [] wf) k rfl rfl).symm j) = ix2 p j :=
    funext fun a => Fin.ext (by
      match a with
      | ⟨0, _⟩ => rfl
      | ⟨1, _⟩ => exact ((DotDims.mk [1] [0] [0] [1] [] [] wf).lhsIdx_val_of_single rfl _ _).trans hk)
  have er : (DotDims.mk [1] [0] [0] [1] [] [] wf).rhsIdx (ix2 p o) ((contrEquiv1 (DotDims.mk [1] [0] [0] [1] [] [] wf) k rfl rfl).symm j) = ix2 j o :=
    funext fun a => Fin.ext (by
      match a with
      | ⟨0, _⟩ => exact ((DotDims.mk [1] [0] [0] [1] [] [] wf).rhsIdx_val_of_single rfl _ _).trans hk
      | ⟨1, _⟩ => rfl)
  rw [el, er]

/-- A matrix unit's product into the zero accumulator, at (p, o). -/
theorem matmul_zero_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision)
    (lhs : FVec Ideal ⟨2, ![n, k]⟩ φ₁) (rhs : FVec Ideal ⟨2, ![k, d]⟩ φ₂) (p : Fin n) (o : Fin d) :
    FloatOps.matmul D prec lhs rhs (constant ⟨2, ![n, d]⟩ .f32 0x00000000#32) (ix2 p o) = ∑ j : Fin k, lhs (ix2 p j) * rhs (ix2 j o) :=
  (Ideal.matmul_constant_zero_apply D prec lhs rhs (ix2 p o)).trans (sum_contr_plain D hlc hrc hln hrn hlb hrb lhs rhs p o)

/-- The host's dot_general, at (p, o). -/
theorem dotGeneral_apply {n k d : ℕ} {φ₁ φ₂ : FTy} (D : DotDims ⟨2, ![n, k]⟩ ⟨2, ![k, d]⟩ ⟨2, ![n, d]⟩)
    (hlc : D.lhsContracting = [1]) (hrc : D.rhsContracting = [0]) (hln : D.lhsNonContracting = [0]) (hrn : D.rhsNonContracting = [1])
    (hlb : D.lhsBatch = []) (hrb : D.rhsBatch = []) (prec : Option ContractPrecision) (sched : HostSchedule)
    (lhs : FVec Ideal ⟨2, ![n, k]⟩ φ₁) (rhs : FVec Ideal ⟨2, ![k, d]⟩ φ₂) (p : Fin n) (o : Fin d) :
    FloatOps.dotGeneral D prec sched lhs rhs (ix2 p o) = ∑ j : Fin k, lhs (ix2 p j) * rhs (ix2 j o) :=
  (Ideal.dotGeneral_apply D prec sched lhs rhs (ix2 p o)).trans (sum_contr_plain D hlc hrc hln hrn hlb hrb lhs rhs p o)

end Cert.LibPlainDot

end
-- ==== Proof.Region0.lean ====
/-
  The first layer's feature transform: the [100000, 64] node features times the [64, 128] weight matrix, 10000 rows
  at a time.  Point t of the 10 multiplies rows 10000·t … 10000·t + 9999 of the left matrix by the whole weight
  matrix and writes the same rows of the output, so the blocks tile the output, and entry (r, o) of the result is the
  sum over j of x(r, j) · w(j, o) whatever block r falls in: a row of the product only reads that row of the left
  matrix.  The matrix unit's operands are rounded to a shorter format on the way in, which on the extended reals
  changes nothing, and it accumulates into zero.
-/
import proofs.«150293_j49065706389779_1_alg».proof.Proof.Gen.KernelIdeal.Frame
import proofs.«150293_j49065706389779_1_alg».proof.Proof.Spec
import proofs.«150293_j49065706389779_1_alg».proof.Proof.LibPlainDot
import Idealize.ShloMosaic.Lib.Pipeline.Value
import Idealize.ShloMosaic.Lib.ValueIdx

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)

theorem zero_offsets0 : (![0, 0] : Fin 2 → Nat) = fun _ => 0 := funext fun a => by fin_cases a <;> rfl

/-- One block's arithmetic at an entry: row p of the left block against column o of the weight matrix. -/
theorem matmul0_entry (x0 : Vec Ideal S10000x64 .f32) (x1 : Vec Ideal S64x128 .f32) (p : Fin 10000) (o : Fin 128) :
    k0_pay1 (F := Ideal) x0 x1 (ix2 p o) = ∑ j : Fin 64, x0 (ix2 p j) * x1 (ix2 j o) := by
  unfold k0_pay1
  exact Cert.LibPlainDot.matmul_zero_apply dot_S10000x64_S64x128_S10000x128_1_0_0_1_n_n rfl rfl rfl rfl rfl rfl none
    (truncf .bf16 x0 bitsLt_bf16_f32) (truncf .bf16 x1 bitsLt_bf16_f32) p o

/-- A row of a block against the weight matrix is the product's entry at the place i of the arrays, once the block's
    row p is row i 0 of the left array and the weight block is the weight array, column o being column i 1. -/
theorem matProd0_of_reads (A : S100000x64.Idx → EReal) (B : S64x128.Idx → EReal) (x0 : Vec Ideal S10000x64 .f32) (x1 : Vec Ideal S64x128 .f32)
    (p : Fin 10000) (o : Fin 128) (i : S100000x128.Idx)
    (hA : ∀ j : Fin 64, x0 (ix2 p j) = A (ix2 (i 0 : Fin 100000) j))
    (hB : ∀ j : Fin 64, x1 (ix2 j o) = B (ix2 j (i 1 : Fin 128))) :
    ∑ j : Fin 64, x0 (ix2 p j) * x1 (ix2 j o) = Cert.Spec.matProd A B i := by
  unfold Cert.Spec.matProd
  exact Finset.sum_congr rfl fun j _ => by rw [hA j, hB j]

/-- The three index maps over the 10 points: the left and the output blocks are at (t, 0), the weight block at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the product. -/
theorem flushed_eq0 (c : Dev nD) (t : Fin cfg0.N) :
    (dat0 (F := Ideal) V c).flushed 2 t
      = ((cfg0.win 2).blk t).view.read (Elt Ideal) (Cert.Spec.matProd (V c main_arg0) (V c main_arg2)) := by
  show (cfg0.win 2).cut (grid0.coords t) ((dat0 V c).after 2 t) = _
  rw [after0_2]
  unfold out0_2
  rw [View.canon_unit_zero zero_offsets0]
  simp only [View.ld_unit_zero (S := S10000x64) zero_offsets0, View.ld_unit_zero (S := S64x128) zero_offsets0]
  funext y
  obtain ⟨e00, e01, e10, e11, e20, e21⟩ := idx_facts0 t
  have hy0 : (y 0).val < 10000 := (y 0).isLt
  have hy1 : (y 1).val < 128 := (y 1).isLt
  -- entry (y 0, j) of the left block sits in row (output row of y) of the left array, column j; entry (j, y 1) of the
  -- weight block sits at (j, output column of y) of the weight array
  have h0 : ∀ j : Fin 64, ((cfg0.win 0).blk t).view.emb (ix2 (y 0) j)
      = ix2 ((((cfg0.win 2).blk t).view.emb y) 0 : Fin 100000) j := fun j => by
    have hj : j.val < 64 := j.isLt
    funext a; apply Fin.ext
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 64 + 1 * j.val = j.val; omega
  have h1 : ∀ j : Fin 64, ((cfg0.win 1).blk t).view.emb (ix2 j (y 1))
      = ix2 j ((((cfg0.win 2).blk t).view.emb y) 1 : Fin 128) := fun j => by
    have hj : j.val < 64 := j.isLt
    funext a; apply Fin.ext
    match a with
    | ⟨0, _⟩ => show win0_1.index t (0 : Fin 2) * 64 + 1 * j.val = j.val; omega
    | ⟨1, _⟩ => show win0_1.index t (1 : Fin 2) * 128 + 1 * (y 1).val = win0_2.index t (1 : Fin 2) * 128 + 1 * (y 1).val; omega
  refine (congrArg (k0_pay1 (iblk0 V c 0 t) (iblk0 V c 1 t)) (eq_ix2 y)).trans ?_
  refine (matmul0_entry (iblk0 V c 0 t) (iblk0 V c 1 t) (y 0) (y 1)).trans ?_
  have hA : ∀ j : Fin 64, iblk0 V c 0 t (ix2 (y 0) j)
      = V c main_arg0 (ix2 ((((cfg0.win 2).blk t).view.emb y) 0 : Fin 100000) j) := fun j => congrArg (V c main_arg0) (h0 j)
  have hB : ∀ j : Fin 64, iblk0 V c 1 t (ix2 j (y 1))
      = V c main_arg2 (ix2 j ((((cfg0.win 2).blk t).view.emb y) 1 : Fin 128)) := fun j => congrArg (V c main_arg2) (h1 j)
  exact matProd0_of_reads (V c main_arg0) (V c main_arg2) (iblk0 V c 0 t) (iblk0 V c 1 t) (y 0) (y 1)
    (((cfg0.win 2).blk t).view.emb y) hA hB

/-- An index of the output array is in point t's block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v7).slice (win0_2.rect t)).set ↔ _
  rw [View.set_slice_whole, Rect.mem_set_unit]
  exact Iff.rfl

/-- Row r of the output lies in the block of point r / 10000: the blocks tile the array. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  have ht : (i 0).val / 10000 < cfg0.N := by rw [hN]; omega
  obtain ⟨-, -, -, -, e20, e21⟩ := idx_facts0 ⟨(i 0).val / 10000, ht⟩
  refine ⟨⟨(i 0).val / 10000, ht⟩, flush0_2 _, ?_⟩
  rw [mem_blk0]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win0_2.index ⟨(i 0).val / 10000, ht⟩ (1 : Fin 2) * 128 ≤ (i 1).val
      ∧ (i 1).val < win0_2.index ⟨(i 0).val / 10000, ht⟩ (1 : Fin 2) * 128 + 128
    rw [e21]; omega

/-- THE STAGE'S RESULT: after its 10 points the output array is the product of the node features with the weight matrix. -/
theorem region0_arr (c : Dev nD) :
    (dat0 (F := Ideal) V c).arrAt 2 cfg0.N = Cert.Spec.matProd (V c main_arg0) (V c main_arg2) :=
  (dat0 (F := Ideal) V c).arrAt_eq_of_cover 2 _ (fun t _ => flushed_eq0 V c t) cover0

end Cert.KernelIdeal.RegionVal

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.Region1.lean ====
/-
  The first scaling stage: every row of the gathered [1380000, 128] matrix is multiplied by that row's entry of the
  [1380000, 1] column of normalisation factors, 10000 rows at a time.  Point t of the 138 handles rows
  10000·t … 10000·t + 9999 of all three arrays, so the blocks tile the output and entry (r, o) of the result is
  g(r, o) · col(r, 0) whatever block r falls in.
-/
import proofs.«150293_j49065706389779_1_alg».proof.Proof.Gen.KernelIdeal.Frame
import proofs.«150293_j49065706389779_1_alg».proof.Proof.Spec
import proofs.«150293_j49065706389779_1_alg».proof.Proof.LibKeepdims
import Idealize.ShloMosaic.Lib.Pipeline.Value
import Idealize.ShloMosaic.Lib.ValueIdx

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)

theorem zero_offsets1 : (![0, 0] : Fin 2 → Nat) = fun _ => 0 := funext fun a => by fin_cases a <;> rfl

/-- One block's arithmetic at an entry: the block of the matrix times the block of the column, the column's one
    entry of the row read for every column of the matrix. -/
theorem scale128_entry (x0 : Vec Ideal S10000x128 .f32) (x1 : Vec Ideal S10000x1 .f32) (p : Fin 10000) (q : Fin 128) :
    k1_pay1 x0 x1 (ix2 p q) = x0 (ix2 p q) * x1 (ix2 p (0 : Fin 1)) := by
  unfold k1_pay1
  show (shapeCast S10000x128 x0 shapeCasts_S10000x128_S10000x128) (ix2 p q)
      * (broadcastTo S10000x128 (shapeCast S10000x1 x1 shapeCasts_S10000x1_S10000x1) broadcasts_S10000x1_S10000x128) (ix2 p q) = _
  rw [shapeCast_self, shapeCast_self, Cert.LibKeepdims.broadcastTo_a1_ab_apply]

/-- The three index maps over the 138 points: each window's block index is (t, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is block t of the scaled matrix. -/
theorem flushed_eq1 (c : Dev nD) (t : Fin cfg1.N) :
    (dat1 (F := Ideal) V c).flushed 2 t
      = ((cfg1.win 2).blk t).view.read (Elt Ideal) (Cert.Spec.scaleRows (V c main_v37) (V c main_v38)) := by
  show (cfg1.win 2).cut (grid1.coords t) ((dat1 V c).after 2 t) = _
  rw [after1_2]
  unfold out1_2
  rw [View.canon_unit_zero zero_offsets1]
  simp only [View.ld_unit_zero (S := S10000x128) zero_offsets1, View.ld_unit_zero (S := S10000x1) zero_offsets1]
  funext j
  obtain ⟨e00, e01, e10, e11, e20, e21⟩ := idx_facts1 t
  have hj0 : (j 0).val < 10000 := (j 0).isLt
  have hj1 : (j 1).val < 128 := (j 1).isLt
  -- the matrix block's entry (j 0, j 1) and the column block's entry (j 0, 0) sit in the arrays where the output
  -- block's entry j does
  have h0 : ((cfg1.win 0).blk t).view.emb (ix2 (j 0) (j 1)) = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix2 (j 0) (0 : Fin 1))
      = ix2 ((((cfg1.win 2).blk t).view.emb j) 0 : Fin 1380000) (0 : Fin 1) := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega
  refine (congrArg (k1_pay1 (iblk1 V c 0 t) (iblk1 V c 1 t)) (eq_ix2 j)).trans ?_
  refine (scale128_entry (iblk1 V c 0 t) (iblk1 V c 1 t) (j 0) (j 1)).trans ?_
  have hA : iblk1 V c 0 t (ix2 (j 0) (j 1)) = V c main_v37 (((cfg1.win 2).blk t).view.emb j) := congrArg (V c main_v37) h0
  have hB : iblk1 V c 1 t (ix2 (j 0) (0 : Fin 1))
      = V c main_v38 (ix2 ((((cfg1.win 2).blk t).view.emb j) 0 : Fin 1380000) (0 : Fin 1)) := congrArg (V c main_v38) h1
  rw [hA, hB]
  rfl

/-- An index of the output array is in point t's block iff each coordinate is in the block's range on its axis. -/
theorem mem_blk1 (t : Fin cfg1.N) (i : S1380000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v39).slice (win1_2.rect t)).set ↔ _
  rw [View.set_slice_whole, Rect.mem_set_unit]
  exact Iff.rfl

/-- Row r of the output lies in the block of point r / 10000: the blocks tile the array. -/
theorem cover1 (i : S1380000x128.Idx) :
    ∃ t : Fin cfg1.N, (cfg1.win 2).flush t = true ∧ i ∈ ((cfg1.win 2).blk t).view.set := by
  have hi0 : (i 0).val < 1380000 := (i 0).isLt
  have hi1 : (i 1).val < 128 := (i 1).isLt
  have hN : cfg1.N = 138 := N_1
  have ht : (i 0).val / 10000 < cfg1.N := by rw [hN]; omega
  obtain ⟨-, -, -, -, e20, e21⟩ := idx_facts1 ⟨(i 0).val / 10000, ht⟩
  refine ⟨⟨(i 0).val / 10000, ht⟩, flush1_2 _, ?_⟩
  rw [mem_blk1]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win1_2.index ⟨(i 0).val / 10000, ht⟩ (1 : Fin 2) * 128 ≤ (i 1).val
      ∧ (i 1).val < win1_2.index ⟨(i 0).val / 10000, ht⟩ (1 : Fin 2) * 128 + 128
    rw [e21]; omega

/-- THE STAGE'S RESULT: after its 138 points the output array is the gathered matrix with every row scaled by the
    row's normalisation factor. -/
theorem region1_arr (c : Dev nD) :
    (dat1 (F := Ideal) V c).arrAt 2 cfg1.N = Cert.Spec.scaleRows (V c main_v37) (V c main_v38) :=
  (dat1 (F := Ideal) V c).arrAt_eq_of_cover 2 _ (fun t _ => flushed_eq1 V c t) cover1

end Cert.KernelIdeal.RegionVal

end
-- ==== Proof.Region2.lean ====
/-
  The first layer's bias and clamp: the [128] bias vector is added to every row of the aggregated [100000, 128] matrix and
  the sum is clamped at zero from below, 10000 rows at a time.  Point t of the 10 handles rows 10000·t … 10000·t + 9999
  of the matrix and of the result and reads the whole bias vector, so the blocks tile the result and its entry (r, o)
  is max(a(r, o) + b(o), 0) whichever block row r falls in.
-/
import proofs.«150293_j49065706389779_1_alg».proof.Proof.Gen.KernelIdeal.Frame
import proofs.«150293_j49065706389779_1_alg».proof.Proof.Spec
import Idealize.ShloMosaic.Lib.Pipeline.Value
import Idealize.ShloMosaic.Lib.ValueIdx
import Idealize.ShloMosaic.Lib.ValueLayout

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)

theorem zero_offsets_mat2 : (![0, 0] : Fin 2 → Nat) = fun _ => 0 := funext fun a => by fin_cases a <;> rfl
theorem zero_offsets_vec2 : (![0] : Fin 1 → Nat) = fun _ => 0 := funext fun a => by fin_cases a <;> rfl

/-- One block's arithmetic at an entry: the matrix block's entry (p, q) plus the vector's entry q, clamped at the
    zero word from below; the vector is laid as a row and the row repeated down the block, so row p plays no part in
    which entry of the vector is read. -/
theorem biasClamp128_entry (x0 : Vec Ideal S10000x128 .f32) (x1 : Vec Ideal S128 .f32) (p : Fin 10000) (q : Fin 128) :
    k2_pay1 x0 x1 (ix2 p q) = max (x0 (ix2 p q) + x1 (ix1 q)) (Ideal.ofBits .f32 0x00000000#32) := by
  unfold k2_pay1
  show max ((shapeCast S10000x128 x0 shapeCasts_S10000x128_S10000x128) (ix2 p q)
      + (broadcastTo S10000x128 (shapeCast S1x128 x1 shapeCasts_S128_S1x128) broadcasts_S1x128_S10000x128) (ix2 p q))
      (Ideal.ofBits .f32 0x00000000#32) = _
  rw [shapeCast_self, broadcastTo_1b_ab_apply, shapeCast_a_1a_apply]

/-- The three index maps over the 10 points: the matrix windows' block index is (t, 0), the vector window's is 0 at
    every point. -/
theorem idx_facts2 : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of the shifted and clamped matrix. -/
theorem flushed_eq2 (c : Dev nD) (t : Fin cfg2.N) :
    (dat2 (F := Ideal) V c).flushed 2 t
      = ((cfg2.win 2).blk t).view.read (Elt Ideal) (Cert.Spec.addRowClamp (V c main_v42) (V c main_arg3)) := by
  show (cfg2.win 2).cut (grid2.coords t) ((dat2 V c).after 2 t) = _
  rw [after2_2]
  unfold out2_2
  rw [View.canon_unit_zero zero_offsets_mat2]
  simp only [View.ld_unit_zero (S := S10000x128) zero_offsets_mat2, View.ld_unit_zero (S := S128) zero_offsets_vec2]
  funext j
  obtain ⟨e00, e01, e10, e20, e21⟩ := idx_facts2 t
  have hj0 : (j 0).val < 10000 := (j 0).isLt
  have hj1 : (j 1).val < 128 := (j 1).isLt
  -- entry (j 0, j 1) of the matrix block sits in its array where entry j of the result's block sits in the result;
  -- entry (j 1) of the vector's one block is entry (column of that place) of the vector
  have h0 : ((cfg2.win 0).blk t).view.emb (ix2 (j 0) (j 1)) = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb (ix1 (j 1))
      = ix1 ((((cfg2.win 2).blk t).view.emb j) 1 : Fin 128) := by
    funext a; apply Fin.ext
    match a with
    | ⟨0, _⟩ => show win2_1.index t (0 : Fin 1) * 128 + 1 * (j 1).val = win2_2.index t (1 : Fin 2) * 128 + 1 * (j 1).val; omega
  refine (congrArg (k2_pay1 (iblk2 V c 0 t) (iblk2 V c 1 t)) (eq_ix2 j)).trans ?_
  refine (biasClamp128_entry (iblk2 V c 0 t) (iblk2 V c 1 t) (j 0) (j 1)).trans ?_
  have a0 : iblk2 V c 0 t (ix2 (j 0) (j 1)) = V c main_v42 (((cfg2.win 2).blk t).view.emb j) :=
    congrArg (V c main_v42) h0
  have a1 : iblk2 V c 1 t (ix1 (j 1)) = V c main_arg3 (ix1 ((((cfg2.win 2).blk t).view.emb j) 1 : Fin 128)) :=
    congrArg (V c main_arg3) h1
  exact congrArg₂ (fun a b : EReal => max (a + b) (Ideal.ofBits .f32 0x00000000#32)) a0 a1

/-- An index of the result is in point t's block iff each coordinate is in the block's range on its axis. -/
theorem mem_blk2 (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v43).slice (win2_2.rect t)).set ↔ _
  rw [View.set_slice_whole, Rect.mem_set_unit]
  exact Iff.rfl

/-- Row r of the result lies in the block of point r / 10000: the blocks tile the array. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 10 := N_2
  have ht : (i 0).val / 10000 < cfg2.N := by rw [hN]; omega
  obtain ⟨-, -, -, e20, e21⟩ := idx_facts2 ⟨(i 0).val / 10000, ht⟩
  refine ⟨⟨(i 0).val / 10000, ht⟩, flush2_2 _, ?_⟩
  rw [mem_blk2]
  intro a
  match a with
  | ⟨0, _⟩ =>
    show win2_2.index ⟨(i 0).val / 10000, ht⟩ (0 : Fin 2) * 10000 ≤ (i 0).val
      ∧ (i 0).val < win2_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win2_2.index ⟨(i 0).val / 10000, ht⟩ (1 : Fin 2) * 128 ≤ (i 1).val
      ∧ (i 1).val < win2_2.index ⟨(i 0).val / 10000, ht⟩ (1 : Fin 2) * 128 + 128
    rw [e21]; omega

/-- THE STAGE'S RESULT: after its 10 points the result array is the aggregated matrix with the bias added to every row
    and the sum clamped at zero from below. -/
theorem region2_arr (c : Dev nD) :
    (dat2 (F := Ideal) V c).arrAt 2 cfg2.N = Cert.Spec.addRowClamp (V c main_v42) (V c main_arg3) :=
  (dat2 (F := Ideal) V c).arrAt_eq_of_cover 2 _ (fun t _ => flushed_eq2 V c t) cover2

end Cert.KernelIdeal.RegionVal

end
-- ==== Proof.Region3.lean ====
/-
  The second layer's feature transform: the [100000, 128] hidden features times the [128, 64] weight matrix, 10000 rows
  at a time.  Point t of the 10 multiplies rows 10000·t … 10000·t + 9999 of the left matrix by the whole weight
  matrix and writes the same rows of the output, so the blocks tile the output, and entry (r, o) of the result is the
  sum over j of x(r, j) · w(j, o) whatever block r falls in: a row of the product only reads that row of the left
  matrix.  The matrix unit's operands are rounded to a shorter format on the way in, which on the extended reals
  changes nothing, and it accumulates into zero.
-/
import proofs.«150293_j49065706389779_1_alg».proof.Proof.Gen.KernelIdeal.Frame
import proofs.«150293_j49065706389779_1_alg».proof.Proof.Spec
import proofs.«150293_j49065706389779_1_alg».proof.Proof.LibPlainDot
import Idealize.ShloMosaic.Lib.Pipeline.Value
import Idealize.ShloMosaic.Lib.ValueIdx

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)

theorem zero_offsets3 : (![0, 0] : Fin 2 → Nat) = fun _ => 0 := funext fun a => by fin_cases a <;> rfl

/-- One block's arithmetic at an entry: row p of the left block against column o of the weight matrix. -/
theorem matmul3_entry (x0 : Vec Ideal S10000x128 .f32) (x1 : Vec Ideal S128x64 .f32) (p : Fin 10000) (o : Fin 64) :
    k3_pay1 (F := Ideal) x0 x1 (ix2 p o) = ∑ j : Fin 128, x0 (ix2 p j) * x1 (ix2 j o) := by
  unfold k3_pay1
  refine (Cert.LibPlainDot.matmul_zero_apply dot_S10000x128_S128x64_S10000x64_1_0_0_1_n_n rfl rfl rfl rfl rfl rfl none
    (truncf .bf16 (shapeCast S10000x128 x0 shapeCasts_S10000x128_S10000x128) bitsLt_bf16_f32) (truncf .bf16 x1 bitsLt_bf16_f32) p o).trans ?_
  -- the left block passes through a reshape to its own shape first, which changes nothing
  rw [shapeCast_self]
  rfl

/-- A row of a block against the weight matrix is the product's entry at the place i of the arrays, once the block's
    row p is row i 0 of the left array and the weight block is the weight array, column o being column i 1. -/
theorem matProd3_of_reads (A : S100000x128.Idx → EReal) (B : S128x64.Idx → EReal) (x0 : Vec Ideal S10000x128 .f32) (x1 : Vec Ideal S128x64 .f32)
    (p : Fin 10000) (o : Fin 64) (i : S100000x64.Idx)
    (hA : ∀ j : Fin 128, x0 (ix2 p j) = A (ix2 (i 0 : Fin 100000) j))
    (hB : ∀ j : Fin 128, x1 (ix2 j o) = B (ix2 j (i 1 : Fin 64))) :
    ∑ j : Fin 128, x0 (ix2 p j) * x1 (ix2 j o) = Cert.Spec.matProd A B i := by
  unfold Cert.Spec.matProd
  exact Finset.sum_congr rfl fun j _ => by rw [hA j, hB j]

/-- The three index maps over the 10 points: the left and the output blocks are at (t, 0), the weight block at (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- What point t writes back is block t of the product. -/
theorem flushed_eq3 (c : Dev nD) (t : Fin cfg3.N) :
    (dat3 (F := Ideal) V c).flushed 2 t
      = ((cfg3.win 2).blk t).view.read (Elt Ideal) (Cert.Spec.matProd (V c main_v43) (V c main_arg4)) := by
  show (cfg3.win 2).cut (grid3.coords t) ((dat3 V c).after 2 t) = _
  rw [after3_2]
  unfold out3_2
  rw [View.canon_unit_zero zero_offsets3]
  simp only [View.ld_unit_zero (S := S10000x128) zero_offsets3, View.ld_unit_zero (S := S128x64) zero_offsets3]
  funext y
  obtain ⟨e00, e01, e10, e11, e20, e21⟩ := idx_facts3 t
  have hy0 : (y 0).val < 10000 := (y 0).isLt
  have hy1 : (y 1).val < 64 := (y 1).isLt
  -- entry (y 0, j) of the left block sits in row (output row of y) of the left array, column j; entry (j, y 1) of the
  -- weight block sits at (j, output column of y) of the weight array
  have h0 : ∀ j : Fin 128, ((cfg3.win 0).blk t).view.emb (ix2 (y 0) j)
      = ix2 ((((cfg3.win 2).blk t).view.emb y) 0 : Fin 100000) j := fun j => by
    have hj : j.val < 128 := j.isLt
    funext a; apply Fin.ext
    match a with
    | ⟨0, _⟩ => show win3_0.index t (0 : Fin 2) * 10000 + 1 * (y 0).val = win3_2.index t (0 : Fin 2) * 10000 + 1 * (y 0).val; omega
    | ⟨1, _⟩ => show win3_0.index t (1 : Fin 2) * 128 + 1 * j.val = j.val; omega
  have h1 : ∀ j : Fin 128, ((cfg3.win 1).blk t).view.emb (ix2 j (y 1))
      = ix2 j ((((cfg3.win 2).blk t).view.emb y) 1 : Fin 64) := fun j => by
    have hj : j.val < 128 := j.isLt
    funext a; apply Fin.ext
    match a with
    | ⟨0, _⟩ => show win3_1.index t (0 : Fin 2) * 128 + 1 * j.val = j.val; omega
    | ⟨1, _⟩ => show win3_1.index t (1 : Fin 2) * 64 + 1 * (y 1).val = win3_2.index t (1 : Fin 2) * 64 + 1 * (y 1).val; omega
  refine (congrArg (k3_pay1 (iblk3 V c 0 t) (iblk3 V c 1 t)) (eq_ix2 y)).trans ?_
  refine (matmul3_entry (iblk3 V c 0 t) (iblk3 V c 1 t) (y 0) (y 1)).trans ?_
  have hA : ∀ j : Fin 128, iblk3 V c 0 t (ix2 (y 0) j)
      = V c main_v43 (ix2 ((((cfg3.win 2).blk t).view.emb y) 0 : Fin 100000) j) := fun j => congrArg (V c main_v43) (h0 j)
  have hB : ∀ j : Fin 128, iblk3 V c 1 t (ix2 j (y 1))
      = V c main_arg4 (ix2 j ((((cfg3.win 2).blk t).view.emb y) 1 : Fin 64)) := fun j => congrArg (V c main_arg4) (h1 j)
  exact matProd3_of_reads (V c main_v43) (V c main_arg4) (iblk3 V c 0 t) (iblk3 V c 1 t) (y 0) (y 1)
    (((cfg3.win 2).blk t).view.emb y) hA hB

/-- An index of the output array is in point t's block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v44).slice (win3_2.rect t)).set ↔ _
  rw [View.set_slice_whole, Rect.mem_set_unit]
  exact Iff.rfl

/-- Row r of the output lies in the block of point r / 10000: the blocks tile the array. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 10 := N_3
  have ht : (i 0).val / 10000 < cfg3.N := by rw [hN]; omega
  obtain ⟨-, -, -, -, e20, e21⟩ := idx_facts3 ⟨(i 0).val / 10000, ht⟩
  refine ⟨⟨(i 0).val / 10000, ht⟩, flush3_2 _, ?_⟩
  rw [mem_blk3]
  intro a
  match a with
  | ⟨0, _⟩ =>
    show win3_2.index ⟨(i 0).val / 10000, ht⟩ (0 : Fin 2) * 10000 ≤ (i 0).val
      ∧ (i 0).val < win3_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win3_2.index ⟨(i 0).val / 10000, ht⟩ (1 : Fin 2) * 64 ≤ (i 1).val
      ∧ (i 1).val < win3_2.index ⟨(i 0).val / 10000, ht⟩ (1 : Fin 2) * 64 + 64
    rw [e21]; omega

/-- THE STAGE'S RESULT: after its 10 points the output array is the product of the hidden features with the weight matrix. -/
theorem region3_arr (c : Dev nD) :
    (dat3 (F := Ideal) V c).arrAt 2 cfg3.N = Cert.Spec.matProd (V c main_v43) (V c main_arg4) :=
  (dat3 (F := Ideal) V c).arrAt_eq_of_cover 2 _ (fun t _ => flushed_eq3 V c t) cover3

end Cert.KernelIdeal.RegionVal

end
-- ==== Proof.Region4.lean ====
/-
  The second scaling stage: every row of the gathered [1380000, 64] matrix is multiplied by that row's entry of the
  [1380000, 1] column of normalisation factors, 10000 rows at a time.  Point t of the 138 handles rows
  10000·t … 10000·t + 9999 of the matrix, of the column and of the result, so the blocks tile the result and its
  entry (r, o) is g(r, o) · col(r, 0) whichever block row r falls in.
-/
import proofs.«150293_j49065706389779_1_alg».proof.Proof.Gen.KernelIdeal.Frame
import proofs.«150293_j49065706389779_1_alg».proof.Proof.Spec
import proofs.«150293_j49065706389779_1_alg».proof.Proof.LibKeepdims
import Idealize.ShloMosaic.Lib.Pipeline.Value
import Idealize.ShloMosaic.Lib.ValueIdx

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)

theorem zero_offsets4 : (![0, 0] : Fin 2 → Nat) = fun _ => 0 := funext fun a => by fin_cases a <;> rfl

/-- One block's arithmetic at an entry: the matrix block's entry (p, q) times the column block's entry of row p,
    the same factor for every column q. -/
theorem scale64_entry (x0 : Vec Ideal S10000x64 .f32) (x1 : Vec Ideal S10000x1 .f32) (p : Fin 10000) (q : Fin 64) :
    k4_pay1 x0 x1 (ix2 p q) = x0 (ix2 p q) * x1 (ix2 p (0 : Fin 1)) := by
  unfold k4_pay1
  show (shapeCast S10000x64 x0 shapeCasts_S10000x64_S10000x64) (ix2 p q)
      * (broadcastTo S10000x64 (shapeCast S10000x1 x1 shapeCasts_S10000x1_S10000x1) broadcasts_S10000x1_S10000x64) (ix2 p q) = _
  rw [shapeCast_self, shapeCast_self, Cert.LibKeepdims.broadcastTo_a1_ab_apply]

/-- The three index maps over the 138 points: each window's block index is (t, 0). -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

variable (V : (c : Dev nD) → (b : Ref sig .tc) → Buf (Elt Ideal) ((c : Thread nD τ).loc b))

/-- What point t writes back is block t of the scaled matrix. -/
theorem flushed_eq4 (c : Dev nD) (t : Fin cfg4.N) :
    (dat4 (F := Ideal) V c).flushed 2 t
      = ((cfg4.win 2).blk t).view.read (Elt Ideal) (Cert.Spec.scaleRows (V c main_v74) (V c main_v75)) := by
  show (cfg4.win 2).cut (grid4.coords t) ((dat4 V c).after 2 t) = _
  rw [after4_2]
  unfold out4_2
  rw [View.canon_unit_zero zero_offsets4]
  simp only [View.ld_unit_zero (S := S10000x64) zero_offsets4, View.ld_unit_zero (S := S10000x1) zero_offsets4]
  funext j
  obtain ⟨e00, e01, e10, e11, e20, e21⟩ := idx_facts4 t
  have hj0 : (j 0).val < 10000 := (j 0).isLt
  have hj1 : (j 1).val < 64 := (j 1).isLt
  -- entry (j 0, j 1) of the matrix block and entry (j 0, 0) of the column block sit in their arrays in the row
  -- where entry j of the result's block sits
  have h0 : ((cfg4.win 0).blk t).view.emb (ix2 (j 0) (j 1)) = ((cfg4.win 2).blk t).view.emb j := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb (ix2 (j 0) (0 : Fin 1))
      = ix2 ((((cfg4.win 2).blk t).view.emb j) 0 : Fin 1380000) (0 : Fin 1) := by
    funext a; apply Fin.ext
    match a with
    | ⟨0, _⟩ => show win4_1.index t (0 : Fin 2) * 10000 + 1 * (j 0).val = win4_2.index t (0 : Fin 2) * 10000 + 1 * (j 0).val; omega
    | ⟨1, _⟩ => show win4_1.index t (1 : Fin 2) * 1 + 1 * 0 = 0; omega
  refine (congrArg (k4_pay1 (iblk4 V c 0 t) (iblk4 V c 1 t)) (eq_ix2 j)).trans ?_
  refine (scale64_entry (iblk4 V c 0 t) (iblk4 V c 1 t) (j 0) (j 1)).trans ?_
  have a0 : iblk4 V c 0 t (ix2 (j 0) (j 1)) = V c main_v74 (((cfg4.win 2).blk t).view.emb j) :=
    congrArg (V c main_v74) h0
  have a1 : iblk4 V c 1 t (ix2 (j 0) (0 : Fin 1))
      = V c main_v75 (ix2 ((((cfg4.win 2).blk t).view.emb j) 0 : Fin 1380000) (0 : Fin 1)) :=
    congrArg (V c main_v75) h1
  exact congrArg₂ (fun a b : EReal => a * b) a0 a1

/-- An index of the result is in point t's block iff each coordinate is in the block's range on its axis. -/
theorem mem_blk4 (t : Fin cfg4.N) (i : S1380000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v76).slice (win4_2.rect t)).set ↔ _
  rw [View.set_slice_whole, Rect.mem_set_unit]
  exact Iff.rfl

/-- Row r of the result lies in the block of point r / 10000: the blocks tile the array. -/
theorem cover4 (i : S1380000x64.Idx) :
    ∃ t : Fin cfg4.N, (cfg4.win 2).flush t = true ∧ i ∈ ((cfg4.win 2).blk t).view.set := by
  have hi0 : (i 0).val < 1380000 := (i 0).isLt
  have hi1 : (i 1).val < 64 := (i 1).isLt
  have hN : cfg4.N = 138 := N_4
  have ht : (i 0).val / 10000 < cfg4.N := by rw [hN]; omega
  obtain ⟨-, -, -, -, e20, e21⟩ := idx_facts4 ⟨(i 0).val / 10000, ht⟩
  refine ⟨⟨(i 0).val / 10000, ht⟩, flush4_2 _, ?_⟩
  rw [mem_blk4]
  intro a
  match a with
  | ⟨0, _⟩ =>
    show win4_2.index ⟨(i 0).val / 10000, ht⟩ (0 : Fin 2) * 10000 ≤ (i 0).val
      ∧ (i 0).val < win4_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win4_2.index ⟨(i 0).val / 10000, ht⟩ (1 : Fin 2) * 64 ≤ (i 1).val
      ∧ (i 1).val < win4_2.index ⟨(i 0).val / 10000, ht⟩ (1 : Fin 2) * 64 + 64
    rw [e21]; omega

/-- THE STAGE'S RESULT: after its 138 points the result array is the gathered matrix with every row scaled by the
    row's normalisation factor. -/
theorem region4_arr (c : Dev nD) :
    (dat4 (F := Ideal) V c).arrAt 2 cfg4.N = Cert.Spec.scaleRows (V c main_v74) (V c main_v75) :=
  (dat4 (F := Ideal) V c).arrAt_eq_of_cover 2 _ (fun t _ => flushed_eq4 V c t) cover4

end Cert.KernelIdeal.RegionVal

end
-- ==== Proof.Region5.lean ====
/-
  The second layer's bias: the [64] bias vector is added to every row of the aggregated [100000, 64] matrix, 10000
  rows at a time.  Point t of the 10 handles rows 10000·t … 10000·t + 9999 of the matrix and of the result and reads
  the whole bias vector, so the blocks tile the result and its entry (r, o) is a(r, o) + b(o) whichever block row r
  falls in.
-/
import proofs.«150293_j49065706389779_1_alg».proof.Proof.Gen.KernelIdeal.Frame
import proofs.«150293_j49065706389779_1_alg».proof.Proof.Spec
import Idealize.ShloMosaic.Lib.Pipeline.Value
import Idealize.ShloMosaic.Lib.ValueIdx
import Idealize.ShloMosaic.Lib.ValueLayout

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)

theorem zero_offsets_mat5 : (![0, 0] : Fin 2 → Nat) = fun _ => 0 := funext fun a => by fin_cases a <;> rfl
theorem zero_offsets_vec5 : (![0] : Fin 1 → Nat) = fun _ => 0 := funext fun a => by fin_cases a <;> rfl

/-- One block's arithmetic at an entry: the matrix block's entry (p, q) plus the vector's entry q; the vector is laid
    as a row and the row repeated down the block, so row p plays no part in which entry of the vector is read. -/
theorem bias64_entry (x0 : Vec Ideal S10000x64 .f32) (x1 : Vec Ideal S64 .f32) (p : Fin 10000) (q : Fin 64) :
    k5_pay1 x0 x1 (ix2 p q) = x0 (ix2 p q) + x1 (ix1 q) := by
  unfold k5_pay1
  show (shapeCast S10000x64 x0 shapeCasts_S10000x64_S10000x64) (ix2 p q)
      + (broadcastTo S10000x64 (shapeCast S1x64 x1 shapeCasts_S64_S1x64) broadcasts_S1x64_S10000x64) (ix2 p q) = _
  rw [shapeCast_self, broadcastTo_1b_ab_apply, shapeCast_a_1a_apply]

/-- The three index maps over the 10 points: the matrix windows' block index is (t, 0), the vector window's is 0 at
    every point. -/
theorem idx_facts5 : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

variable (V : (c : Dev nD) → (b : Ref sig .tc) → Buf (Elt Ideal) ((c : Thread nD τ).loc b))

/-- What point t writes back is block t of the shifted matrix. -/
theorem flushed_eq5 (c : Dev nD) (t : Fin cfg5.N) :
    (dat5 (F := Ideal) V c).flushed 2 t
      = ((cfg5.win 2).blk t).view.read (Elt Ideal) (Cert.Spec.addRow (V c main_v79) (V c main_arg5)) := by
  show (cfg5.win 2).cut (grid5.coords t) ((dat5 V c).after 2 t) = _
  rw [after5_2]
  unfold out5_2
  rw [View.canon_unit_zero zero_offsets_mat5]
  simp only [View.ld_unit_zero (S := S10000x64) zero_offsets_mat5, View.ld_unit_zero (S := S64) zero_offsets_vec5]
  funext j
  obtain ⟨e00, e01, e10, e20, e21⟩ := idx_facts5 t
  have hj0 : (j 0).val < 10000 := (j 0).isLt
  have hj1 : (j 1).val < 64 := (j 1).isLt
  -- entry (j 0, j 1) of the matrix block sits in its array where entry j of the result's block sits in the result;
  -- entry (j 1) of the vector's one block is entry (column of that place) of the vector
  have h0 : ((cfg5.win 0).blk t).view.emb (ix2 (j 0) (j 1)) = ((cfg5.win 2).blk t).view.emb j := by
    funext a; apply Fin.ext
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb (ix1 (j 1))
      = ix1 ((((cfg5.win 2).blk t).view.emb j) 1 : Fin 64) := by
    funext a; apply Fin.ext
    match a with
    | ⟨0, _⟩ => show win5_1.index t (0 : Fin 1) * 64 + 1 * (j 1).val = win5_2.index t (1 : Fin 2) * 64 + 1 * (j 1).val; omega
  refine (congrArg (k5_pay1 (iblk5 V c 0 t) (iblk5 V c 1 t)) (eq_ix2 j)).trans ?_
  refine (bias64_entry (iblk5 V c 0 t) (iblk5 V c 1 t) (j 0) (j 1)).trans ?_
  have a0 : iblk5 V c 0 t (ix2 (j 0) (j 1)) = V c main_v79 (((cfg5.win 2).blk t).view.emb j) :=
    congrArg (V c main_v79) h0
  have a1 : iblk5 V c 1 t (ix1 (j 1)) = V c main_arg5 (ix1 ((((cfg5.win 2).blk t).view.emb j) 1 : Fin 64)) :=
    congrArg (V c main_arg5) h1
  exact congrArg₂ (fun a b : EReal => a + b) a0 a1

/-- An index of the result is in point t's block iff each coordinate is in the block's range on its axis. -/
theorem mem_blk5 (t : Fin cfg5.N) (i : S100000x64.Idx) :
    i ∈ ((cfg5.win 2).blk t).view.set ↔ ∀ a : Fin 2, win5_2.index t a * S10000x64.size a ≤ (i a).val
      ∧ (i a).val < win5_2.index t a * S10000x64.size a + S10000x64.size a := by
  show i ∈ ((View.whole main_v80).slice (win5_2.rect t)).set ↔ _
  rw [View.set_slice_whole, Rect.mem_set_unit]
  exact Iff.rfl

/-- Row r of the result lies in the block of point r / 10000: the blocks tile the array. -/
theorem cover5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : cfg5.N = 10 := N_5
  have ht : (i 0).val / 10000 < cfg5.N := by rw [hN]; omega
  obtain ⟨-, -, -, e20, e21⟩ := idx_facts5 ⟨(i 0).val / 10000, ht⟩
  refine ⟨⟨(i 0).val / 10000, ht⟩, flush5_2 _, ?_⟩
  rw [mem_blk5]
  intro a
  match a with
  | ⟨0, _⟩ =>
    show win5_2.index ⟨(i 0).val / 10000, ht⟩ (0 : Fin 2) * 10000 ≤ (i 0).val
      ∧ (i 0).val < win5_2.index ⟨(i 0).val / 10000, ht⟩ (0 : Fin 2) * 10000 + 10000
    rw [e20]; show (i 0).val / 10000 * 10000 ≤ (i 0).val ∧ (i 0).val < (i 0).val / 10000 * 10000 + 10000; omega
  | ⟨1, _⟩ =>
    show win5_2.index ⟨(i 0).val / 10000, ht⟩ (1 : Fin 2) * 64 ≤ (i 1).val
      ∧ (i 1).val < win5_2.index ⟨(i 0).val / 10000, ht⟩ (1 : Fin 2) * 64 + 64
    rw [e21]; omega

/-- THE STAGE'S RESULT: after its 10 points the result array is the aggregated matrix with the bias added to every
    row. -/
theorem region5_arr (c : Dev nD) :
    (dat5 (F := Ideal) V c).arrAt 2 cfg5.N = Cert.Spec.addRow (V c main_v79) (V c main_arg5) :=
  (dat5 (F := Ideal) V c).arrAt_eq_of_cover 2 _ (fun t _ => flushed_eq5 V c t) cover5

end Cert.KernelIdeal.RegionVal

end
-- ==== Proof.LibRowReduce.lean ====
/-
  Reductions along the rows of a matrix, read at one row.

  For an [n, d] matrix reduced over its second axis into an [n] vector, the entry at row p is the reduction of the
  entries (p, 0), …, (p, d-1): a sum for an add-reduction, the fold of `max` from the start value for a
  maximum-reduction.  Stated for the kernel's vector reductions and for the host's one-operand reduce, at the
  extended reals, for any extents and float format.
-/
import Idealize.ShloMosaic.PureOps.Ideal.Laws
import Idealize.ShloMosaic.Lib.ValueIdx

noncomputable section
namespace Cert.LibRowReduce
open Idealize.ShloMosaic Idealize.ShloMosaic.ValueIdx

variable {φ : FTy}

/-- Row p with the coordinate o put back on the reduced axis is the entry (p, o). -/
theorem lift_row {n d : ℕ} (h : (⟨2, ![n, d]⟩ : Shape).Reduces [1] ⟨1, ![n]⟩) (p : Fin n) (o : Fin d) :
    h.lift (ix1 p) o = ix2 p o :=
  funext fun a => Fin.ext (by
    match a with
    | ⟨0, _⟩ => rfl
    | ⟨1, _⟩ => rfl)

/-- A vector add-reduction along the rows: the row's sum. -/
theorem multiReduction_add_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.add.neutral φ hφ) (p : Fin n) :
    multiReduction .add [1] ⟨1, ![n]⟩ src acc h hφ hacc (ix1 p) = ∑ o : Fin d, src (ix2 p o) :=
  (Ideal.multiReduction_add_single src acc h hφ hacc (ix1 p)).trans
    (Finset.sum_congr rfl fun o _ => congrArg src (lift_row h p o))

/-- A vector maximum-reduction along the rows: the fold of `max` over the row from the accumulator's value. -/
theorem multiReduction_max_row {n d : ℕ} (src : FVec Ideal ⟨2, ![n, d]⟩ φ) (acc : BitVec φ.bits)
    (h : (⟨2, ![n, d]⟩ : Shape).Reduces [1] ⟨1, ![n]⟩) (hφ : FKind.Formats φ) (hacc : acc = FKind.maximumf.neutral φ hφ) (p : Fin n) :
    multiReduction .maximumf [1] ⟨1, ![n]⟩ src acc h hφ hacc (ix1 p)
      = (Finset.univ : Finset (Fin d)).fold max (Ideal.ofBits φ acc) (fun o => src (ix2 p o)) :=
  (Ideal.multiReduction_maximumf_single src acc h hφ hacc (ix1 p)).trans
    (congrArg (Finset.fold max (Ideal.ofBits φ acc) · Finset.univ) (funext fun o => congrArg src (lift_row h p o)))

/-- The host's add-reduce along the rows: the start value plus the row's sum. -/
theorem hostReduceAdd_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduceAdd x init h' hu (ix1 p) = init (Shape.Idx.first hu) + ∑ o : Fin d, x (ix2 p o) :=
  (Ideal.hostReduceAdd_single h' h x (init (Shape.Idx.first hu)) (ix1 p)).trans
    (congrArg (init (Shape.Idx.first hu) + ·) (Finset.sum_congr rfl fun o _ => congrArg x (lift_row h p o)))

/-- The host's maximum-reduce along the rows: the fold of `max` over the row from the start value. -/
theorem hostReduce_max_row {n d : ℕ} {u : Shape} (x : FVec Ideal ⟨2, ![n, d]⟩ φ) (init : u.Idx → Ideal φ)
    (h' : (⟨2, ![n, d]⟩ : Shape).ReducesTo [1] ⟨1, ![n]⟩) (h : (⟨2, ![n, d]⟩ : Shape).Reduces [1] ⟨1, ![n]⟩) (hu : 0 < u.numel) (p : Fin n) :
    Host.reduce (FloatOps.maximumf (F := Ideal) (φ := φ)) x init h' hu (ix1 p)
      = (Finset.univ : Finset (Fin d)).fold max (init (Shape.Idx.first hu)) (fun o => x (ix2 p o)) :=
  (Host.reduce_eq_fold_single (FloatOps.maximumf (F := Ideal) (φ := φ)) x init h' h hu (ix1 p)).trans
    (congrArg (Finset.fold max (init (Shape.Idx.first hu)) · Finset.univ) (funext fun o => congrArg x (lift_row h p o)))

end Cert.LibRowReduce
end
-- ==== Proof.Region6.lean ====
/-
  The decoder: for each of the 1280000 edges, the inner product of its two endpoints' [64] embeddings, 10240 edges at
  a time.  Point t of the 125 takes rows 10240·t … 10240·t + 10239 of both gathered [1280000, 64] arrays, multiplies
  them entry by entry, adds up each row from zero, and writes entries 10240·t … 10240·t + 10239 of the [1280000]
  output.  The blocks tile the output, and entry r of the result is the sum over o of a(r, o) · b(r, o) whatever block
  r falls in: an edge's score only reads that edge's two rows.
-/
import proofs.«150293_j49065706389779_1_alg».proof.Proof.Gen.KernelIdeal.Frame
import proofs.«150293_j49065706389779_1_alg».proof.Proof.Spec
import proofs.«150293_j49065706389779_1_alg».proof.Proof.LibRowReduce
import Idealize.ShloMosaic.Lib.Pipeline.Value
import Idealize.ShloMosaic.Lib.ValueIdx

noncomputable section

namespace Cert.KernelIdeal.RegionVal

open Cert.KernelIdeal Cert.KernelIdeal.Gen Idealize.ShloMosaic Idealize.ShloMosaic.TcCoe Idealize.SL.Sem
open Idealize.ShloMosaic.ValueIdx
open Idealize.ShloMosaic.Pipeline (Dat)

theorem zero_offsets6 : (![0, 0] : Fin 2 → Nat) = fun _ => 0 := funext fun a => by fin_cases a <;> rfl
theorem zero_offset6 : (![0] : Fin 1 → Nat) = fun _ => 0 := funext fun a => by fin_cases a; rfl

/-- One block's arithmetic at an entry: the row sum, from zero, of the entrywise product of the two blocks' rows p. -/
theorem rowDot6_entry (x0 : Vec Ideal S10240x64 .f32) (x1 : Vec Ideal S10240x64 .f32) (p : Fin 10240) :
    k6_pay1 (F := Ideal) x0 x1 (ix1 p) = ∑ o : Fin 64, x0 (ix2 p o) * x1 (ix2 p o) := by
  unfold k6_pay1
  refine (Cert.LibRowReduce.multiReduction_add_row
    (mulf (shapeCast S10240x64 x0 shapeCasts_S10240x64_S10240x64) (shapeCast S10240x64 x1 shapeCasts_S10240x64_S10240x64))
    0x00000000#32 reduces_S10240x64_S10240 (.inl rfl) rfl p).trans ?_
  -- both blocks pass through a reshape to their own shape first, which changes nothing
  rw [shapeCast_self, shapeCast_self]
  rfl

/-- The row sum of two blocks' rows p is the inner product's entry at the place i of the arrays, once row p of each
    block is row i 0 of its array. -/
theorem rowDot6_of_reads (A B : S1280000x64.Idx → EReal) (x0 x1 : Vec Ideal S10240x64 .f32) (p : Fin 10240) (i : S1280000.Idx)
    (hA : ∀ o : Fin 64, x0 (ix2 p o) = A (ix2 (i 0 : Fin 1280000) o))
    (hB : ∀ o : Fin 64, x1 (ix2 p o) = B (ix2 (i 0 : Fin 1280000) o)) :
    ∑ o : Fin 64, x0 (ix2 p o) * x1 (ix2 p o) = Cert.Spec.rowDot A B i := by
  unfold Cert.Spec.rowDot
  exact Finset.sum_congr rfl fun o _ => by rw [hA o, hB o]

/-- The three index maps over the 125 points: the two input blocks are at (t, 0), the output block at (t). -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 1) = t.val :=
  (by decide +kernel : ∀ t : Fin grid6.N, _)

variable (V : (c : Dev nD) → (b : Ref sig .tc) → Buf (Elt Ideal) ((c : Thread nD τ).loc b))

/-- What point t writes back is block t of the row-wise inner products. -/
theorem flushed_eq6 (c : Dev nD) (t : Fin cfg6.N) :
    (dat6 (F := Ideal) V c).flushed 2 t
      = ((cfg6.win 2).blk t).view.read (Elt Ideal) (Cert.Spec.rowDot (V c main_v91) (V c main_v98)) := by
  show (cfg6.win 2).cut (grid6.coords t) ((dat6 V c).after 2 t) = _
  rw [after6_2]
  unfold out6_2
  rw [View.canon_unit_zero zero_offset6]
  simp only [View.ld_unit_zero (S := S10240x64) zero_offsets6]
  funext y
  obtain ⟨e00, e01, e10, e11, e20⟩ := idx_facts6 t
  have hy0 : (y 0).val < 10240 := (y 0).isLt
  -- entry (y 0, o) of either input block sits in row (output place of y) of its array, column o
  have h0 : ∀ o : Fin 64, ((cfg6.win 0).blk t).view.emb (ix2 (y 0) o)
      = ix2 ((((cfg6.win 2).blk t).view.emb y) 0 : Fin 1280000) o := fun o => by
    have ho : o.val < 64 := o.isLt
    funext a; apply Fin.ext
    match a with
    | ⟨0, _⟩ => show win6_0.index t (0 : Fin 2) * 10240 + 1 * (y 0).val = win6_2.index t (0 : Fin 1) * 10240 + 1 * (y 0).val; omega
    | ⟨1, _⟩ => show win6_0.index t (1 : Fin 2) * 64 + 1 * o.val = o.val; omega
  have h1 : ∀ o : Fin 64, ((cfg6.win 1).blk t).view.emb (ix2 (y 0) o)
      = ix2 ((((cfg6.win 2).blk t).view.emb y) 0 : Fin 1280000) o := fun o => by
    have ho : o.val < 64 := o.isLt
    funext a; apply Fin.ext
    match a with
    | ⟨0, _⟩ => show win6_1.index t (0 : Fin 2) * 10240 + 1 * (y 0).val = win6_2.index t (0 : Fin 1) * 10240 + 1 * (y 0).val; omega
    | ⟨1, _⟩ => show win6_1.index t (1 : Fin 2) * 64 + 1 * o.val = o.val; omega
  refine (congrArg (k6_pay1 (iblk6 V c 0 t) (iblk6 V c 1 t)) (eq_ix1 y)).trans ?_
  refine (rowDot6_entry (iblk6 V c 0 t) (iblk6 V c 1 t) (y 0)).trans ?_
  have hA : ∀ o : Fin 64, iblk6 V c 0 t (ix2 (y 0) o)
      = V c main_v91 (ix2 ((((cfg6.win 2).blk t).view.emb y) 0 : Fin 1280000) o) := fun o => congrArg (V c main_v91) (h0 o)
  have hB : ∀ o : Fin 64, iblk6 V c 1 t (ix2 (y 0) o)
      = V c main_v98 (ix2 ((((cfg6.win 2).blk t).view.emb y) 0 : Fin 1280000) o) := fun o => congrArg (V c main_v98) (h1 o)
  exact rowDot6_of_reads (V c main_v91) (V c main_v98) (iblk6 V c 0 t) (iblk6 V c 1 t) (y 0)
    (((cfg6.win 2).blk t).view.emb y) hA hB

/-- An index of the output array is in point t's block iff its coordinate is in the block's range. -/
theorem mem_blk6 (t : Fin cfg6.N) (i : S1280000.Idx) :
    i ∈ ((cfg6.win 2).blk t).view.set ↔ ∀ a : Fin 1, win6_2.index t a * S10240.size a ≤ (i a).val
      ∧ (i a).val < win6_2.index t a * S10240.size a + S10240.size a := by
  show i ∈ ((View.whole main_v99).slice (win6_2.rect t)).set ↔ _
  rw [View.set_slice_whole, Rect.mem_set_unit]
  exact Iff.rfl

/-- Entry r of the output lies in the block of point r / 10240: the blocks tile the array. -/
theorem cover6 (i : S1280000.Idx) :
    ∃ t : Fin cfg6.N, (cfg6.win 2).flush t = true ∧ i ∈ ((cfg6.win 2).blk t).view.set := by
  have hi0 : (i 0).val < 1280000 := (i 0).isLt
  have hN : cfg6.N = 125 := N_6
  have ht : (i 0).val / 10240 < cfg6.N := by rw [hN]; omega
  obtain ⟨-, -, -, -, e20⟩ := idx_facts6 ⟨(i 0).val / 10240, ht⟩
  refine ⟨⟨(i 0).val / 10240, ht⟩, flush6_2 _, ?_⟩
  rw [mem_blk6]
  intro a
  match a with
  | ⟨0, _⟩ =>
    show win6_2.index ⟨(i 0).val / 10240, ht⟩ (0 : Fin 1) * 10240 ≤ (i 0).val
      ∧ (i 0).val < win6_2.index ⟨(i 0).val / 10240, ht⟩ (0 : Fin 1) * 10240 + 10240
    rw [e20]; show (i 0).val / 10240 * 10240 ≤ (i 0).val ∧ (i 0).val < (i 0).val / 10240 * 10240 + 10240; omega

/-- THE STAGE'S RESULT: after its 125 points the output array holds, for every edge, the inner product of its two
    endpoints' embeddings. -/
theorem region6_arr (c : Dev nD) :
    (dat6 (F := Ideal) V c).arrAt 2 cfg6.N = Cert.Spec.rowDot (V c main_v91) (V c main_v98) :=
  (dat6 (F := Ideal) V c).arrAt_eq_of_cover 2 _ (fun t _ => flushed_eq6 V c t) cover6

end Cert.KernelIdeal.RegionVal

end
-- ==== Proof.RefChunks.lean ====
/-
  The reference program's 148 host operations cut into seventeen consecutive groups, one per stretch of the kernel
  program it is compared with: the group that ends with each result the kernel's host operations or one of its blocked
  stages produce (the first matrix product and the two index vectors; the normalisation factors of the first layer; its
  scaled messages; their scatter-sum; the bias and clamp; the second product; …), and one group with no counterpart,
  the index vectors the reference computes a second time.  Running all 148 from some buffer contents is running the
  groups one after the other.
-/
import proofs.«150293_j49065706389779_1_alg».proof.Proof.RefRunP

noncomputable section

namespace Cert.ReferenceIdeal.Chunks

open Cert.ReferenceIdeal Cert.ReferenceIdeal.Gen Idealize.ShloMosaic Idealize.ShloMosaic.TcCoe Idealize.SL.Sem Idealize.ShloMosaic.StableHlo

variable {F : FTy → Type} [FloatOps F]

/-- Group 0 of the reference's operations (8). -/
abbrev rc0 : List (HloOp τ sig (Elt F)) :=
  [ binary main_arg0 main_arg2 main_v0 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    nullary main_v1 (iotaInDim S100000 32 0),
    unary main_arg1 main_v2 ((extractStridedSlice S1x1280000 ![0, 0] · slices_S2x1280000_S1x1280000_0_0) : (⟨S2x1280000, .i32⟩ : BufTy).Contents (Elt F) → (⟨S1x1280000, .i32⟩ : BufTy).Contents (Elt F)),
    reshape main_v2 main_v3 rfl shapeCasts_S1x1280000_S1280000,
    binary main_v3 main_v1 main_v4 ((fun a b => concatenate S1380000 0 [⟨S1280000, a⟩, ⟨S100000, b⟩] concatenates_S1280000_S100000_S1380000_d0) : (⟨S1280000, .i32⟩ : BufTy).Contents (Elt F) → (⟨S100000, .i32⟩ : BufTy).Contents (Elt F) → (⟨S1380000, .i32⟩ : BufTy).Contents (Elt F)),
    unary main_arg1 main_v5 ((extractStridedSlice S1x1280000 ![1, 0] · slices_S2x1280000_S1x1280000_1_0) : (⟨S2x1280000, .i32⟩ : BufTy).Contents (Elt F) → (⟨S1x1280000, .i32⟩ : BufTy).Contents (Elt F)),
    reshape main_v5 main_v6 rfl shapeCasts_S1x1280000_S1280000,
    binary main_v6 main_v1 main_v7 ((fun a b => concatenate S1380000 0 [⟨S1280000, a⟩, ⟨S100000, b⟩] concatenates_S1280000_S100000_S1380000_d0) : (⟨S1280000, .i32⟩ : BufTy).Contents (Elt F) → (⟨S100000, .i32⟩ : BufTy).Contents (Elt F) → (⟨S1380000, .i32⟩ : BufTy).Contents (Elt F)) ]

/-- Group 1 of the reference's operations (11). -/
abbrev rc1 : List (HloOp τ sig (Elt F)) :=
  [ nullary main_cst (constant S_ .f32 0x3F800000#32),
    unary main_cst main_v8 (broadcastInDim S1380000 ![] bcast_S_S1380000 : (⟨S_, .f32⟩ : BufTy).Contents (Elt F) → (⟨S1380000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S1380000x1 ![0] bcast_S1380000_S1380000x1_0 : (⟨S1380000, .i32⟩ : BufTy).Contents (Elt F) → (⟨S1380000x1, .i32⟩ : BufTy).Contents (Elt F)),
    ternary main_v9 main_v10 main_v8 main_v11 ((fun x i u => Host.scatterAdd scatter_S100000_S1380000x1_S1380000_n_0_0_1 x i u) : (⟨S100000, .f32⟩ : BufTy).Contents (Elt F) → (⟨S1380000x1, .i32⟩ : BufTy).Contents (Elt F) → (⟨S1380000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32) ]

/-- Group 2 of the reference's operations (3). -/
abbrev rc2 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]

/-- Group 3 of the reference's operations (29). -/
abbrev rc3 : List (HloOp τ sig (Elt F)) :=
  [ nullary main_c (constantI S_ 32 0#32),
    unary main_c main_v16 (broadcastInDim S1380000 ![] bcast_S_S1380000 : (⟨S_, .i32⟩ : BufTy).Contents (Elt F) → (⟨S1380000, .i32⟩ : BufTy).Contents (Elt F)),
    binary main_v4 main_v16 main_v17 (cmpi .slt : (⟨S1380000, .i32⟩ : BufTy).Contents (Elt F) → (⟨S1380000, .i32⟩ : BufTy).Contents (Elt F) → (⟨S1380000, .i1⟩ : BufTy).Contents (Elt F)),
    nullary main_c_3 (constantI S_ 32 100000#32),
    unary main_c_3 main_v18 (broadcastInDim S1380000 ![] bcast_S_S1380000 : (⟨S_, .i32⟩ : BufTy).Contents (Elt F) → (⟨S1380000, .i32⟩ : BufTy).Contents (Elt F)),
    binary main_v4 main_v18 main_v19 (addi : (⟨S1380000, .i32⟩ : BufTy).Contents (Elt F) → (⟨S1380000, .i32⟩ : BufTy).Contents (Elt F) → (⟨S1380000, .i32⟩ : BufTy).Contents (Elt F)),
    ternary main_v17 main_v19 main_v4 main_v20 (select : (⟨S1380000, .i1⟩ : BufTy).Contents (Elt F) → (⟨S1380000, .i32⟩ : BufTy).Contents (Elt F) → (⟨S1380000, .i32⟩ : BufTy).Contents (Elt F) → (⟨S1380000, .i32⟩ : BufTy).Contents (Elt F)),
    unary main_v20 main_v21 (broadcastInDim S1380000x1 ![0] bcast_S1380000_S1380000x1_0 : (⟨S1380000, .i32⟩ : BufTy).Contents (Elt F) → (⟨S1380000x1, .i32⟩ : BufTy).Contents (Elt F)),
    binary main_v15 main_v21 main_v22 ((fun x i => Host.gather gather_S100000_S1380000x1_S1380000_n_0_n_n_0_1_1 x i) : (⟨S100000, .f32⟩ : BufTy).Contents (Elt F) → (⟨S1380000x1, .i32⟩ : BufTy).Contents (Elt F) → (⟨S1380000, .f32⟩ : BufTy).Contents (Elt F)),
    nullary main_c_4 (constantI S_ 32 0#32),
    unary main_c_4 main_v23 (broadcastInDim S1380000 ![] bcast_S_S1380000 : (⟨S_, .i32⟩ : BufTy).Contents (Elt F) → (⟨S1380000, .i32⟩ : BufTy).Contents (Elt F)),
    binary main_v7 main_v23 main_v24 (cmpi .slt : (⟨S1380000, .i32⟩ : BufTy).Contents (Elt F) → (⟨S1380000, .i32⟩ : BufTy).Contents (Elt F) → (⟨S1380000, .i1⟩ : BufTy).Contents (Elt F)),
    nullary main_c_5 (constantI S_ 32 100000#32),
    unary main_c_5 main_v25 (broadcastInDim S1380000 ![] bcast_S_S1380000 : (⟨S_, .i32⟩ : BufTy).Contents (Elt F) → (⟨S1380000, .i32⟩ : BufTy).Contents (Elt F)),
    binary main_v7 main_v25 main_v26 (addi : (⟨S1380000, .i32⟩ : BufTy).Contents (Elt F) → (⟨S1380000, .i32⟩ : BufTy).Contents (Elt F) → (⟨S1380000, .i32⟩ : BufTy).Contents (Elt F)),
    ternary main_v24 main_v26 main_v7 main_v27 (select : (⟨S1380000, .i1⟩ : BufTy).Contents (Elt F) → (⟨S1380000, .i32⟩ : BufTy).Contents (Elt F) → (⟨S1380000, .i32⟩ : BufTy).Contents (Elt F) → (⟨S1380000, .i32⟩ : BufTy).Contents (Elt F)),
    unary main_v27 main_v28 (broadcastInDim S1380000x1 ![0] bcast_S1380000_S1380000x1_0 : (⟨S1380000, .i32⟩ : BufTy).Contents (Elt F) → (⟨S1380000x1, .i32⟩ : BufTy).Contents (Elt F)),
    binary main_v15 main_v28 main_v29 ((fun x i => Host.gather gather_S100000_S1380000x1_S1380000_n_0_n_n_0_1_1 x i) : (⟨S100000, .f32⟩ : BufTy).Contents (Elt F) → (⟨S1380000x1, .i32⟩ : BufTy).Contents (Elt F) → (⟨S1380000, .f32⟩ : BufTy).Contents (Elt F)),
    binary main_v22 main_v29 main_v30 (mulf : (⟨S1380000, .f32⟩ : BufTy).Contents (Elt F) → (⟨S1380000, .f32⟩ : BufTy).Contents (Elt F) → (⟨S1380000, .f32⟩ : BufTy).Contents (Elt F)),
    unary main_v30 main_v31 (broadcastInDim S1380000x1 ![0] bcast_S1380000_S1380000x1_0 : (⟨S1380000, .f32⟩ : BufTy).Contents (Elt F) → (⟨S1380000x1, .f32⟩ : BufTy).Contents (Elt F)),
    nullary main_c_6 (constantI S_ 32 0#32),
    unary main_c_6 main_v32 (broadcastInDim S1380000 ![] bcast_S_S1380000 : (⟨S_, .i32⟩ : BufTy).Contents (Elt F) → (⟨S1380000, .i32⟩ : BufTy).Contents (Elt F)),
    binary main_v4 main_v32 main_v33 (cmpi .slt : (⟨S1380000, .i32⟩ : BufTy).Contents (Elt F) → (⟨S1380000, .i32⟩ : BufTy).Contents (Elt F) → (⟨S1380000, .i1⟩ : BufTy).Contents (Elt F)),
    nullary main_c_7 (constantI S_ 32 100000#32),
    unary main_c_7 main_v34 (broadcastInDim S1380000 ![] bcast_S_S1380000 : (⟨S_, .i32⟩ : BufTy).Contents (Elt F) → (⟨S1380000, .i32⟩ : BufTy).Contents (Elt F)),
    binary main_v4 main_v34 main_v35 (addi : (⟨S1380000, .i32⟩ : BufTy).Contents (Elt F) → (⟨S1380000, .i32⟩ : BufTy).Contents (Elt F) → (⟨S1380000, .i32⟩ : BufTy).Contents (Elt F)),
    ternary main_v33 main_v35 main_v4 main_v36 (select : (⟨S1380000, .i1⟩ : BufTy).Contents (Elt F) → (⟨S1380000, .i32⟩ : BufTy).Contents (Elt F) → (⟨S1380000, .i32⟩ : BufTy).Contents (Elt F) → (⟨S1380000, .i32⟩ : BufTy).Contents (Elt F)),
    unary main_v36 main_v37 (broadcastInDim S1380000x1 ![0] bcast_S1380000_S1380000x1_0 : (⟨S1380000, .i32⟩ : BufTy).Contents (Elt F) → (⟨S1380000x1, .i32⟩ : BufTy).Contents (Elt F)),
    binary main_v0 main_v37 main_v38 ((fun x i => Host.gather gather_S100000x128_S1380000x1_S1380000x128_1_0_n_n_0_1_1128 x i) : (⟨S100000x128, .f32⟩ : BufTy).Contents (Elt F) → (⟨S1380000x1, .i32⟩ : BufTy).Contents (Elt F) → (⟨S1380000x128, .f32⟩ : BufTy).Contents (Elt F)) ]

/-- Group 4 of the reference's operations (2). -/
abbrev rc4 : List (HloOp τ sig (Elt F)) :=
  [ unary main_v31 main_v39 (broadcastInDim S1380000x128 ![0, 1] bcast_S1380000x1_S1380000x128_0_1 : (⟨S1380000x1, .f32⟩ : BufTy).Contents (Elt F) → (⟨S1380000x128, .f32⟩ : BufTy).Contents (Elt F)),
    binary main_v39 main_v38 main_v40 (mulf : (⟨S1380000x128, .f32⟩ : BufTy).Contents (Elt F) → (⟨S1380000x128, .f32⟩ : BufTy).Contents (Elt F) → (⟨S1380000x128, .f32⟩ : BufTy).Contents (Elt F)) ]

/-- Group 5 of the reference's operations (4). -/
abbrev rc5 : List (HloOp τ sig (Elt F)) :=
  [ nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v7 main_v42 (broadcastInDim S1380000x1 ![0] bcast_S1380000_S1380000x1_0 : (⟨S1380000, .i32⟩ : BufTy).Contents (Elt F) → (⟨S1380000x1, .i32⟩ : BufTy).Contents (Elt F)),
    ternary main_v41 main_v42 main_v40 main_v43 ((fun x i u => Host.scatterAdd scatter_S100000x128_S1380000x1_S1380000x128_1_0_0_1 x i u) : (⟨S100000x128, .f32⟩ : BufTy).Contents (Elt F) → (⟨S1380000x1, .i32⟩ : BufTy).Contents (Elt F) → (⟨S1380000x128, .f32⟩ : BufTy).Contents (Elt F) → (⟨S100000x128, .f32⟩ : BufTy).Contents (Elt F)) ]

/-- Group 6 of the reference's operations (6). -/
abbrev rc6 : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]

/-- Group 7 of the reference's operations (1). -/
abbrev rc7 : List (HloOp τ sig (Elt F)) :=
  [ binary main_v47 main_arg4 main_v48 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- Group 8 of the reference's operations (7). -/
abbrev rc8 : List (HloOp τ sig (Elt F)) :=
  [ nullary main_v49 (iotaInDim S100000 32 0),
    unary main_arg1 main_v50 ((extractStridedSlice S1x1280000 ![0, 0] · slices_S2x1280000_S1x1280000_0_0) : (⟨S2x1280000, .i32⟩ : BufTy).Contents (Elt F) → (⟨S1x1280000, .i32⟩ : BufTy).Contents (Elt F)),
    reshape main_v50 main_v51 rfl shapeCasts_S1x1280000_S1280000,
    binary main_v51 main_v49 main_v52 ((fun a b => concatenate S1380000 0 [⟨S1280000, a⟩, ⟨S100000, b⟩] concatenates_S1280000_S100000_S1380000_d0) : (⟨S1280000, .i32⟩ : BufTy).Contents (Elt F) → (⟨S100000, .i32⟩ : BufTy).Contents (Elt F) → (⟨S1380000, .i32⟩ : BufTy).Contents (Elt F)),
    unary main_arg1 main_v53 ((extractStridedSlice S1x1280000 ![1, 0] · slices_S2x1280000_S1x1280000_1_0) : (⟨S2x1280000, .i32⟩ : BufTy).Contents (Elt F) → (⟨S1x1280000, .i32⟩ : BufTy).Contents (Elt F)),
    reshape main_v53 main_v54 rfl shapeCasts_S1x1280000_S1280000,
    binary main_v54 main_v49 main_v55 ((fun a b => concatenate S1380000 0 [⟨S1280000, a⟩, ⟨S100000, b⟩] concatenates_S1280000_S100000_S1380000_d0) : (⟨S1280000, .i32⟩ : BufTy).Contents (Elt F) → (⟨S100000, .i32⟩ : BufTy).Contents (Elt F) → (⟨S1380000, .i32⟩ : BufTy).Contents (Elt F)) ]

/-- Group 9 of the reference's operations (11). -/
abbrev rc9 : List (HloOp τ sig (Elt F)) :=
  [ nullary main_cst_9 (constant S_ .f32 0x3F800000#32),
    unary main_cst_9 main_v56 (broadcastInDim S1380000 ![] bcast_S_S1380000 : (⟨S_, .f32⟩ : BufTy).Contents (Elt F) → (⟨S1380000, .f32⟩ : BufTy).Contents (Elt F)),
    nullary main_cst_10 (constant S_ .f32 0x00000000#32),
    unary main_cst_10 main_v57 (broadcastInDim S100000 ![] bcast_S_S100000 : (⟨S_, .f32⟩ : BufTy).Contents (Elt F) → (⟨S100000, .f32⟩ : BufTy).Contents (Elt F)),
    unary main_v55 main_v58 (broadcastInDim S1380000x1 ![0] bcast_S1380000_S1380000x1_0 : (⟨S1380000, .i32⟩ : BufTy).Contents (Elt F) → (⟨S1380000x1, .i32⟩ : BufTy).Contents (Elt F)),
    ternary main_v57 main_v58 main_v56 main_v59 ((fun x i u => Host.scatterAdd scatter_S100000_S1380000x1_S1380000_n_0_0_1 x i u) : (⟨S100000, .f32⟩ : BufTy).Contents (Elt F) → (⟨S1380000x1, .i32⟩ : BufTy).Contents (Elt F) → (⟨S1380000, .f32⟩ : BufTy).Contents (Elt F) → (⟨S100000, .f32⟩ : BufTy).Contents (Elt F)),
    nullary main_cst_11 (constant S_ .f32 0x00000000#32),
    unary main_cst_11 main_v60 (broadcastInDim S100000 ![] bcast_S_S100000 : (⟨S_, .f32⟩ : BufTy).Contents (Elt F) → (⟨S100000, .f32⟩ : BufTy).Contents (Elt F)),
    binary main_v59 main_v60 main_v61 (cmpf .ogt : (⟨S100000, .f32⟩ : BufTy).Contents (Elt F) → (⟨S100000, .f32⟩ : BufTy).Contents (Elt F) → (⟨S100000, .i1⟩ : BufTy).Contents (Elt F)),
    unary main_v59 main_v62 (Host.rsqrt : (⟨S100000, .f32⟩ : BufTy).Contents (Elt F) → (⟨S100000, .f32⟩ : BufTy).Contents (Elt F)),
    nullary main_cst_12 (constant S_ .f32 0x00000000#32) ]

/-- Group 10 of the reference's operations (3). -/
abbrev rc10 : List (HloOp τ sig (Elt F)) :=
  [ TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v61) (TRef.of (T := ⟨S100000, .f32⟩) main_v62) (TRef.of (T := ⟨S100000, .f32⟩) main_call2_v1) (TRef.of (T := ⟨S100000, .f32⟩) main_v63) select ]

/-- Group 11 of the reference's operations (29). -/
abbrev rc11 : List (HloOp τ sig (Elt F)) :=
  [ nullary main_c_13 (constantI S_ 32 0#32),
    unary main_c_13 main_v64 (broadcastInDim S1380000 ![] bcast_S_S1380000 : (⟨S_, .i32⟩ : BufTy).Contents (Elt F) → (⟨S1380000, .i32⟩ : BufTy).Contents (Elt F)),
    binary main_v52 main_v64 main_v65 (cmpi .slt : (⟨S1380000, .i32⟩ : BufTy).Contents (Elt F) → (⟨S1380000, .i32⟩ : BufTy).Contents (Elt F) → (⟨S1380000, .i1⟩ : BufTy).Contents (Elt F)),
    nullary main_c_14 (constantI S_ 32 100000#32),
    unary main_c_14 main_v66 (broadcastInDim S1380000 ![] bcast_S_S1380000 : (⟨S_, .i32⟩ : BufTy).Contents (Elt F) → (⟨S1380000, .i32⟩ : BufTy).Contents (Elt F)),
    binary main_v52 main_v66 main_v67 (addi : (⟨S1380000, .i32⟩ : BufTy).Contents (Elt F) → (⟨S1380000, .i32⟩ : BufTy).Contents (Elt F) → (⟨S1380000, .i32⟩ : BufTy).Contents (Elt F)),
    ternary main_v65 main_v67 main_v52 main_v68 (select : (⟨S1380000, .i1⟩ : BufTy).Contents (Elt F) → (⟨S1380000, .i32⟩ : BufTy).Contents (Elt F) → (⟨S1380000, .i32⟩ : BufTy).Contents (Elt F) → (⟨S1380000, .i32⟩ : BufTy).Contents (Elt F)),
    unary main_v68 main_v69 (broadcastInDim S1380000x1 ![0] bcast_S1380000_S1380000x1_0 : (⟨S1380000, .i32⟩ : BufTy).Contents (Elt F) → (⟨S1380000x1, .i32⟩ : BufTy).Contents (Elt F)),
    binary main_v63 main_v69 main_v70 ((fun x i => Host.gather gather_S100000_S1380000x1_S1380000_n_0_n_n_0_1_1 x i) : (⟨S100000, .f32⟩ : BufTy).Contents (Elt F) → (⟨S1380000x1, .i32⟩ : BufTy).Contents (Elt F) → (⟨S1380000, .f32⟩ : BufTy).Contents (Elt F)),
    nullary main_c_15 (constantI S_ 32 0#32),
    unary main_c_15 main_v71 (broadcastInDim S1380000 ![] bcast_S_S1380000 : (⟨S_, .i32⟩ : BufTy).Contents (Elt F) → (⟨S1380000, .i32⟩ : BufTy).Contents (Elt F)),
    binary main_v55 main_v71 main_v72 (cmpi .slt : (⟨S1380000, .i32⟩ : BufTy).Contents (Elt F) → (⟨S1380000, .i32⟩ : BufTy).Contents (Elt F) → (⟨S1380000, .i1⟩ : BufTy).Contents (Elt F)),
    nullary main_c_16 (constantI S_ 32 100000#32),
    unary main_c_16 main_v73 (broadcastInDim S1380000 ![] bcast_S_S1380000 : (⟨S_, .i32⟩ : BufTy).Contents (Elt F) → (⟨S1380000, .i32⟩ : BufTy).Contents (Elt F)),
    binary main_v55 main_v73 main_v74 (addi : (⟨S1380000, .i32⟩ : BufTy).Contents (Elt F) → (⟨S1380000, .i32⟩ : BufTy).Contents (Elt F) → (⟨S1380000, .i32⟩ : BufTy).Contents (Elt F)),
    ternary main_v72 main_v74 main_v55 main_v75 (select : (⟨S1380000, .i1⟩ : BufTy).Contents (Elt F) → (⟨S1380000, .i32⟩ : BufTy).Contents (Elt F) → (⟨S1380000, .i32⟩ : BufTy).Contents (Elt F) → (⟨S1380000, .i32⟩ : BufTy).Contents (Elt F)),
    unary main_v75 main_v76 (broadcastInDim S1380000x1 ![0] bcast_S1380000_S1380000x1_0 : (⟨S1380000, .i32⟩ : BufTy).Contents (Elt F) → (⟨S1380000x1, .i32⟩ : BufTy).Contents (Elt F)),
    binary main_v63 main_v76 main_v77 ((fun x i => Host.gather gather_S100000_S1380000x1_S1380000_n_0_n_n_0_1_1 x i) : (⟨S100000, .f32⟩ : BufTy).Contents (Elt F) → (⟨S1380000x1, .i32⟩ : BufTy).Contents (Elt F) → (⟨S1380000, .f32⟩ : BufTy).Contents (Elt F)),
    binary main_v70 main_v77 main_v78 (mulf : (⟨S1380000, .f32⟩ : BufTy).Contents (Elt F) → (⟨S1380000, .f32⟩ : BufTy).Contents (Elt F) → (⟨S1380000, .f32⟩ : BufTy).Contents (Elt F)),
    unary main_v78 main_v79 (broadcastInDim S1380000x1 ![0] bcast_S1380000_S1380000x1_0 : (⟨S1380000, .f32⟩ : BufTy).Contents (Elt F) → (⟨S1380000x1, .f32⟩ : BufTy).Contents (Elt F)),
    nullary main_c_17 (constantI S_ 32 0#32),
    unary main_c_17 main_v80 (broadcastInDim S1380000 ![] bcast_S_S1380000 : (⟨S_, .i32⟩ : BufTy).Contents (Elt F) → (⟨S1380000, .i32⟩ : BufTy).Contents (Elt F)),
    binary main_v52 main_v80 main_v81 (cmpi .slt : (⟨S1380000, .i32⟩ : BufTy).Contents (Elt F) → (⟨S1380000, .i32⟩ : BufTy).Contents (Elt F) → (⟨S1380000, .i1⟩ : BufTy).Contents (Elt F)),
    nullary main_c_18 (constantI S_ 32 100000#32),
    unary main_c_18 main_v82 (broadcastInDim S1380000 ![] bcast_S_S1380000 : (⟨S_, .i32⟩ : BufTy).Contents (Elt F) → (⟨S1380000, .i32⟩ : BufTy).Contents (Elt F)),
    binary main_v52 main_v82 main_v83 (addi : (⟨S1380000, .i32⟩ : BufTy).Contents (Elt F) → (⟨S1380000, .i32⟩ : BufTy).Contents (Elt F) → (⟨S1380000, .i32⟩ : BufTy).Contents (Elt F)),
    ternary main_v81 main_v83 main_v52 main_v84 (select : (⟨S1380000, .i1⟩ : BufTy).Contents (Elt F) → (⟨S1380000, .i32⟩ : BufTy).Contents (Elt F) → (⟨S1380000, .i32⟩ : BufTy).Contents (Elt F) → (⟨S1380000, .i32⟩ : BufTy).Contents (Elt F)),
    unary main_v84 main_v85 (broadcastInDim S1380000x1 ![0] bcast_S1380000_S1380000x1_0 : (⟨S1380000, .i32⟩ : BufTy).Contents (Elt F) → (⟨S1380000x1, .i32⟩ : BufTy).Contents (Elt F)),
    binary main_v48 main_v85 main_v86 ((fun x i => Host.gather gather_S100000x64_S1380000x1_S1380000x64_1_0_n_n_0_1_164 x i) : (⟨S100000x64, .f32⟩ : BufTy).Contents (Elt F) → (⟨S1380000x1, .i32⟩ : BufTy).Contents (Elt F) → (⟨S1380000x64, .f32⟩ : BufTy).Contents (Elt F)) ]

/-- Group 12 of the reference's operations (2). -/
abbrev rc12 : List (HloOp τ sig (Elt F)) :=
  [ unary main_v79 main_v87 (broadcastInDim S1380000x64 ![0, 1] bcast_S1380000x1_S1380000x64_0_1 : (⟨S1380000x1, .f32⟩ : BufTy).Contents (Elt F) → (⟨S1380000x64, .f32⟩ : BufTy).Contents (Elt F)),
    binary main_v87 main_v86 main_v88 (mulf : (⟨S1380000x64, .f32⟩ : BufTy).Contents (Elt F) → (⟨S1380000x64, .f32⟩ : BufTy).Contents (Elt F) → (⟨S1380000x64, .f32⟩ : BufTy).Contents (Elt F)) ]

/-- Group 13 of the reference's operations (4). -/
abbrev rc13 : List (HloOp τ sig (Elt F)) :=
  [ nullary main_cst_19 (constant S_ .f32 0x00000000#32),
    unary main_cst_19 main_v89 (broadcastInDim S100000x64 ![] bcast_S_S100000x64 : (⟨S_, .f32⟩ : BufTy).Contents (Elt F) → (⟨S100000x64, .f32⟩ : BufTy).Contents (Elt F)),
    unary main_v55 main_v90 (broadcastInDim S1380000x1 ![0] bcast_S1380000_S1380000x1_0 : (⟨S1380000, .i32⟩ : BufTy).Contents (Elt F) → (⟨S1380000x1, .i32⟩ : BufTy).Contents (Elt F)),
    ternary main_v89 main_v90 main_v88 main_v91 ((fun x i u => Host.scatterAdd scatter_S100000x64_S1380000x1_S1380000x64_1_0_0_1 x i u) : (⟨S100000x64, .f32⟩ : BufTy).Contents (Elt F) → (⟨S1380000x1, .i32⟩ : BufTy).Contents (Elt F) → (⟨S1380000x64, .f32⟩ : BufTy).Contents (Elt F) → (⟨S100000x64, .f32⟩ : BufTy).Contents (Elt F)) ]

/-- Group 14 of the reference's operations (3). -/
abbrev rc14 : List (HloOp τ sig (Elt F)) :=
  [ unary main_arg5 main_v92 (broadcastInDim S1x64 ![1] bcast_S64_S1x64_1 : (⟨S64, .f32⟩ : BufTy).Contents (Elt F) → (⟨S1x64, .f32⟩ : BufTy).Contents (Elt F)),
    unary main_v92 main_v93 (broadcastInDim S100000x64 ![0, 1] bcast_S1x64_S100000x64_0_1 : (⟨S1x64, .f32⟩ : BufTy).Contents (Elt F) → (⟨S100000x64, .f32⟩ : BufTy).Contents (Elt F)),
    binary main_v91 main_v93 main_v94 (addf : (⟨S100000x64, .f32⟩ : BufTy).Contents (Elt F) → (⟨S100000x64, .f32⟩ : BufTy).Contents (Elt F) → (⟨S100000x64, .f32⟩ : BufTy).Contents (Elt F)) ]

/-- Group 15 of the reference's operations (22). -/
abbrev rc15 : List (HloOp τ sig (Elt F)) :=
  [ unary main_arg1 main_v95 ((extractStridedSlice S1x1280000 ![0, 0] · slices_S2x1280000_S1x1280000_0_0) : (⟨S2x1280000, .i32⟩ : BufTy).Contents (Elt F) → (⟨S1x1280000, .i32⟩ : BufTy).Contents (Elt F)),
    reshape main_v95 main_v96 rfl shapeCasts_S1x1280000_S1280000,
    unary main_arg1 main_v97 ((extractStridedSlice S1x1280000 ![1, 0] · slices_S2x1280000_S1x1280000_1_0) : (⟨S2x1280000, .i32⟩ : BufTy).Contents (Elt F) → (⟨S1x1280000, .i32⟩ : BufTy).Contents (Elt F)),
    reshape main_v97 main_v98 rfl shapeCasts_S1x1280000_S1280000,
    nullary main_c_20 (constantI S_ 32 0#32),
    unary main_c_20 main_v99 (broadcastInDim S1280000 ![] bcast_S_S1280000 : (⟨S_, .i32⟩ : BufTy).Contents (Elt F) → (⟨S1280000, .i32⟩ : BufTy).Contents (Elt F)),
    binary main_v96 main_v99 main_v100 (cmpi .slt : (⟨S1280000, .i32⟩ : BufTy).Contents (Elt F) → (⟨S1280000, .i32⟩ : BufTy).Contents (Elt F) → (⟨S1280000, .i1⟩ : BufTy).Contents (Elt F)),
    nullary main_c_21 (constantI S_ 32 100000#32),
    unary main_c_21 main_v101 (broadcastInDim S1280000 ![] bcast_S_S1280000 : (⟨S_, .i32⟩ : BufTy).Contents (Elt F) → (⟨S1280000, .i32⟩ : BufTy).Contents (Elt F)),
    binary main_v96 main_v101 main_v102 (addi : (⟨S1280000, .i32⟩ : BufTy).Contents (Elt F) → (⟨S1280000, .i32⟩ : BufTy).Contents (Elt F) → (⟨S1280000, .i32⟩ : BufTy).Contents (Elt F)),
    ternary main_v100 main_v102 main_v96 main_v103 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v103 main_v104 (broadcastInDim S1280000x1 ![0] bcast_S1280000_S1280000x1_0 : (⟨S1280000, .i32⟩ : BufTy).Contents (Elt F) → (⟨S1280000x1, .i32⟩ : BufTy).Contents (Elt F)),
    binary main_v94 main_v104 main_v105 ((fun x i => Host.gather gather_S100000x64_S1280000x1_S1280000x64_1_0_n_n_0_1_164 x i) : (⟨S100000x64, .f32⟩ : BufTy).Contents (Elt F) → (⟨S1280000x1, .i32⟩ : BufTy).Contents (Elt F) → (⟨S1280000x64, .f32⟩ : BufTy).Contents (Elt F)),
    nullary main_c_22 (constantI S_ 32 0#32),
    unary main_c_22 main_v106 (broadcastInDim S1280000 ![] bcast_S_S1280000 : (⟨S_, .i32⟩ : BufTy).Contents (Elt F) → (⟨S1280000, .i32⟩ : BufTy).Contents (Elt F)),
    binary main_v98 main_v106 main_v107 (cmpi .slt : (⟨S1280000, .i32⟩ : BufTy).Contents (Elt F) → (⟨S1280000, .i32⟩ : BufTy).Contents (Elt F) → (⟨S1280000, .i1⟩ : BufTy).Contents (Elt F)),
    nullary main_c_23 (constantI S_ 32 100000#32),
    unary main_c_23 main_v108 (broadcastInDim S1280000 ![] bcast_S_S1280000 : (⟨S_, .i32⟩ : BufTy).Contents (Elt F) → (⟨S1280000, .i32⟩ : BufTy).Contents (Elt F)),
    binary main_v98 main_v108 main_v109 (addi : (⟨S1280000, .i32⟩ : BufTy).Contents (Elt F) → (⟨S1280000, .i32⟩ : BufTy).Contents (Elt F) → (⟨S1280000, .i32⟩ : BufTy).Contents (Elt F)),
    ternary main_v107 main_v109 main_v98 main_v110 (select : (⟨S1280000, .i1⟩ : BufTy).Contents (Elt F) → (⟨S1280000, .i32⟩ : BufTy).Contents (Elt F) → (⟨S1280000, .i32⟩ : BufTy).Contents (Elt F) → (⟨S1280000, .i32⟩ : BufTy).Contents (Elt F)),
    unary main_v110 main_v111 (broadcastInDim S1280000x1 ![0] bcast_S1280000_S1280000x1_0 : (⟨S1280000, .i32⟩ : BufTy).Contents (Elt F) → (⟨S1280000x1, .i32⟩ : BufTy).Contents (Elt F)),
    binary main_v94 main_v111 main_v112 ((fun x i => Host.gather gather_S100000x64_S1280000x1_S1280000x64_1_0_n_n_0_1_164 x i) : (⟨S100000x64, .f32⟩ : BufTy).Contents (Elt F) → (⟨S1280000x1, .i32⟩ : BufTy).Contents (Elt F) → (⟨S1280000x64, .f32⟩ : BufTy).Contents (Elt F)) ]

/-- Group 16 of the reference's operations (3). -/
abbrev rc16 : List (HloOp τ sig (Elt F)) :=
  [ binary main_v105 main_v112 main_v113 (mulf : (⟨S1280000x64, .f32⟩ : BufTy).Contents (Elt F) → (⟨S1280000x64, .f32⟩ : BufTy).Contents (Elt F) → (⟨S1280000x64, .f32⟩ : BufTy).Contents (Elt F)),
    nullary main_cst_24 (constant S_ .f32 0x00000000#32),
    binary main_v113 main_cst_24 main_v114 ((fun x v => Host.reduceAdd x v reducesTo_S1280000x64_S1280000_d1 h_S_) : (⟨S1280000x64, .f32⟩ : BufTy).Contents (Elt F) → (⟨S_, .f32⟩ : BufTy).Contents (Elt F) → (⟨S1280000, .f32⟩ : BufTy).Contents (Elt F)) ]

set_option maxRecDepth 16384 in
/-- The program's operations are the groups in order. -/
theorem ops_eq : (Cert.ReferenceIdeal.RunP.ops (F := F)) = (rc0 (F := F)) ++ ((rc1 (F := F)) ++ ((rc2 (F := F)) ++ ((rc3 (F := F)) ++ ((rc4 (F := F)) ++ ((rc5 (F := F)) ++ ((rc6 (F := F)) ++ ((rc7 (F := F)) ++ ((rc8 (F := F)) ++ ((rc9 (F := F)) ++ ((rc10 (F := F)) ++ ((rc11 (F := F)) ++ ((rc12 (F := F)) ++ ((rc13 (F := F)) ++ ((rc14 (F := F)) ++ ((rc15 (F := F)) ++ ((rc16 (F := F)))))))))))))))))) := rfl

/-- Two lines of operations run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- Running the whole program is running the seventeen groups one after the other. -/
theorem after_ops (V : Valuation τ sig (Elt F)) :
    after (Cert.ReferenceIdeal.RunP.ops (F := F)) V = after (rc16 (F := F)) (after (rc15 (F := F)) (after (rc14 (F := F)) (after (rc13 (F := F)) (after (rc12 (F := F)) (after (rc11 (F := F)) (after (rc10 (F := F)) (after (rc9 (F := F)) (after (rc8 (F := F)) (after (rc7 (F := F)) (after (rc6 (F := F)) (after (rc5 (F := F)) (after (rc4 (F := F)) (after (rc3 (F := F)) (after (rc2 (F := F)) (after (rc1 (F := F)) (after (rc0 (F := F)) (V))))))))))))))))) := by
  rw [ops_eq]
  simp only [after_append]

end Cert.ReferenceIdeal.Chunks

end
-- ==== Proof.LibJoinTwo.lean ====
/-
  A two-piece concatenation with its pieces as plain arguments.

  The concatenation of a list of arrays carries a proof that the pieces' shapes add up along the joined axis, and
  that proof's statement mentions the list; a rewriting pass therefore treats the list as fixed and never rewrites
  the arrays inside it.  For two pieces the same array is `join2`, whose pieces are ordinary arguments and whose
  side condition mentions their shapes only, so what each piece holds can be rewritten in place.  The tactic below
  is the host-operation read-back as one rewriting pass, with every two-piece concatenation put in that form first.
-/
import Idealize.ShloMosaic.Lib.StableHlo.Run

noncomputable section

namespace Cert.LibJoinTwo

open Idealize.ShloMosaic Idealize.ShloMosaic.StableHlo

/-- The concatenation of two arrays along axis `a` of `t`, the pieces as arguments. -/
def join2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- A concatenation of a two-element list is `join2` of its pieces. -/
theorem concatenate_pair {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = join2 t a s₁ s₂ x y h := rfl

/-- What a buffer holds after a line of host operations, as ONE rewriting pass: each operation's result at its own
    buffer is its function of its operands' contents, at any other buffer what was there; a two-piece concatenation
    is put in the form whose pieces can be rewritten. -/
macro "host_results" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', Cert.LibJoinTwo.concatenate_pair]))

end Cert.LibJoinTwo

end
-- ==== Proof.LockTie.lean ====
/-
  The two programs side by side, the bookkeeping.  The kernel program and the reference keep, each in its own buffers,
  the same six arrays that later stages still read: the edge array, the two bias vectors and the second weight matrix
  as launched, and the two index vectors (sources and destinations, each followed by the self loops).  `Tie` says
  that the six agree between a kernel-side and a reference-side buffer state; it is preserved by any step that writes
  none of them, on either side.  The reference computes the two index vectors a second time before its second layer:
  `Tie'` is the same agreement against that second pair.
-/
import proofs.«150293_j49065706389779_1_alg».proof.Proof.Gen.KernelIdeal.Launch
import proofs.«150293_j49065706389779_1_alg».proof.Proof.RefChunks
import proofs.«150293_j49065706389779_1_alg».proof.Proof.LibJoinTwo
import Idealize.ShloMosaic.PureOps.Ideal

noncomputable section

namespace Cert.Lockstep

open Cert.LibJoinTwo Cert.ReferenceIdeal.Chunks
open Idealize.ShloMosaic Idealize.ShloMosaic.TcCoe Idealize.SL.Sem Idealize.ShloMosaic.StableHlo

/-- Buffer contents of the kernel program and of the reference, at the extended reals. -/
abbrev KV := Valuation Cert.KernelIdeal.τ Cert.KernelIdeal.sig (Elt Ideal)
abbrev RV := Valuation Cert.ReferenceIdeal.τ Cert.ReferenceIdeal.sig (Elt Ideal)

/-- The six carried arrays agree, the reference's index vectors being its first pair. -/
structure Tie (Wk : KV) (Wr : RV) : Prop where
  e1 : Wk (Proc.devRef .tc Cert.KernelIdeal.main_arg1) = Wr (Proc.devRef .tc Cert.ReferenceIdeal.main_arg1)
  e3 : Wk (Proc.devRef .tc Cert.KernelIdeal.main_arg3) = Wr (Proc.devRef .tc Cert.ReferenceIdeal.main_arg3)
  e4 : Wk (Proc.devRef .tc Cert.KernelIdeal.main_arg4) = Wr (Proc.devRef .tc Cert.ReferenceIdeal.main_arg4)
  e5 : Wk (Proc.devRef .tc Cert.KernelIdeal.main_arg5) = Wr (Proc.devRef .tc Cert.ReferenceIdeal.main_arg5)
  es : Wk (Proc.devRef .tc Cert.KernelIdeal.main_v3) = Wr (Proc.devRef .tc Cert.ReferenceIdeal.main_v4)
  ed : Wk (Proc.devRef .tc Cert.KernelIdeal.main_v6) = Wr (Proc.devRef .tc Cert.ReferenceIdeal.main_v7)

/-- The six carried arrays agree, the reference's index vectors being its second pair. -/
structure Tie' (Wk : KV) (Wr : RV) : Prop where
  e1 : Wk (Proc.devRef .tc Cert.KernelIdeal.main_arg1) = Wr (Proc.devRef .tc Cert.ReferenceIdeal.main_arg1)
  e3 : Wk (Proc.devRef .tc Cert.KernelIdeal.main_arg3) = Wr (Proc.devRef .tc Cert.ReferenceIdeal.main_arg3)
  e4 : Wk (Proc.devRef .tc Cert.KernelIdeal.main_arg4) = Wr (Proc.devRef .tc Cert.ReferenceIdeal.main_arg4)
  e5 : Wk (Proc.devRef .tc Cert.KernelIdeal.main_arg5) = Wr (Proc.devRef .tc Cert.ReferenceIdeal.main_arg5)
  es : Wk (Proc.devRef .tc Cert.KernelIdeal.main_v3) = Wr (Proc.devRef .tc Cert.ReferenceIdeal.main_v52)
  ed : Wk (Proc.devRef .tc Cert.KernelIdeal.main_v6) = Wr (Proc.devRef .tc Cert.ReferenceIdeal.main_v55)

/-- A kernel-side step that leaves the six arrays alone keeps the agreement. -/
theorem Tie.stepK {Wk Wk' : KV} {Wr : RV} (T : Tie Wk Wr)
    (h1 : Wk' (Proc.devRef .tc Cert.KernelIdeal.main_arg1) = Wk (Proc.devRef .tc Cert.KernelIdeal.main_arg1)) (h3 : Wk' (Proc.devRef .tc Cert.KernelIdeal.main_arg3) = Wk (Proc.devRef .tc Cert.KernelIdeal.main_arg3))
    (h4 : Wk' (Proc.devRef .tc Cert.KernelIdeal.main_arg4) = Wk (Proc.devRef .tc Cert.KernelIdeal.main_arg4)) (h5 : Wk' (Proc.devRef .tc Cert.KernelIdeal.main_arg5) = Wk (Proc.devRef .tc Cert.KernelIdeal.main_arg5))
    (hs : Wk' (Proc.devRef .tc Cert.KernelIdeal.main_v3) = Wk (Proc.devRef .tc Cert.KernelIdeal.main_v3)) (hd : Wk' (Proc.devRef .tc Cert.KernelIdeal.main_v6) = Wk (Proc.devRef .tc Cert.KernelIdeal.main_v6)) : Tie Wk' Wr :=
  ⟨h1.trans T.e1, h3.trans T.e3, h4.trans T.e4, h5.trans T.e5, hs.trans T.es, hd.trans T.ed⟩

theorem Tie'.stepK {Wk Wk' : KV} {Wr : RV} (T : Tie' Wk Wr)
    (h1 : Wk' (Proc.devRef .tc Cert.KernelIdeal.main_arg1) = Wk (Proc.devRef .tc Cert.KernelIdeal.main_arg1)) (h3 : Wk' (Proc.devRef .tc Cert.KernelIdeal.main_arg3) = Wk (Proc.devRef .tc Cert.KernelIdeal.main_arg3))
    (h4 : Wk' (Proc.devRef .tc Cert.KernelIdeal.main_arg4) = Wk (Proc.devRef .tc Cert.KernelIdeal.main_arg4)) (h5 : Wk' (Proc.devRef .tc Cert.KernelIdeal.main_arg5) = Wk (Proc.devRef .tc Cert.KernelIdeal.main_arg5))
    (hs : Wk' (Proc.devRef .tc Cert.KernelIdeal.main_v3) = Wk (Proc.devRef .tc Cert.KernelIdeal.main_v3)) (hd : Wk' (Proc.devRef .tc Cert.KernelIdeal.main_v6) = Wk (Proc.devRef .tc Cert.KernelIdeal.main_v6)) : Tie' Wk' Wr :=
  ⟨h1.trans T.e1, h3.trans T.e3, h4.trans T.e4, h5.trans T.e5, hs.trans T.es, hd.trans T.ed⟩

end Cert.Lockstep

end
-- ==== Proof.LockHost1.lean ====
/-
  The host steps of the first layer, the two programs side by side.  Each statement is over ANY buffer contents on the
  two sides: if the arrays a stretch of host operations reads agree between the kernel program and the reference, so do
  the arrays it writes, because the two stretches are the same operations on the same operands (slices, reshapes and
  concatenations of the edge array; the degree scatter-sum, its reciprocal square root guarded at zero, the two gathers
  and their product; the gather of the transformed features; the scatter-sum of the messages), only named differently.
-/
import proofs.«150293_j49065706389779_1_alg».proof.Proof.Gen.KernelIdeal.Launch
import proofs.«150293_j49065706389779_1_alg».proof.Proof.RefChunks
import proofs.«150293_j49065706389779_1_alg».proof.Proof.LibJoinTwo
import Idealize.ShloMosaic.PureOps.Ideal
import proofs.«150293_j49065706389779_1_alg».proof.Proof.LockTie

noncomputable section

namespace Cert.Lockstep

open Cert.LibJoinTwo Cert.ReferenceIdeal.Chunks
open Idealize.ShloMosaic Idealize.ShloMosaic.TcCoe Idealize.SL.Sem Idealize.ShloMosaic.StableHlo

/-- The opening stretch: from equal argument arrays, the six carried arrays agree afterwards (the two index vectors
    are built from the edge array by the same slices, reshapes and concatenations with the node numbering), and the
    first product's operands are still the arguments on the kernel side. -/
theorem open_step (Wk : KV) (Wr : RV)
    (a0 : Wk (Proc.devRef .tc Cert.KernelIdeal.main_arg0) = Wr (Proc.devRef .tc Cert.ReferenceIdeal.main_arg0)) (a1 : Wk (Proc.devRef .tc Cert.KernelIdeal.main_arg1) = Wr (Proc.devRef .tc Cert.ReferenceIdeal.main_arg1))
    (a2 : Wk (Proc.devRef .tc Cert.KernelIdeal.main_arg2) = Wr (Proc.devRef .tc Cert.ReferenceIdeal.main_arg2)) (a3 : Wk (Proc.devRef .tc Cert.KernelIdeal.main_arg3) = Wr (Proc.devRef .tc Cert.ReferenceIdeal.main_arg3))
    (a4 : Wk (Proc.devRef .tc Cert.KernelIdeal.main_arg4) = Wr (Proc.devRef .tc Cert.ReferenceIdeal.main_arg4)) (a5 : Wk (Proc.devRef .tc Cert.KernelIdeal.main_arg5) = Wr (Proc.devRef .tc Cert.ReferenceIdeal.main_arg5)) :
    Tie (after (Cert.KernelIdeal.Gen.hostOps0 (F := Ideal)) Wk) (after (rc0 (F := Ideal)) Wr)
    ∧ after (Cert.KernelIdeal.Gen.hostOps0 (F := Ideal)) Wk (Proc.devRef .tc Cert.KernelIdeal.main_arg0) = Wr (Proc.devRef .tc Cert.ReferenceIdeal.main_arg0)
    ∧ after (Cert.KernelIdeal.Gen.hostOps0 (F := Ideal)) Wk (Proc.devRef .tc Cert.KernelIdeal.main_arg2) = Wr (Proc.devRef .tc Cert.ReferenceIdeal.main_arg2) := by
  refine ⟨⟨?_, ?_, ?_, ?_, ?_, ?_⟩, ?_, ?_⟩
  · host_results; exact a1
  · host_results; exact a3
  · host_results; exact a4
  · host_results; exact a5
  · host_results; rw [a1]; all_goals rfl
  · host_results; rw [a1]; all_goals rfl
  · host_results; exact a0
  · host_results; exact a2

/-- The degree stretch of the first layer: the scatter-sum of ones onto the destination nodes, its comparison with zero and its
    reciprocal square root, and the zero the guard will put where the degree is not positive. -/
theorem deg_step1 (Wk : KV) (Wr : RV) (T : Tie Wk Wr) (hx : Wk (Proc.devRef .tc Cert.KernelIdeal.main_v7) = Wr (Proc.devRef .tc Cert.ReferenceIdeal.main_v0)) :
    Tie (after (Cert.KernelIdeal.Gen.hostOps1 (F := Ideal)) Wk) (after (rc1 (F := Ideal)) Wr)
    ∧ after (Cert.KernelIdeal.Gen.hostOps1 (F := Ideal)) Wk (Proc.devRef .tc Cert.KernelIdeal.main_v7) = after (rc1 (F := Ideal)) Wr (Proc.devRef .tc Cert.ReferenceIdeal.main_v0)
    ∧ after (Cert.KernelIdeal.Gen.hostOps1 (F := Ideal)) Wk (Proc.devRef .tc Cert.KernelIdeal.main_v13) = after (rc1 (F := Ideal)) Wr (Proc.devRef .tc Cert.ReferenceIdeal.main_v13)
    ∧ after (Cert.KernelIdeal.Gen.hostOps1 (F := Ideal)) Wk (Proc.devRef .tc Cert.KernelIdeal.main_v14) = after (rc1 (F := Ideal)) Wr (Proc.devRef .tc Cert.ReferenceIdeal.main_v14)
    ∧ after (Cert.KernelIdeal.Gen.hostOps1 (F := Ideal)) Wk (Proc.devRef .tc Cert.KernelIdeal.main_cst_2) = after (rc1 (F := Ideal)) Wr (Proc.devRef .tc Cert.ReferenceIdeal.main_cst_2) := by
  obtain ⟨e1, e3, e4, e5, es, ed⟩ := T
  refine ⟨⟨?_, ?_, ?_, ?_, ?_, ?_⟩, ?_, ?_, ?_, ?_⟩
  · host_results; exact e1
  · host_results; exact e3
  · host_results; exact e4
  · host_results; exact e5
  · host_results; exact es
  · host_results; exact ed
  · host_results; exact hx
  · host_results; rw [ed]; all_goals rfl
  · host_results; rw [ed]; all_goals rfl
  · host_results

/-- The guard of the first layer: the reciprocal square root where the degree is positive, zero elsewhere (an inlined call:
    the zero converted, spread over the nodes, and the selection). -/
theorem guard_step1 (Wk : KV) (Wr : RV) (T : Tie Wk Wr) (hx : Wk (Proc.devRef .tc Cert.KernelIdeal.main_v7) = Wr (Proc.devRef .tc Cert.ReferenceIdeal.main_v0))
    (h13 : Wk (Proc.devRef .tc Cert.KernelIdeal.main_v13) = Wr (Proc.devRef .tc Cert.ReferenceIdeal.main_v13)) (h14 : Wk (Proc.devRef .tc Cert.KernelIdeal.main_v14) = Wr (Proc.devRef .tc Cert.ReferenceIdeal.main_v14)) (hc : Wk (Proc.devRef .tc Cert.KernelIdeal.main_cst_2) = Wr (Proc.devRef .tc Cert.ReferenceIdeal.main_cst_2)) :
    Tie (after (Cert.KernelIdeal.Gen.hostOps1_1 (F := Ideal)) Wk) (after (rc2 (F := Ideal)) Wr)
    ∧ after (Cert.KernelIdeal.Gen.hostOps1_1 (F := Ideal)) Wk (Proc.devRef .tc Cert.KernelIdeal.main_v7) = after (rc2 (F := Ideal)) Wr (Proc.devRef .tc Cert.ReferenceIdeal.main_v0)
    ∧ after (Cert.KernelIdeal.Gen.hostOps1_1 (F := Ideal)) Wk (Proc.devRef .tc Cert.KernelIdeal.main_v15) = after (rc2 (F := Ideal)) Wr (Proc.devRef .tc Cert.ReferenceIdeal.main_v15) := by
  obtain ⟨e1, e3, e4, e5, es, ed⟩ := T
  refine ⟨⟨?_, ?_, ?_, ?_, ?_, ?_⟩, ?_, ?_⟩
  · host_results; exact e1
  · host_results; exact e3
  · host_results; exact e4
  · host_results; exact e5
  · host_results; exact es
  · host_results; exact ed
  · host_results; exact hx
  · host_results; rw [h13, h14, hc]; all_goals rfl

set_option maxHeartbeats 4000000 in
/-- The gathers of the first layer: the guarded factor gathered at the sources and at the destinations (negative entries
    wrapped), their product as a column, and the transformed features gathered at the sources. -/
theorem gather_step1 (Wk : KV) (Wr : RV) (T : Tie Wk Wr) (hx : Wk (Proc.devRef .tc Cert.KernelIdeal.main_v7) = Wr (Proc.devRef .tc Cert.ReferenceIdeal.main_v0))
    (h15 : Wk (Proc.devRef .tc Cert.KernelIdeal.main_v15) = Wr (Proc.devRef .tc Cert.ReferenceIdeal.main_v15)) :
    Tie (after (Cert.KernelIdeal.Gen.hostOps1_2 (F := Ideal)) Wk) (after (rc3 (F := Ideal)) Wr)
    ∧ after (Cert.KernelIdeal.Gen.hostOps1_2 (F := Ideal)) Wk (Proc.devRef .tc Cert.KernelIdeal.main_v37) = after (rc3 (F := Ideal)) Wr (Proc.devRef .tc Cert.ReferenceIdeal.main_v38)
    ∧ after (Cert.KernelIdeal.Gen.hostOps1_2 (F := Ideal)) Wk (Proc.devRef .tc Cert.KernelIdeal.main_v38) = after (rc3 (F := Ideal)) Wr (Proc.devRef .tc Cert.ReferenceIdeal.main_v31) := by
  obtain ⟨e1, e3, e4, e5, es, ed⟩ := T
  refine ⟨⟨?_, ?_, ?_, ?_, ?_, ?_⟩, ?_, ?_⟩
  · host_results; exact e1
  · host_results; exact e3
  · host_results; exact e4
  · host_results; exact e5
  · host_results; exact es
  · host_results; exact ed
  · host_results; rw [es, hx]; all_goals rfl
  · host_results; rw [es, ed, h15]; all_goals rfl
/-- The scatter-sum of the first layer's messages onto their destination nodes. -/
theorem agg_step (Wk : KV) (Wr : RV) (T : Tie Wk Wr) (hx : Wk (Proc.devRef .tc Cert.KernelIdeal.main_v39) = Wr (Proc.devRef .tc Cert.ReferenceIdeal.main_v40)) :
    Tie (after (Cert.KernelIdeal.Gen.hostOps2 (F := Ideal)) Wk) (after (rc5 (F := Ideal)) Wr)
    ∧ after (Cert.KernelIdeal.Gen.hostOps2 (F := Ideal)) Wk (Proc.devRef .tc Cert.KernelIdeal.main_v42) = after (rc5 (F := Ideal)) Wr (Proc.devRef .tc Cert.ReferenceIdeal.main_v43) := by
  obtain ⟨e1, e3, e4, e5, es, ed⟩ := T
  refine ⟨⟨?_, ?_, ?_, ?_, ?_, ?_⟩, ?_⟩
  · host_results; exact e1
  · host_results; exact e3
  · host_results; exact e4
  · host_results; exact e5
  · host_results; exact es
  · host_results; exact ed
  · host_results; rw [ed, hx]; all_goals rfl

end Cert.Lockstep

end
-- ==== Proof.LockHost2.lean ====
/-
  The host steps of the second layer and of the decoding, the two programs side by side, over any buffer contents on
  the two sides: the second normalisation (the same degree scatter-sum, guarded reciprocal square root, two gathers
  and product as in the first layer, then the gather of the second layer's transformed features), the scatter-sum of
  the second layer's messages, and the two gathers of the node embeddings at the edges' end points.  The reference
  reads its second pair of index vectors here.
-/
import proofs.«150293_j49065706389779_1_alg».proof.Proof.Gen.KernelIdeal.Launch
import proofs.«150293_j49065706389779_1_alg».proof.Proof.RefChunks
import proofs.«150293_j49065706389779_1_alg».proof.Proof.LibJoinTwo
import Idealize.ShloMosaic.PureOps.Ideal
import proofs.«150293_j49065706389779_1_alg».proof.Proof.LockTie

noncomputable section

namespace Cert.Lockstep

open Cert.LibJoinTwo Cert.ReferenceIdeal.Chunks
open Idealize.ShloMosaic Idealize.ShloMosaic.TcCoe Idealize.SL.Sem Idealize.ShloMosaic.StableHlo

/-- The degree stretch of the second layer: the scatter-sum of ones onto the destination nodes, its comparison with zero and its
    reciprocal square root, and the zero the guard will put where the degree is not positive. -/
theorem deg_step2 (Wk : KV) (Wr : RV) (T : Tie' Wk Wr) (hx : Wk (Proc.devRef .tc Cert.KernelIdeal.main_v44) = Wr (Proc.devRef .tc Cert.ReferenceIdeal.main_v48)) :
    Tie' (after (Cert.KernelIdeal.Gen.hostOps4 (F := Ideal)) Wk) (after (rc9 (F := Ideal)) Wr)
    ∧ after (Cert.KernelIdeal.Gen.hostOps4 (F := Ideal)) Wk (Proc.devRef .tc Cert.KernelIdeal.main_v44) = after (rc9 (F := Ideal)) Wr (Proc.devRef .tc Cert.ReferenceIdeal.main_v48)
    ∧ after (Cert.KernelIdeal.Gen.hostOps4 (F := Ideal)) Wk (Proc.devRef .tc Cert.KernelIdeal.main_v50) = after (rc9 (F := Ideal)) Wr (Proc.devRef .tc Cert.ReferenceIdeal.main_v61)
    ∧ after (Cert.KernelIdeal.Gen.hostOps4 (F := Ideal)) Wk (Proc.devRef .tc Cert.KernelIdeal.main_v51) = after (rc9 (F := Ideal)) Wr (Proc.devRef .tc Cert.ReferenceIdeal.main_v62)
    ∧ after (Cert.KernelIdeal.Gen.hostOps4 (F := Ideal)) Wk (Proc.devRef .tc Cert.KernelIdeal.main_cst_12) = after (rc9 (F := Ideal)) Wr (Proc.devRef .tc Cert.ReferenceIdeal.main_cst_12) := by
  obtain ⟨e1, e3, e4, e5, es, ed⟩ := T
  refine ⟨⟨?_, ?_, ?_, ?_, ?_, ?_⟩, ?_, ?_, ?_, ?_⟩
  · host_results; exact e1
  · host_results; exact e3
  · host_results; exact e4
  · host_results; exact e5
  · host_results; exact es
  · host_results; exact ed
  · host_results; exact hx
  · host_results; rw [ed]; all_goals rfl
  · host_results; rw [ed]; all_goals rfl
  · host_results

/-- The guard of the second layer: the reciprocal square root where the degree is positive, zero elsewhere (an inlined call:
    the zero converted, spread over the nodes, and the selection). -/
theorem guard_step2 (Wk : KV) (Wr : RV) (T : Tie' Wk Wr) (hx : Wk (Proc.devRef .tc Cert.KernelIdeal.main_v44) = Wr (Proc.devRef .tc Cert.ReferenceIdeal.main_v48))
    (h13 : Wk (Proc.devRef .tc Cert.KernelIdeal.main_v50) = Wr (Proc.devRef .tc Cert.ReferenceIdeal.main_v61)) (h14 : Wk (Proc.devRef .tc Cert.KernelIdeal.main_v51) = Wr (Proc.devRef .tc Cert.ReferenceIdeal.main_v62)) (hc : Wk (Proc.devRef .tc Cert.KernelIdeal.main_cst_12) = Wr (Proc.devRef .tc Cert.ReferenceIdeal.main_cst_12)) :
    Tie' (after (Cert.KernelIdeal.Gen.hostOps4_1 (F := Ideal)) Wk) (after (rc10 (F := Ideal)) Wr)
    ∧ after (Cert.KernelIdeal.Gen.hostOps4_1 (F := Ideal)) Wk (Proc.devRef .tc Cert.KernelIdeal.main_v44) = after (rc10 (F := Ideal)) Wr (Proc.devRef .tc Cert.ReferenceIdeal.main_v48)
    ∧ after (Cert.KernelIdeal.Gen.hostOps4_1 (F := Ideal)) Wk (Proc.devRef .tc Cert.KernelIdeal.main_v52) = after (rc10 (F := Ideal)) Wr (Proc.devRef .tc Cert.ReferenceIdeal.main_v63) := by
  obtain ⟨e1, e3, e4, e5, es, ed⟩ := T
  refine ⟨⟨?_, ?_, ?_, ?_, ?_, ?_⟩, ?_, ?_⟩
  · host_results; exact e1
  · host_results; exact e3
  · host_results; exact e4
  · host_results; exact e5
  · host_results; exact es
  · host_results; exact ed
  · host_results; exact hx
  · host_results; rw [h13, h14, hc]; all_goals rfl

set_option maxHeartbeats 4000000 in
/-- The gathers of the second layer: the guarded factor gathered at the sources and at the destinations (negative entries
    wrapped), their product as a column, and the transformed features gathered at the sources. -/
theorem gather_step2 (Wk : KV) (Wr : RV) (T : Tie' Wk Wr) (hx : Wk (Proc.devRef .tc Cert.KernelIdeal.main_v44) = Wr (Proc.devRef .tc Cert.ReferenceIdeal.main_v48))
    (h15 : Wk (Proc.devRef .tc Cert.KernelIdeal.main_v52) = Wr (Proc.devRef .tc Cert.ReferenceIdeal.main_v63)) :
    Tie' (after (Cert.KernelIdeal.Gen.hostOps4_2 (F := Ideal)) Wk) (after (rc11 (F := Ideal)) Wr)
    ∧ after (Cert.KernelIdeal.Gen.hostOps4_2 (F := Ideal)) Wk (Proc.devRef .tc Cert.KernelIdeal.main_v74) = after (rc11 (F := Ideal)) Wr (Proc.devRef .tc Cert.ReferenceIdeal.main_v86)
    ∧ after (Cert.KernelIdeal.Gen.hostOps4_2 (F := Ideal)) Wk (Proc.devRef .tc Cert.KernelIdeal.main_v75) = after (rc11 (F := Ideal)) Wr (Proc.devRef .tc Cert.ReferenceIdeal.main_v79) := by
  obtain ⟨e1, e3, e4, e5, es, ed⟩ := T
  refine ⟨⟨?_, ?_, ?_, ?_, ?_, ?_⟩, ?_, ?_⟩
  · host_results; exact e1
  · host_results; exact e3
  · host_results; exact e4
  · host_results; exact e5
  · host_results; exact es
  · host_results; exact ed
  · host_results; rw [es, hx]; all_goals rfl
  · host_results; rw [es, ed, h15]; all_goals rfl

/-- The scatter-sum of the second layer's messages onto their destination nodes. -/
theorem agg2_step (Wk : KV) (Wr : RV) (T : Tie' Wk Wr) (hx : Wk (Proc.devRef .tc Cert.KernelIdeal.main_v76) = Wr (Proc.devRef .tc Cert.ReferenceIdeal.main_v88)) :
    Tie' (after (Cert.KernelIdeal.Gen.hostOps5 (F := Ideal)) Wk) (after (rc13 (F := Ideal)) Wr)
    ∧ after (Cert.KernelIdeal.Gen.hostOps5 (F := Ideal)) Wk (Proc.devRef .tc Cert.KernelIdeal.main_v79) = after (rc13 (F := Ideal)) Wr (Proc.devRef .tc Cert.ReferenceIdeal.main_v91) := by
  obtain ⟨e1, e3, e4, e5, es, ed⟩ := T
  refine ⟨⟨?_, ?_, ?_, ?_, ?_, ?_⟩, ?_⟩
  · host_results; exact e1
  · host_results; exact e3
  · host_results; exact e4
  · host_results; exact e5
  · host_results; exact es
  · host_results; exact ed
  · host_results; rw [ed, hx]; all_goals rfl

/-- The decoding's two gathers: the node embeddings at each edge's source and at its destination (the two rows of
    the edge array, negative entries wrapped as both programs do). -/
theorem ends_step (Wk : KV) (Wr : RV) (T : Tie' Wk Wr) (hx : Wk (Proc.devRef .tc Cert.KernelIdeal.main_v80) = Wr (Proc.devRef .tc Cert.ReferenceIdeal.main_v94)) :
    after (Cert.KernelIdeal.Gen.hostOps6 (F := Ideal)) Wk (Proc.devRef .tc Cert.KernelIdeal.main_v91) = after (rc15 (F := Ideal)) Wr (Proc.devRef .tc Cert.ReferenceIdeal.main_v105)
    ∧ after (Cert.KernelIdeal.Gen.hostOps6 (F := Ideal)) Wk (Proc.devRef .tc Cert.KernelIdeal.main_v98) = after (rc15 (F := Ideal)) Wr (Proc.devRef .tc Cert.ReferenceIdeal.main_v112) := by
  obtain ⟨e1, e3, e4, e5, es, ed⟩ := T
  refine ⟨?_, ?_⟩
  · host_results; rw [e1, hx]; all_goals rfl
  · host_results; rw [e1, hx]; all_goals rfl

end Cert.Lockstep

end
-- ==== Proof.RefOp0.lean ====
/-
  The first layer's feature transform on the host side, read entry by entry.

  The reference multiplies the [100000, 64] node features by the [64, 128] weight matrix with one whole-array
  contraction (axis 1 of the left against axis 0 of the right, no batch axis).  At the extended reals that
  contraction is, at entry (p, o), the sum over j of x(p, j) · w(j, o), which is the matrix product of the
  specification at these extents.  It holds for every pair of operand arrays.
-/
import proofs.«150293_j49065706389779_1_alg».proof.ReferenceIdeal
import proofs.«150293_j49065706389779_1_alg».proof.Proof.Spec
import proofs.«150293_j49065706389779_1_alg».proof.Proof.LibPlainDot

noncomputable section

namespace Cert.ReferenceIdeal.RefOps

open Cert.ReferenceIdeal Idealize.ShloMosaic Idealize.ShloMosaic.ValueIdx

variable [Facts₀]

/-- The host contraction of an [100000, 64] array with a [64, 128] array is their matrix product. -/
theorem dotGeneral_64_128_eq_matProd (x : FVec Ideal S100000x64 .f32) (w : FVec Ideal S64x128 .f32) :
    Host.dotGeneral (F := Ideal) dot_S100000x64_S64x128_S100000x128_1_0_0_1_n_n none x w = Cert.Spec.matProd x w := by
  funext i
  obtain ⟨p, o, rfl⟩ : ∃ (p : Fin 100000) (o : Fin 128), i = ix2 p o := ⟨i 0, i 1, eq_ix2 i⟩
  exact Cert.LibPlainDot.dotGeneral_apply dot_S100000x64_S64x128_S100000x128_1_0_0_1_n_n rfl rfl rfl rfl rfl rfl none .single x w p o

end Cert.ReferenceIdeal.RefOps

end
-- ==== Proof.LibBroadcastInDim.lean ====
/-
  THREE BROADCASTS READ AT AN INDEX. A vector `[E]` laid as a column `[E, 1]` reads the vector at the row; a column
  `[E, 1]` spread over `D` columns reads the column at the row, whatever the column; a scalar spread over any shape
  reads the scalar. Each is the library's `broadcastInDim_apply` with the operand index named and its coordinates
  discharged axis by axis (the scalar has no axis; the library's `broadcastInDim_scalar_apply` is the same fact at
  the empty vector literal for `dims`).
-/
import Idealize.ShloMosaic.Lib.ValueIdx
import Idealize.ShloMosaic.Lib.Pipeline.Value

namespace Cert.LibBroadcastInDim

open Idealize.ShloMosaic Idealize.ShloMosaic.ValueIdx

/-- A vector as a column: element `(e, u)` of the column is element `e` of the vector (also when `E = 1`, where the
    operand's one axis is a unit axis read at `0 = e`). -/
theorem vec_col_apply {α : Type} {E : ℕ} (h : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] h v (ix2 e u) = v (ix1 e) :=
  broadcastInDim_apply ![0] h v (ix2 e u) (ix1 e) (fun a => by
    match a with
    | ⟨0, _⟩ =>
      show e.val = if E = 1 then 0 else e.val
      split
      · have := e.isLt; omega
      · rfl)

/-- A column spread over `D` columns: element `(e, f)` is the column's element `(e, 0)` (the operand's second axis is a
    unit axis; its first is read at the row, also when `E = 1`). -/
theorem col_mat_apply {α : Type} {E D : ℕ} (h : (⟨2, ![E, 1]⟩ : Shape).BroadcastsInDim ⟨2, ![E, D]⟩ ![0, 1])
    (v : (⟨2, ![E, 1]⟩ : Shape).Idx → α) (e : Fin E) (f : Fin D) :
    broadcastInDim ⟨2, ![E, D]⟩ ![0, 1] h v (ix2 e f) = v (ix2 e (0 : Fin 1)) :=
  broadcastInDim_apply ![0, 1] h v (ix2 e f) (ix2 e (0 : Fin 1)) (fun a => by
    match a with
    | ⟨0, _⟩ =>
      show e.val = if E = 1 then 0 else e.val
      split
      · have := e.isLt; omega
      · rfl
    | ⟨1, _⟩ => rfl)

/-- A scalar spread over any shape reads the scalar: there is one map from no axes, so `dims` is the empty one. -/
theorem scalar_apply {α : Type} {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

end Cert.LibBroadcastInDim
-- ==== Proof.RefOp1.lean ====
/-
  The first scaling on the host side, read entry by entry.

  The reference spreads the [1380000, 1] column of normalisation factors over 128 columns and multiplies it, entry by
  entry, with the gathered [1380000, 128] matrix, the column factor on the left.  At entry (p, o) that is
  col(p, 0) · g(p, o); the product of extended reals commutes, so it is the row scaling of the specification.  It holds
  for every pair of operand arrays.
-/
import proofs.«150293_j49065706389779_1_alg».proof.ReferenceIdeal
import proofs.«150293_j49065706389779_1_alg».proof.Proof.Spec
import proofs.«150293_j49065706389779_1_alg».proof.Proof.LibBroadcastInDim

noncomputable section

namespace Cert.ReferenceIdeal.RefOps

open Cert.ReferenceIdeal Idealize.ShloMosaic Idealize.ShloMosaic.ValueIdx

variable [Facts₀]
open Facts₀

/-- The column spread over 128 columns times the matrix is the matrix with each row scaled by the column's entry. -/
theorem mulf_col128_eq_scaleRows (col : FVec Ideal S1380000x1 .f32) (g : FVec Ideal S1380000x128 .f32) :
    mulf (broadcastInDim S1380000x128 ![0, 1] bcast_S1380000x1_S1380000x128_0_1 col) g = Cert.Spec.scaleRows g col := by
  funext i
  obtain ⟨p, o, rfl⟩ : ∃ (p : Fin 1380000) (o : Fin 128), i = ix2 p o := ⟨i 0, i 1, eq_ix2 i⟩
  rw [mulf_apply, Cert.LibBroadcastInDim.col_mat_apply]
  exact mul_comm _ _

end Cert.ReferenceIdeal.RefOps

end
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.RefOp2.lean ====
/-
  The first layer's bias and clamp on the host side, read entry by entry.

  The reference lays the [128] bias vector as a [1, 128] row, repeats the row over the 100000 rows, adds it to the
  aggregated [100000, 128] matrix, and takes the entrywise maximum with the zero word spread over the same shape.  At
  entry (p, o) that is max(a(p, o) + b(o), 0), the shifted and clamped matrix of the specification, with the zero kept
  as the same word.  It holds for every pair of operand arrays.
-/
import proofs.«150293_j49065706389779_1_alg».proof.ReferenceIdeal
import proofs.«150293_j49065706389779_1_alg».proof.Proof.Spec
import proofs.«150293_j49065706389779_1_alg».proof.Proof.LibRowBroadcast
import proofs.«150293_j49065706389779_1_alg».proof.Proof.LibBroadcastInDim

noncomputable section

namespace Cert.ReferenceIdeal.RefOps

open Cert.ReferenceIdeal Idealize.ShloMosaic Idealize.ShloMosaic.ValueIdx

variable [Facts₀]
open Facts₀

/-- The matrix plus the bias row repeated down it, clamped at the spread zero word, is the shifted and clamped matrix. -/
theorem add_bias128_clamp_eq_addRowClamp (a : FVec Ideal S100000x128 .f32) (b : FVec Ideal S128 .f32) :
    maximumf (addf a (broadcastInDim S100000x128 ![0, 1] bcast_S1x128_S100000x128_0_1 (broadcastInDim S1x128 ![1] bcast_S128_S1x128_1 b)))
        (broadcastInDim S100000x128 ![] bcast_S_S100000x128 (constant (F := Ideal) S_ .f32 0x00000000#32))
      = Cert.Spec.addRowClamp a b := by
  funext i
  obtain ⟨p, o, rfl⟩ : ∃ (p : Fin 100000) (o : Fin 128), i = ix2 p o := ⟨i 0, i 1, eq_ix2 i⟩
  rw [maximumf_apply, addf_apply, Cert.LibRowBroadcast.row_mat_apply, Cert.LibRowBroadcast.vec_row_apply,
    Cert.LibBroadcastInDim.scalar_apply, constant_apply]
  rfl

end Cert.ReferenceIdeal.RefOps

end
-- ==== Proof.RefOp3.lean ====
/-
  The second layer's feature transform on the host side, read entry by entry.

  The reference multiplies the [100000, 128] hidden features by the [128, 64] weight matrix with one whole-array
  contraction (axis 1 of the left against axis 0 of the right, no batch axis).  At the extended reals that
  contraction is, at entry (p, o), the sum over j of x(p, j) · w(j, o), which is the matrix product of the
  specification at these extents.  It holds for every pair of operand arrays.
-/
import proofs.«150293_j49065706389779_1_alg».proof.ReferenceIdeal
import proofs.«150293_j49065706389779_1_alg».proof.Proof.Spec
import proofs.«150293_j49065706389779_1_alg».proof.Proof.LibPlainDot

noncomputable section

namespace Cert.ReferenceIdeal.RefOps

open Cert.ReferenceIdeal Idealize.ShloMosaic Idealize.ShloMosaic.ValueIdx

variable [Facts₀]

/-- The host contraction of an [100000, 128] array with a [128, 64] array is their matrix product. -/
theorem dotGeneral_128_64_eq_matProd (x : FVec Ideal S100000x128 .f32) (w : FVec Ideal S128x64 .f32) :
    Host.dotGeneral (F := Ideal) dot_S100000x128_S128x64_S100000x64_1_0_0_1_n_n none x w = Cert.Spec.matProd x w := by
  funext i
  obtain ⟨p, o, rfl⟩ : ∃ (p : Fin 100000) (o : Fin 64), i = ix2 p o := ⟨i 0, i 1, eq_ix2 i⟩
  exact Cert.LibPlainDot.dotGeneral_apply dot_S100000x128_S128x64_S100000x64_1_0_0_1_n_n rfl rfl rfl rfl rfl rfl none .single x w p o

end Cert.ReferenceIdeal.RefOps

end
-- ==== Proof.RefOp4.lean ====
/-
  The second scaling on the host side, read entry by entry.

  The reference spreads the [1380000, 1] column of normalisation factors over 64 columns and multiplies it, entry by
  entry, with the gathered [1380000, 64] matrix, the column factor on the left.  At entry (p, o) that is
  col(p, 0) · g(p, o); the product of extended reals commutes, so it is the row scaling of the specification.  It holds
  for every pair of operand arrays.
-/
import proofs.«150293_j49065706389779_1_alg».proof.ReferenceIdeal
import proofs.«150293_j49065706389779_1_alg».proof.Proof.Spec
import proofs.«150293_j49065706389779_1_alg».proof.Proof.LibBroadcastInDim

noncomputable section

namespace Cert.ReferenceIdeal.RefOps

open Cert.ReferenceIdeal Idealize.ShloMosaic Idealize.ShloMosaic.ValueIdx

variable [Facts₀]
open Facts₀

/-- The column spread over 64 columns times the matrix is the matrix with each row scaled by the column's entry. -/
theorem mulf_col64_eq_scaleRows (col : FVec Ideal S1380000x1 .f32) (g : FVec Ideal S1380000x64 .f32) :
    mulf (broadcastInDim S1380000x64 ![0, 1] bcast_S1380000x1_S1380000x64_0_1 col) g = Cert.Spec.scaleRows g col := by
  funext i
  obtain ⟨p, o, rfl⟩ : ∃ (p : Fin 1380000) (o : Fin 64), i = ix2 p o := ⟨i 0, i 1, eq_ix2 i⟩
  rw [mulf_apply, Cert.LibBroadcastInDim.col_mat_apply]
  exact mul_comm _ _

end Cert.ReferenceIdeal.RefOps

end
-- ==== Proof.RefOp5.lean ====
/-
  The second layer's bias on the host side, read entry by entry.

  The reference lays the [64] bias vector as a [1, 64] row, repeats the row over the 100000 rows, and adds it to the
  aggregated [100000, 64] matrix.  At entry (p, o) that is a(p, o) + b(o), the shifted matrix of the specification.  It
  holds for every pair of operand arrays.
-/
import proofs.«150293_j49065706389779_1_alg».proof.ReferenceIdeal
import proofs.«150293_j49065706389779_1_alg».proof.Proof.Spec
import proofs.«150293_j49065706389779_1_alg».proof.Proof.LibRowBroadcast

noncomputable section

namespace Cert.ReferenceIdeal.RefOps

open Cert.ReferenceIdeal Idealize.ShloMosaic Idealize.ShloMosaic.ValueIdx

variable [Facts₀]
open Facts₀

/-- The matrix plus the bias row repeated down it is the shifted matrix. -/
theorem add_bias64_eq_addRow (a : FVec Ideal S100000x64 .f32) (b : FVec Ideal S64 .f32) :
    addf a (broadcastInDim S100000x64 ![0, 1] bcast_S1x64_S100000x64_0_1 (broadcastInDim S1x64 ![1] bcast_S64_S1x64_1 b))
      = Cert.Spec.addRow a b := by
  funext i
  obtain ⟨p, o, rfl⟩ : ∃ (p : Fin 100000) (o : Fin 64), i = ix2 p o := ⟨i 0, i 1, eq_ix2 i⟩
  rw [addf_apply, Cert.LibRowBroadcast.row_mat_apply, Cert.LibRowBroadcast.vec_row_apply]
  rfl

end Cert.ReferenceIdeal.RefOps

end
-- ==== Proof.RefOp6.lean ====
/-
  The decoder's score on the host side, read edge by edge.

  For each of the 1280000 edges the reference multiplies the two gathered [1280000, 64] endpoint embeddings entry by
  entry and adds up each row, starting the sum from the float zero.  At the extended reals the start value is the
  number zero, so the entry for edge p is the sum over o of a(p, o) · b(p, o): the row-wise inner product of the
  specification.  It holds for every pair of operand arrays.
-/
import proofs.«150293_j49065706389779_1_alg».proof.ReferenceIdeal
import proofs.«150293_j49065706389779_1_alg».proof.Proof.Spec
import proofs.«150293_j49065706389779_1_alg».proof.Proof.LibRowReduce

noncomputable section

namespace Cert.ReferenceIdeal.RefOps

open Cert.ReferenceIdeal Idealize.ShloMosaic Idealize.ShloMosaic.ValueIdx

variable [Facts₀]
open Facts₀

/-- The host's row sums of the entrywise product of two [1280000, 64] arrays, from the zero start value, are their
    row-wise inner products. -/
theorem reduceAdd_mulf_eq_rowDot (a b : FVec Ideal S1280000x64 .f32) :
    Host.reduceAdd (mulf a b) (constant (F := Ideal) S_ .f32 0x00000000#32) reducesTo_S1280000x64_S1280000_d1 h_S_
      = Cert.Spec.rowDot a b := by
  funext i
  obtain ⟨p, rfl⟩ : ∃ p : Fin 1280000, i = ix1 p := ⟨i 0, eq_ix1 i⟩
  refine (Cert.LibRowReduce.hostReduceAdd_row (mulf a b) (constant (F := Ideal) S_ .f32 0x00000000#32)
    reducesTo_S1280000x64_S1280000_d1 (by decide) h_S_ p).trans ?_
  show Ideal.ofBits .f32 0x00000000#32 + ∑ o : Fin 64, a (ix2 p o) * b (ix2 p o) = _
  rw [Ideal.ofBits_zero_f32, zero_add]
  rfl

end Cert.ReferenceIdeal.RefOps

end
-- ==== Proof.LockRef.lean ====
/-
  The reference's side of the seven blocked stages, and its second pair of index vectors.  Where the kernel program runs
  a blocked stage, the reference runs one to six whole-array host operations; read back from any buffer contents, each
  such group leaves in its result buffer the SAME specification function of the same operands as the blocked stage
  does: the first matrix product, the scaling of the gathered rows by the column of factors (twice), the bias added to every row with and
  without the clamp at zero, the second matrix product, and the row-wise inner product of the two gathered embedding
  matrices.  None of these groups writes one of the six carried arrays.  The one group with no counterpart builds
  the two index vectors again from the edge array: the copies equal the originals.
-/
import proofs.«150293_j49065706389779_1_alg».proof.Proof.Gen.KernelIdeal.Launch
import proofs.«150293_j49065706389779_1_alg».proof.Proof.RefChunks
import proofs.«150293_j49065706389779_1_alg».proof.Proof.LibJoinTwo
import Idealize.ShloMosaic.PureOps.Ideal
import proofs.«150293_j49065706389779_1_alg».proof.Proof.LockTie
import proofs.«150293_j49065706389779_1_alg».proof.Proof.RefOp0
import proofs.«150293_j49065706389779_1_alg».proof.Proof.RefOp1
import proofs.«150293_j49065706389779_1_alg».proof.Proof.RefOp2
import proofs.«150293_j49065706389779_1_alg».proof.Proof.RefOp3
import proofs.«150293_j49065706389779_1_alg».proof.Proof.RefOp4
import proofs.«150293_j49065706389779_1_alg».proof.Proof.RefOp5
import proofs.«150293_j49065706389779_1_alg».proof.Proof.RefOp6

noncomputable section

namespace Cert.Lockstep

open Cert.LibJoinTwo Cert.ReferenceIdeal.Chunks
open Idealize.ShloMosaic Idealize.ShloMosaic.TcCoe Idealize.SL.Sem Idealize.ShloMosaic.StableHlo

/-- The first matrix product, which the reference forms first of all. -/
theorem ref_dot1 (Wr : RV) :
    after (rc0 (F := Ideal)) Wr (Proc.devRef .tc Cert.ReferenceIdeal.main_v0) = Cert.Spec.matProd (Wr (Proc.devRef .tc Cert.ReferenceIdeal.main_arg0)) (Wr (Proc.devRef .tc Cert.ReferenceIdeal.main_arg2)) := by
  host_results
  exact Cert.ReferenceIdeal.RefOps.dotGeneral_64_128_eq_matProd _ _

/-- The first scaling: the column of factors spread over 128 columns, times the gathered rows. -/
theorem ref_scale1 (Wr : RV) :
    after (rc4 (F := Ideal)) Wr (Proc.devRef .tc Cert.ReferenceIdeal.main_v40) = Cert.Spec.scaleRows (Wr (Proc.devRef .tc Cert.ReferenceIdeal.main_v38)) (Wr (Proc.devRef .tc Cert.ReferenceIdeal.main_v31)) := by
  host_results
  exact Cert.ReferenceIdeal.RefOps.mulf_col128_eq_scaleRows _ _

/-- The first bias and clamp: the bias as a row, spread over the nodes, added, and the larger of that and zero. -/
theorem ref_bias1 (Wr : RV) :
    after (rc6 (F := Ideal)) Wr (Proc.devRef .tc Cert.ReferenceIdeal.main_v47) = Cert.Spec.addRowClamp (Wr (Proc.devRef .tc Cert.ReferenceIdeal.main_v43)) (Wr (Proc.devRef .tc Cert.ReferenceIdeal.main_arg3)) := by
  host_results
  exact Cert.ReferenceIdeal.RefOps.add_bias128_clamp_eq_addRowClamp _ _

/-- The second matrix product. -/
theorem ref_dot2 (Wr : RV) :
    after (rc7 (F := Ideal)) Wr (Proc.devRef .tc Cert.ReferenceIdeal.main_v48) = Cert.Spec.matProd (Wr (Proc.devRef .tc Cert.ReferenceIdeal.main_v47)) (Wr (Proc.devRef .tc Cert.ReferenceIdeal.main_arg4)) := by
  host_results
  exact Cert.ReferenceIdeal.RefOps.dotGeneral_128_64_eq_matProd _ _

/-- The second scaling. -/
theorem ref_scale2 (Wr : RV) :
    after (rc12 (F := Ideal)) Wr (Proc.devRef .tc Cert.ReferenceIdeal.main_v88) = Cert.Spec.scaleRows (Wr (Proc.devRef .tc Cert.ReferenceIdeal.main_v86)) (Wr (Proc.devRef .tc Cert.ReferenceIdeal.main_v79)) := by
  host_results
  exact Cert.ReferenceIdeal.RefOps.mulf_col64_eq_scaleRows _ _

/-- The second bias. -/
theorem ref_bias2 (Wr : RV) :
    after (rc14 (F := Ideal)) Wr (Proc.devRef .tc Cert.ReferenceIdeal.main_v94) = Cert.Spec.addRow (Wr (Proc.devRef .tc Cert.ReferenceIdeal.main_v91)) (Wr (Proc.devRef .tc Cert.ReferenceIdeal.main_arg5)) := by
  host_results
  exact Cert.ReferenceIdeal.RefOps.add_bias64_eq_addRow _ _

/-- The decoding: the product of the two gathered matrices summed along each row, from the zero word. -/
theorem ref_rowdot (Wr : RV) :
    after (rc16 (F := Ideal)) Wr (Proc.devRef .tc Cert.ReferenceIdeal.main_v114) = Cert.Spec.rowDot (Wr (Proc.devRef .tc Cert.ReferenceIdeal.main_v105)) (Wr (Proc.devRef .tc Cert.ReferenceIdeal.main_v112)) := by
  host_results
  exact Cert.ReferenceIdeal.RefOps.reduceAdd_mulf_eq_rowDot _ _

/-- None of the reference's stage groups writes a carried array. -/
theorem Tie.rc4 {Wk : KV} {Wr : RV} (T : Tie Wk Wr) : Tie Wk (after (rc4 (F := Ideal)) Wr) := by
  obtain ⟨e1, e3, e4, e5, es, ed⟩ := T
  refine ⟨?_, ?_, ?_, ?_, ?_, ?_⟩
  · host_results; exact e1
  · host_results; exact e3
  · host_results; exact e4
  · host_results; exact e5
  · host_results; exact es
  · host_results; exact ed
theorem Tie.rc6 {Wk : KV} {Wr : RV} (T : Tie Wk Wr) : Tie Wk (after (rc6 (F := Ideal)) Wr) := by
  obtain ⟨e1, e3, e4, e5, es, ed⟩ := T
  refine ⟨?_, ?_, ?_, ?_, ?_, ?_⟩
  · host_results; exact e1
  · host_results; exact e3
  · host_results; exact e4
  · host_results; exact e5
  · host_results; exact es
  · host_results; exact ed
theorem Tie.rc7 {Wk : KV} {Wr : RV} (T : Tie Wk Wr) : Tie Wk (after (rc7 (F := Ideal)) Wr) := by
  obtain ⟨e1, e3, e4, e5, es, ed⟩ := T
  refine ⟨?_, ?_, ?_, ?_, ?_, ?_⟩
  · host_results; exact e1
  · host_results; exact e3
  · host_results; exact e4
  · host_results; exact e5
  · host_results; exact es
  · host_results; exact ed
theorem Tie'.rc12 {Wk : KV} {Wr : RV} (T : Tie' Wk Wr) : Tie' Wk (after (rc12 (F := Ideal)) Wr) := by
  obtain ⟨e1, e3, e4, e5, es, ed⟩ := T
  refine ⟨?_, ?_, ?_, ?_, ?_, ?_⟩
  · host_results; exact e1
  · host_results; exact e3
  · host_results; exact e4
  · host_results; exact e5
  · host_results; exact es
  · host_results; exact ed
theorem Tie'.rc14 {Wk : KV} {Wr : RV} (T : Tie' Wk Wr) : Tie' Wk (after (rc14 (F := Ideal)) Wr) := by
  obtain ⟨e1, e3, e4, e5, es, ed⟩ := T
  refine ⟨?_, ?_, ?_, ?_, ?_, ?_⟩
  · host_results; exact e1
  · host_results; exact e3
  · host_results; exact e4
  · host_results; exact e5
  · host_results; exact es
  · host_results; exact ed

/-- The second pair of index vectors: built from the edge array by the operations that built the first pair, so
    whenever the first pair holds what those operations make of the edge array, the copies equal it; and the second
    product, computed just before, is not touched. -/
theorem Tie.rc8 {Wk : KV} {Wr : RV} (T : Tie Wk Wr)
    (hs : Wr (Proc.devRef .tc Cert.ReferenceIdeal.main_v4) = after (rc8 (F := Ideal)) Wr (Proc.devRef .tc Cert.ReferenceIdeal.main_v52)) (hd : Wr (Proc.devRef .tc Cert.ReferenceIdeal.main_v7) = after (rc8 (F := Ideal)) Wr (Proc.devRef .tc Cert.ReferenceIdeal.main_v55)) :
    Tie' Wk (after (rc8 (F := Ideal)) Wr) := by
  obtain ⟨e1, e3, e4, e5, es, ed⟩ := T
  refine ⟨?_, ?_, ?_, ?_, es.trans hs, ed.trans hd⟩
  · host_results; exact e1
  · host_results; exact e3
  · host_results; exact e4
  · host_results; exact e5

theorem keep_rc8 (Wr : RV) : after (rc8 (F := Ideal)) Wr (Proc.devRef .tc Cert.ReferenceIdeal.main_v48) = Wr (Proc.devRef .tc Cert.ReferenceIdeal.main_v48) := by
  host_results

end Cert.Lockstep

end
-- ==== Proof.LockDup.lean ====
/-
  The reference's second pair of index vectors equals its first.  After the first eight groups of the reference's
  operations the first pair holds what the slices, reshapes and concatenations make of the edge array; the ninth group
  applies the same operations to the same edge array, which nothing in between has written.  Read back from any
  starting contents, the two sides are one term.
-/
import proofs.«150293_j49065706389779_1_alg».proof.Proof.Gen.KernelIdeal.Launch
import proofs.«150293_j49065706389779_1_alg».proof.Proof.RefChunks
import proofs.«150293_j49065706389779_1_alg».proof.Proof.LibJoinTwo
import Idealize.ShloMosaic.PureOps.Ideal
import proofs.«150293_j49065706389779_1_alg».proof.Proof.LockTie

noncomputable section

namespace Cert.Lockstep

open Cert.LibJoinTwo Cert.ReferenceIdeal.Chunks
open Idealize.ShloMosaic Idealize.ShloMosaic.TcCoe Idealize.SL.Sem Idealize.ShloMosaic.StableHlo

/-- The source index vector, computed again, is the one computed first. -/
theorem dup_src (V : RV) :
    (after (rc7 (F := Ideal)) (after (rc6 (F := Ideal)) (after (rc5 (F := Ideal)) (after (rc4 (F := Ideal)) (after (rc3 (F := Ideal)) (after (rc2 (F := Ideal)) (after (rc1 (F := Ideal)) (after (rc0 (F := Ideal)) (V))))))))) (Proc.devRef .tc Cert.ReferenceIdeal.main_v4) = after (rc8 (F := Ideal)) (after (rc7 (F := Ideal)) (after (rc6 (F := Ideal)) (after (rc5 (F := Ideal)) (after (rc4 (F := Ideal)) (after (rc3 (F := Ideal)) (after (rc2 (F := Ideal)) (after (rc1 (F := Ideal)) (after (rc0 (F := Ideal)) (V))))))))) (Proc.devRef .tc Cert.ReferenceIdeal.main_v52) := by
  host_results
  rfl

/-- The destination index vector, computed again, is the one computed first. -/
theorem dup_dst (V : RV) :
    (after (rc7 (F := Ideal)) (after (rc6 (F := Ideal)) (after (rc5 (F := Ideal)) (after (rc4 (F := Ideal)) (after (rc3 (F := Ideal)) (after (rc2 (F := Ideal)) (after (rc1 (F := Ideal)) (after (rc0 (F := Ideal)) (V))))))))) (Proc.devRef .tc Cert.ReferenceIdeal.main_v7) = after (rc8 (F := Ideal)) (after (rc7 (F := Ideal)) (after (rc6 (F := Ideal)) (after (rc5 (F := Ideal)) (after (rc4 (F := Ideal)) (after (rc3 (F := Ideal)) (after (rc2 (F := Ideal)) (after (rc1 (F := Ideal)) (after (rc0 (F := Ideal)) (V))))))))) (Proc.devRef .tc Cert.ReferenceIdeal.main_v55) := by
  host_results
  rfl

end Cert.Lockstep

end
-- ==== Proof.Assembly.lean ====
/-
  The two programs walked side by side from the launch to the result.  On the kernel side the buffer contents at the
  eighteen segment boundaries are the generated fold (host stretches, and at each blocked stage the stage's arrays put
  back); on the reference side they are the contents after each of its seventeen groups of operations.  At every
  boundary the six carried arrays agree and so does the value the next step reads: through a host stretch because the
  two sides run the same operations on agreeing operands; through a blocked stage because the stage's output array
  and the reference's group leave the same specification function of agreeing operands (the product, the row scaling,
  the bias with and without the clamp, the row-wise inner product).  At the end the kernel program's result array is
  what the reference's 148 operations leave in its result buffer.
-/
import proofs.«150293_j49065706389779_1_alg».proof.Proof.Gen.KernelIdeal.Frame
import proofs.«150293_j49065706389779_1_alg».proof.Proof.KernelKeep
import proofs.«150293_j49065706389779_1_alg».proof.Proof.Region0
import proofs.«150293_j49065706389779_1_alg».proof.Proof.Region1
import proofs.«150293_j49065706389779_1_alg».proof.Proof.Region2
import proofs.«150293_j49065706389779_1_alg».proof.Proof.Region3
import proofs.«150293_j49065706389779_1_alg».proof.Proof.Region4
import proofs.«150293_j49065706389779_1_alg».proof.Proof.Region5
import proofs.«150293_j49065706389779_1_alg».proof.Proof.Region6
import proofs.«150293_j49065706389779_1_alg».proof.Proof.LockTie
import proofs.«150293_j49065706389779_1_alg».proof.Proof.LockHost1
import proofs.«150293_j49065706389779_1_alg».proof.Proof.LockHost2
import proofs.«150293_j49065706389779_1_alg».proof.Proof.LockRef
import proofs.«150293_j49065706389779_1_alg».proof.Proof.LockDup

noncomputable section

namespace Cert.Lockstep

open Cert.LibJoinTwo Cert.ReferenceIdeal.Chunks
open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The reference's buffer contents at launch, and after each of its seventeen groups of operations. -/
abbrev Rb0 : RV := launchContents m' c
abbrev Rb1 : RV := after (rc0 (F := Ideal)) (Rb0 m' c)
abbrev Rb2 : RV := after (rc1 (F := Ideal)) (Rb1 m' c)
abbrev Rb3 : RV := after (rc2 (F := Ideal)) (Rb2 m' c)
abbrev Rb4 : RV := after (rc3 (F := Ideal)) (Rb3 m' c)
abbrev Rb5 : RV := after (rc4 (F := Ideal)) (Rb4 m' c)
abbrev Rb6 : RV := after (rc5 (F := Ideal)) (Rb5 m' c)
abbrev Rb7 : RV := after (rc6 (F := Ideal)) (Rb6 m' c)
abbrev Rb8 : RV := after (rc7 (F := Ideal)) (Rb7 m' c)
abbrev Rb9 : RV := after (rc8 (F := Ideal)) (Rb8 m' c)
abbrev Rb10 : RV := after (rc9 (F := Ideal)) (Rb9 m' c)
abbrev Rb11 : RV := after (rc10 (F := Ideal)) (Rb10 m' c)
abbrev Rb12 : RV := after (rc11 (F := Ideal)) (Rb11 m' c)
abbrev Rb13 : RV := after (rc12 (F := Ideal)) (Rb12 m' c)
abbrev Rb14 : RV := after (rc13 (F := Ideal)) (Rb13 m' c)
abbrev Rb15 : RV := after (rc14 (F := Ideal)) (Rb14 m' c)
abbrev Rb16 : RV := after (rc15 (F := Ideal)) (Rb15 m' c)
abbrev Rb17 : RV := after (rc16 (F := Ideal)) (Rb16 m' c)

set_option maxHeartbeats 4000000 in
/-- From launch memories that agree on the six arguments, the kernel program's result array at its last boundary is
    what the reference's operations leave in the reference's result buffer. -/
theorem kernel_eq_reference
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    (Cert.KernelIdeal.Gen.W17 (F := Ideal) m ρ c) (Proc.devRef .tc Cert.KernelIdeal.main_v99)
      = after (Cert.ReferenceIdeal.RunP.ops (F := Ideal)) (launchContents m' c) (Proc.devRef .tc Cert.ReferenceIdeal.main_v114) := by
  rw [after_ops]
  show (Cert.KernelIdeal.Gen.W17 (F := Ideal) m ρ c) (Proc.devRef .tc Cert.KernelIdeal.main_v99) = (Rb17 m' c) (Proc.devRef .tc Cert.ReferenceIdeal.main_v114)
  -- the launch memories agree on the arguments
  have a0 : (Cert.KernelIdeal.Gen.W0 (F := Ideal) m ρ c) (Proc.devRef .tc Cert.KernelIdeal.main_arg0) = (Rb0 m' c) (Proc.devRef .tc Cert.ReferenceIdeal.main_arg0) := h0.symm
  have a1 : (Cert.KernelIdeal.Gen.W0 (F := Ideal) m ρ c) (Proc.devRef .tc Cert.KernelIdeal.main_arg1) = (Rb0 m' c) (Proc.devRef .tc Cert.ReferenceIdeal.main_arg1) := h1.symm
  have a2 : (Cert.KernelIdeal.Gen.W0 (F := Ideal) m ρ c) (Proc.devRef .tc Cert.KernelIdeal.main_arg2) = (Rb0 m' c) (Proc.devRef .tc Cert.ReferenceIdeal.main_arg2) := h2.symm
  have a3 : (Cert.KernelIdeal.Gen.W0 (F := Ideal) m ρ c) (Proc.devRef .tc Cert.KernelIdeal.main_arg3) = (Rb0 m' c) (Proc.devRef .tc Cert.ReferenceIdeal.main_arg3) := h3.symm
  have a4 : (Cert.KernelIdeal.Gen.W0 (F := Ideal) m ρ c) (Proc.devRef .tc Cert.KernelIdeal.main_arg4) = (Rb0 m' c) (Proc.devRef .tc Cert.ReferenceIdeal.main_arg4) := h4.symm
  have a5 : (Cert.KernelIdeal.Gen.W0 (F := Ideal) m ρ c) (Proc.devRef .tc Cert.KernelIdeal.main_arg5) = (Rb0 m' c) (Proc.devRef .tc Cert.ReferenceIdeal.main_arg5) := h5.symm
  -- the opening stretch, then the first product
  obtain ⟨T1, k0, k2⟩ := open_step (Cert.KernelIdeal.Gen.W0 (F := Ideal) m ρ c) (Rb0 m' c) a0 a1 a2 a3 a4 a5
  have x2 : (Cert.KernelIdeal.Gen.W2 (F := Ideal) m ρ c) (Proc.devRef .tc Cert.KernelIdeal.main_v7) = (Rb1 m' c) (Proc.devRef .tc Cert.ReferenceIdeal.main_v0) := by
    refine (Cert.KernelIdeal.Gen.W2_arr m ρ c 2).trans ?_
    refine (Cert.KernelIdeal.RegionVal.region0_arr (Cert.KernelIdeal.Gen.V1 (F := Ideal) m ρ) c).trans ?_
    refine Eq.trans ?_ (ref_dot1 _).symm
    exact congrArg₂ (Cert.Spec.matProd (n := 100000) (k := 64) (d := 128)) k0 k2
  have T2 : Tie (Cert.KernelIdeal.Gen.W2 (F := Ideal) m ρ c) (Rb1 m' c) := T1.stepK
      (Cert.KernelIdeal.Keep.keep0 m ρ c Cert.KernelIdeal.main_arg1 (by decide))
      (Cert.KernelIdeal.Keep.keep0 m ρ c Cert.KernelIdeal.main_arg3 (by decide))
      (Cert.KernelIdeal.Keep.keep0 m ρ c Cert.KernelIdeal.main_arg4 (by decide))
      (Cert.KernelIdeal.Keep.keep0 m ρ c Cert.KernelIdeal.main_arg5 (by decide))
      (Cert.KernelIdeal.Keep.keep0 m ρ c Cert.KernelIdeal.main_v3 (by decide))
      (Cert.KernelIdeal.Keep.keep0 m ρ c Cert.KernelIdeal.main_v6 (by decide))
  -- the first layer's normalisation, scaling, scatter-sum, bias and clamp
  obtain ⟨T3, x3, h13, h14, hc⟩ := deg_step1 (Cert.KernelIdeal.Gen.W2 (F := Ideal) m ρ c) (Rb1 m' c) T2 x2
  obtain ⟨T4, x4, h15⟩ := guard_step1 (Cert.KernelIdeal.Gen.W3 (F := Ideal) m ρ c) (Rb2 m' c) T3 x3 h13 h14 hc
  obtain ⟨T5, g5, n5⟩ := gather_step1 (Cert.KernelIdeal.Gen.W4 (F := Ideal) m ρ c) (Rb3 m' c) T4 x4 h15
  have x6 : (Cert.KernelIdeal.Gen.W6 (F := Ideal) m ρ c) (Proc.devRef .tc Cert.KernelIdeal.main_v39) = (Rb5 m' c) (Proc.devRef .tc Cert.ReferenceIdeal.main_v40) := by
    refine (Cert.KernelIdeal.Gen.W6_arr m ρ c 2).trans ?_
    refine (Cert.KernelIdeal.RegionVal.region1_arr (Cert.KernelIdeal.Gen.V5 (F := Ideal) m ρ) c).trans ?_
    refine Eq.trans ?_ (ref_scale1 _).symm
    exact congrArg₂ (Cert.Spec.scaleRows (n := 1380000) (d := 128)) g5 n5
  have T6 : Tie (Cert.KernelIdeal.Gen.W6 (F := Ideal) m ρ c) (Rb5 m' c) := (T5.stepK
      (Cert.KernelIdeal.Keep.keep1 m ρ c Cert.KernelIdeal.main_arg1 (by decide))
      (Cert.KernelIdeal.Keep.keep1 m ρ c Cert.KernelIdeal.main_arg3 (by decide))
      (Cert.KernelIdeal.Keep.keep1 m ρ c Cert.KernelIdeal.main_arg4 (by decide))
      (Cert.KernelIdeal.Keep.keep1 m ρ c Cert.KernelIdeal.main_arg5 (by decide))
      (Cert.KernelIdeal.Keep.keep1 m ρ c Cert.KernelIdeal.main_v3 (by decide))
      (Cert.KernelIdeal.Keep.keep1 m ρ c Cert.KernelIdeal.main_v6 (by decide))).rc4
  obtain ⟨T7, x7⟩ := agg_step (Cert.KernelIdeal.Gen.W6 (F := Ideal) m ρ c) (Rb5 m' c) T6 x6
  have x8 : (Cert.KernelIdeal.Gen.W8 (F := Ideal) m ρ c) (Proc.devRef .tc Cert.KernelIdeal.main_v43) = (Rb7 m' c) (Proc.devRef .tc Cert.ReferenceIdeal.main_v47) := by
    refine (Cert.KernelIdeal.Gen.W8_arr m ρ c 2).trans ?_
    refine (Cert.KernelIdeal.RegionVal.region2_arr (Cert.KernelIdeal.Gen.V7 (F := Ideal) m ρ) c).trans ?_
    refine Eq.trans ?_ (ref_bias1 _).symm
    exact congrArg₂ (Cert.Spec.addRowClamp (n := 100000) (d := 128)) x7 T7.e3
  have T8 : Tie (Cert.KernelIdeal.Gen.W8 (F := Ideal) m ρ c) (Rb7 m' c) := (T7.stepK
      (Cert.KernelIdeal.Keep.keep2 m ρ c Cert.KernelIdeal.main_arg1 (by decide))
      (Cert.KernelIdeal.Keep.keep2 m ρ c Cert.KernelIdeal.main_arg3 (by decide))
      (Cert.KernelIdeal.Keep.keep2 m ρ c Cert.KernelIdeal.main_arg4 (by decide))
      (Cert.KernelIdeal.Keep.keep2 m ρ c Cert.KernelIdeal.main_arg5 (by decide))
      (Cert.KernelIdeal.Keep.keep2 m ρ c Cert.KernelIdeal.main_v3 (by decide))
      (Cert.KernelIdeal.Keep.keep2 m ρ c Cert.KernelIdeal.main_v6 (by decide))).rc6
  -- the second product, and the reference's second pair of index vectors
  have x9 : (Cert.KernelIdeal.Gen.W9 (F := Ideal) m ρ c) (Proc.devRef .tc Cert.KernelIdeal.main_v44) = (Rb8 m' c) (Proc.devRef .tc Cert.ReferenceIdeal.main_v48) := by
    refine (Cert.KernelIdeal.Gen.W9_arr m ρ c 2).trans ?_
    refine (Cert.KernelIdeal.RegionVal.region3_arr (Cert.KernelIdeal.Gen.V8 (F := Ideal) m ρ) c).trans ?_
    refine Eq.trans ?_ (ref_dot2 _).symm
    exact congrArg₂ (Cert.Spec.matProd (n := 100000) (k := 128) (d := 64)) x8 T8.e4
  have T9 : Tie (Cert.KernelIdeal.Gen.W9 (F := Ideal) m ρ c) (Rb8 m' c) := (T8.stepK
      (Cert.KernelIdeal.Keep.keep3 m ρ c Cert.KernelIdeal.main_arg1 (by decide))
      (Cert.KernelIdeal.Keep.keep3 m ρ c Cert.KernelIdeal.main_arg3 (by decide))
      (Cert.KernelIdeal.Keep.keep3 m ρ c Cert.KernelIdeal.main_arg4 (by decide))
      (Cert.KernelIdeal.Keep.keep3 m ρ c Cert.KernelIdeal.main_arg5 (by decide))
      (Cert.KernelIdeal.Keep.keep3 m ρ c Cert.KernelIdeal.main_v3 (by decide))
      (Cert.KernelIdeal.Keep.keep3 m ρ c Cert.KernelIdeal.main_v6 (by decide))).rc7
  have T9' : Tie' (Cert.KernelIdeal.Gen.W9 (F := Ideal) m ρ c) (Rb9 m' c) := T9.rc8 (dup_src (Rb0 m' c)) (dup_dst (Rb0 m' c))
  have x9' : (Cert.KernelIdeal.Gen.W9 (F := Ideal) m ρ c) (Proc.devRef .tc Cert.KernelIdeal.main_v44) = (Rb9 m' c) (Proc.devRef .tc Cert.ReferenceIdeal.main_v48) := x9.trans (keep_rc8 (Rb8 m' c)).symm
  -- the second layer's normalisation, scaling, scatter-sum and bias
  obtain ⟨T10, x10, h50, h51, hc12⟩ := deg_step2 (Cert.KernelIdeal.Gen.W9 (F := Ideal) m ρ c) (Rb9 m' c) T9' x9'
  obtain ⟨T11, x11, h52⟩ := guard_step2 (Cert.KernelIdeal.Gen.W10 (F := Ideal) m ρ c) (Rb10 m' c) T10 x10 h50 h51 hc12
  obtain ⟨T12, g12, n12⟩ := gather_step2 (Cert.KernelIdeal.Gen.W11 (F := Ideal) m ρ c) (Rb11 m' c) T11 x11 h52
  have x13 : (Cert.KernelIdeal.Gen.W13 (F := Ideal) m ρ c) (Proc.devRef .tc Cert.KernelIdeal.main_v76) = (Rb13 m' c) (Proc.devRef .tc Cert.ReferenceIdeal.main_v88) := by
    refine (Cert.KernelIdeal.Gen.W13_arr m ρ c 2).trans ?_
    refine (Cert.KernelIdeal.RegionVal.region4_arr (Cert.KernelIdeal.Gen.V12 (F := Ideal) m ρ) c).trans ?_
    refine Eq.trans ?_ (ref_scale2 _).symm
    exact congrArg₂ (Cert.Spec.scaleRows (n := 1380000) (d := 64)) g12 n12
  have T13 : Tie' (Cert.KernelIdeal.Gen.W13 (F := Ideal) m ρ c) (Rb13 m' c) := (T12.stepK
      (Cert.KernelIdeal.Keep.keep4 m ρ c Cert.KernelIdeal.main_arg1 (by decide))
      (Cert.KernelIdeal.Keep.keep4 m ρ c Cert.KernelIdeal.main_arg3 (by decide))
      (Cert.KernelIdeal.Keep.keep4 m ρ c Cert.KernelIdeal.main_arg4 (by decide))
      (Cert.KernelIdeal.Keep.keep4 m ρ c Cert.KernelIdeal.main_arg5 (by decide))
      (Cert.KernelIdeal.Keep.keep4 m ρ c Cert.KernelIdeal.main_v3 (by decide))
      (Cert.KernelIdeal.Keep.keep4 m ρ c Cert.KernelIdeal.main_v6 (by decide))).rc12
  obtain ⟨T14, x14⟩ := agg2_step (Cert.KernelIdeal.Gen.W13 (F := Ideal) m ρ c) (Rb13 m' c) T13 x13
  have x15 : (Cert.KernelIdeal.Gen.W15 (F := Ideal) m ρ c) (Proc.devRef .tc Cert.KernelIdeal.main_v80) = (Rb15 m' c) (Proc.devRef .tc Cert.ReferenceIdeal.main_v94) := by
    refine (Cert.KernelIdeal.Gen.W15_arr m ρ c 2).trans ?_
    refine (Cert.KernelIdeal.RegionVal.region5_arr (Cert.KernelIdeal.Gen.V14 (F := Ideal) m ρ) c).trans ?_
    refine Eq.trans ?_ (ref_bias2 _).symm
    exact congrArg₂ (Cert.Spec.addRow (n := 100000) (d := 64)) x14 T14.e5
  have T15 : Tie' (Cert.KernelIdeal.Gen.W15 (F := Ideal) m ρ c) (Rb15 m' c) := (T14.stepK
      (Cert.KernelIdeal.Keep.keep5 m ρ c Cert.KernelIdeal.main_arg1 (by decide))
      (Cert.KernelIdeal.Keep.keep5 m ρ c Cert.KernelIdeal.main_arg3 (by decide))
      (Cert.KernelIdeal.Keep.keep5 m ρ c Cert.KernelIdeal.main_arg4 (by decide))
      (Cert.KernelIdeal.Keep.keep5 m ρ c Cert.KernelIdeal.main_arg5 (by decide))
      (Cert.KernelIdeal.Keep.keep5 m ρ c Cert.KernelIdeal.main_v3 (by decide))
      (Cert.KernelIdeal.Keep.keep5 m ρ c Cert.KernelIdeal.main_v6 (by decide))).rc14
  -- the decoding: the embeddings gathered at the edges' end points, and their row-wise inner product
  obtain ⟨s16, d16⟩ := ends_step (Cert.KernelIdeal.Gen.W15 (F := Ideal) m ρ c) (Rb15 m' c) T15 x15
  refine (Cert.KernelIdeal.Gen.W17_arr m ρ c 2).trans ?_
  refine (Cert.KernelIdeal.RegionVal.region6_arr (Cert.KernelIdeal.Gen.V16 (F := Ideal) m ρ) c).trans ?_
  refine Eq.trans ?_ (ref_rowdot _).symm
  exact congrArg₂ (Cert.Spec.rowDot (n := 1280000) (d := 64)) s16 d16

end Cert.Lockstep

end
-- ==== Proof.lean ====
/-
  The certificate of the two-layer graph convolution with an edge-wise inner-product decoder.

  The kernel program computes, per layer, a matrix product, the degree normalisation of the graph with self loops, a
  gather of the transformed rows along the edges, a scaling of every gathered row, a scatter-sum onto the destination
  nodes and a bias (with a clamp at zero after the first layer), and finally the inner product of the two end points'
  embeddings for every edge; the products, scalings, biases and the final inner products run as seven blocked stages,
  the gathers and scatter-sums as host operations between them.  The reference computes the same with whole-array host
  operations only.  On the extended reals a change of float format is the identity and every blocked stage is, block by
  block, the whole-array operation it stands for, so the two programs agree buffer by buffer all the way (the only
  algebraic law used is that the product of two extended reals commutes); no finiteness of the inputs is needed.

  The three frames: the two kernel programs' are the generated ones; the reference's is its run with the result
  dropped.  The idealization rewrote nothing, so there is nothing to preserve.  The value claim sets the kernel
  program's run, its result named at the last segment boundary, beside the reference's run, its result at what its
  operations leave, and joins the two by the side-by-side walk.
-/
import proofs.«150293_j49065706389779_1_alg».proof.Defs
import proofs.«150293_j49065706389779_1_alg».proof.Proof.Gen.Kernel
import proofs.«150293_j49065706389779_1_alg».proof.Proof.Gen.Kernel.Skeleton
import proofs.«150293_j49065706389779_1_alg».proof.Proof.Gen.Kernel.Launch
import proofs.«150293_j49065706389779_1_alg».proof.Proof.Gen.Kernel.Points
import proofs.«150293_j49065706389779_1_alg».proof.Proof.Gen.Kernel.Frame
import proofs.«150293_j49065706389779_1_alg».proof.Proof.Gen.KernelIdeal
import proofs.«150293_j49065706389779_1_alg».proof.Proof.Gen.KernelIdeal.Skeleton
import proofs.«150293_j49065706389779_1_alg».proof.Proof.Gen.KernelIdeal.Launch
import proofs.«150293_j49065706389779_1_alg».proof.Proof.Gen.KernelIdeal.Points
import proofs.«150293_j49065706389779_1_alg».proof.Proof.Gen.KernelIdeal.Frame
import proofs.«150293_j49065706389779_1_alg».proof.Proof.Gen.ReferenceIdeal
import proofs.«150293_j49065706389779_1_alg».proof.Proof.Gen.Pre_finite_inputs
import proofs.«150293_j49065706389779_1_alg».proof.Proof.KernelRun
import proofs.«150293_j49065706389779_1_alg».proof.Proof.RefRunP
import proofs.«150293_j49065706389779_1_alg».proof.Proof.RefFrame
import proofs.«150293_j49065706389779_1_alg».proof.Proof.Assembly
import Idealize.ShloMosaic.Adequacy
import Idealize.ShloMosaic.Init

noncomputable section

namespace Cert.Proof

open Idealize.ShloMosaic Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference's frame: its run, every buffer at what the operations leave, read at the six arguments. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefFrame.arg0_kept m c),
     (h c Cert.ReferenceIdeal.main_arg1).trans (Cert.ReferenceIdeal.RefFrame.arg1_kept m c),
     (h c Cert.ReferenceIdeal.main_arg2).trans (Cert.ReferenceIdeal.RefFrame.arg2_kept m c),
     (h c Cert.ReferenceIdeal.main_arg3).trans (Cert.ReferenceIdeal.RefFrame.arg3_kept m c),
     (h c Cert.ReferenceIdeal.main_arg4).trans (Cert.ReferenceIdeal.RefFrame.arg4_kept m c),
     (h c Cert.ReferenceIdeal.main_arg5).trans (Cert.ReferenceIdeal.RefFrame.arg5_kept m c)⟩)
    (Cert.ReferenceIdeal.RunP.run_after (F := Ideal) m ρ)

/-- The idealization rewrote no operation. -/
theorem preserves : Cert.preserves_Kernel_KernelIdeal := trivial

/-- From memories agreeing on the arguments both programs run, and the reference's result is the kernel program's:
    the result array at the kernel program's last segment boundary. -/
theorem algebraic : Cert.algebraic_KernelIdeal_ReferenceIdeal := by
  intro m ρ m' ρ' _ hagree
  refine ⟨fun c => Cert.KernelIdeal.Gen.W17 (F := Ideal) m ρ c (Proc.devRef .tc Cert.KernelIdeal.main_v99),
    Cert.KernelIdeal.RunValue.run_value (F := Ideal) m ρ, ?_⟩
  refine (θ_run Cert.ReferenceIdeal.defs _ _).mono (fun r h c => ?_) (Cert.ReferenceIdeal.RunP.run_after (F := Ideal) m' ρ')
  obtain ⟨g0, g1, g2, g3, g4, g5⟩ := hagree c
  exact ⟨(h c Cert.ReferenceIdeal.main_v114).trans (Cert.Lockstep.kernel_eq_reference m ρ m' c g0 g1 g2 g3 g4 g5).symm,
    (h c Cert.ReferenceIdeal.main_arg0).trans (Cert.ReferenceIdeal.RefFrame.arg0_kept m' c),
    (h c Cert.ReferenceIdeal.main_arg1).trans (Cert.ReferenceIdeal.RefFrame.arg1_kept m' c),
    (h c Cert.ReferenceIdeal.main_arg2).trans (Cert.ReferenceIdeal.RefFrame.arg2_kept m' c),
    (h c Cert.ReferenceIdeal.main_arg3).trans (Cert.ReferenceIdeal.RefFrame.arg3_kept m' c),
    (h c Cert.ReferenceIdeal.main_arg4).trans (Cert.ReferenceIdeal.RefFrame.arg4_kept m' c),
    (h c Cert.ReferenceIdeal.main_arg5).trans (Cert.ReferenceIdeal.RefFrame.arg5_kept m' c)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
